-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S2048x2048 .f32) (main_arg10 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩
abbrev S1024x2048 : Shape := ⟨2, ![1024, 2048]⟩
abbrev S1024x512 : Shape := ⟨2, ![1024, 512]⟩

abbrev nBuf : Space → Nat
  | .hbm => 38
  | .vmem => 92
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S1x2048, .f32⟩
  | .hbm, ⟨37, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S1x512, .f32⟩
  | .local _ .vmem, ⟨9, _⟩ => ⟨S1x512, .f32⟩
  | .local _ .vmem, ⟨10, _⟩ => ⟨S512x2048, .bf16⟩
  | .local _ .vmem, ⟨11, _⟩ => ⟨S512x2048, .bf16⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S512x128, .f32⟩
  | .local _ .vmem, ⟨27, _⟩ => ⟨S512x128, .f32⟩
  | .local _ .vmem, ⟨28, _⟩ => ⟨S1024x2048, .f32⟩
  | .local _ .vmem, ⟨29, _⟩ => ⟨S1024x2048, .f32⟩
  | .local _ .vmem, ⟨30, _⟩ => ⟨S512x2048, .bf16⟩
  | .local _ .vmem, ⟨31, _⟩ => ⟨S512x2048, .bf16⟩
  | .local _ .vmem, ⟨32, _⟩ => ⟨S1x512, .f32⟩
  | .local _ .vmem, ⟨33, _⟩ => ⟨S1x512, .f32⟩
  | .local _ .vmem, ⟨34, _⟩ => ⟨S1024x512, .f32⟩
  | .local _ .vmem, ⟨35, _⟩ => ⟨S1024x512, .f32⟩
  | .local _ .vmem, ⟨36, _⟩ => ⟨S1024x2048, .f32⟩
  | .local _ .vmem, ⟨37, _⟩ => ⟨S1024x2048, .f32⟩
  | .local _ .vmem, ⟨38, _⟩ => ⟨S512x2048, .bf16⟩
  | .local _ .vmem, ⟨39, _⟩ => ⟨S512x2048, .bf16⟩
  | .local _ .vmem, ⟨40, _⟩ => ⟨S1x512, .f32⟩
  | .local _ .vmem, ⟨41, _⟩ => ⟨S1x512, .f32⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S512x2048, .f32⟩
  | .local _ .vmem, ⟨47, _⟩ => ⟨S512x2048, .f32⟩
  | .local _ .vmem, ⟨48, _⟩ => ⟨S512x2048, .bf16⟩
  | .local _ .vmem, ⟨49, _⟩ => ⟨S512x2048, .bf16⟩
  | .local _ .vmem, ⟨50, _⟩ => ⟨S1x512, .f32⟩
  | .local _ .vmem, ⟨51, _⟩ => ⟨S1x512, .f32⟩
  | .local _ .vmem, ⟨52, _⟩ => ⟨S512x2048, .bf16⟩
  | .local _ .vmem, ⟨53, _⟩ => ⟨S512x2048, .bf16⟩
  | .local _ .vmem, ⟨54, _⟩ => ⟨S1x512, .f32⟩
  | .local _ .vmem, ⟨55, _⟩ => ⟨S1x512, .f32⟩
  | .local _ .vmem, ⟨56, _⟩ => ⟨S512x2048, .bf16⟩
  | .local _ .vmem, ⟨57, _⟩ => ⟨S512x2048, .bf16⟩
  | .local _ .vmem, ⟨58, _⟩ => ⟨S1x512, .f32⟩
  | .local _ .vmem, ⟨59, _⟩ => ⟨S1x512, .f32⟩
  | .local _ .vmem, ⟨60, _⟩ => ⟨S512x512, .f32⟩
  | .local _ .vmem, ⟨61, _⟩ => ⟨S512x512, .f32⟩
  | .local _ .vmem, ⟨62, _⟩ => ⟨S512x512, .f32⟩
  | .local _ .vmem, ⟨63, _⟩ => ⟨S512x512, .f32⟩
  | .local _ .vmem, ⟨64, _⟩ => ⟨S512x512, .f32⟩
  | .local _ .vmem, ⟨65, _⟩ => ⟨S512x512, .f32⟩
  | .local _ .vmem, ⟨66, _⟩ => ⟨S512x128, .f32⟩
  | .local _ .vmem, ⟨67, _⟩ => ⟨S512x128, .f32⟩
  | .local _ .vmem, ⟨68, _⟩ => ⟨S2048x128, .f32⟩
  | .local _ .vmem, ⟨69, _⟩ => ⟨S2048x128, .f32⟩
  | .local _ .vmem, ⟨70, _⟩ => ⟨S2048x128, .f32⟩
  | .local _ .vmem, ⟨71, _⟩ => ⟨S2048x128, .f32⟩
  | .local _ .vmem, ⟨72, _⟩ => ⟨S512x128, .f32⟩
  | .local _ .vmem, ⟨73, _⟩ => ⟨S512x128, .f32⟩
  | .local _ .vmem, ⟨74, _⟩ => ⟨S1024x2048, .f32⟩
  | .local _ .vmem, ⟨75, _⟩ => ⟨S1024x2048, .f32⟩
  | .local _ .vmem, ⟨76, _⟩ => ⟨S512x2048, .bf16⟩
  | .local _ .vmem, ⟨77, _⟩ => ⟨S512x2048, .bf16⟩
  | .local _ .vmem, ⟨78, _⟩ => ⟨S1x512, .f32⟩
  | .local _ .vmem, ⟨79, _⟩ => ⟨S1x512, .f32⟩
  | .local _ .vmem, ⟨80, _⟩ => ⟨S1024x512, .f32⟩
  | .local _ .vmem, ⟨81, _⟩ => ⟨S1024x512, .f32⟩
  | .local _ .vmem, ⟨82, _⟩ => ⟨S1024x2048, .f32⟩
  | .local _ .vmem, ⟨83, _⟩ => ⟨S1024x2048, .f32⟩
  | .local _ .vmem, ⟨84, _⟩ => ⟨S512x2048, .bf16⟩
  | .local _ .vmem, ⟨85, _⟩ => ⟨S512x2048, .bf16⟩
  | .local _ .vmem, ⟨86, _⟩ => ⟨S1x512, .f32⟩
  | .local _ .vmem, ⟨87, _⟩ => ⟨S1x512, .f32⟩
  | .local _ .vmem, ⟨88, _⟩ => ⟨S1024x512, .f32⟩
  | .local _ .vmem, ⟨89, _⟩ => ⟨S1024x512, .f32⟩
  | .local _ .vmem, ⟨90, _⟩ => ⟨S1024x512, .f32⟩
  | .local _ .vmem, ⟨91, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc4_stg7_0 : Ref sig .tc := ⟨.vmem, 60, rfl⟩
abbrev cc4_stg7_1 : Ref sig .tc := ⟨.vmem, 61, rfl⟩
abbrev cc4_stg8_0 : Ref sig .tc := ⟨.vmem, 62, rfl⟩
abbrev cc4_stg8_1 : Ref sig .tc := ⟨.vmem, 63, rfl⟩
abbrev cc4_stg9_0 : Ref sig .tc := ⟨.vmem, 64, rfl⟩
abbrev cc4_stg9_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg2_1 : Ref sig .tc := ⟨.vmem, 71, rfl⟩
abbrev cc5_stg3_0 : Ref sig .tc := ⟨.vmem, 72, rfl⟩
abbrev cc5_stg3_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg1_1 : Ref sig .tc := ⟨.vmem, 77, rfl⟩
abbrev cc6_stg2_0 : Ref sig .tc := ⟨.vmem, 78, rfl⟩
abbrev cc6_stg2_1 : Ref sig .tc := ⟨.vmem, 79, rfl⟩
abbrev cc6_stg3_0 : Ref sig .tc := ⟨.vmem, 80, rfl⟩
abbrev cc6_stg3_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_stg2_1 : Ref sig .tc := ⟨.vmem, 87, rfl⟩
abbrev cc7_stg3_0 : Ref sig .tc := ⟨.vmem, 88, rfl⟩
abbrev cc7_stg3_1 : Ref sig .tc := ⟨.vmem, 89, rfl⟩
abbrev cc7_stg4_0 : Ref sig .tc := ⟨.vmem, 90, rfl⟩
abbrev cc7_stg4_1 : Ref sig .tc := ⟨.vmem, 91, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc4_sem6_0 : DmaSem sig := 58
abbrev cc4_sem6_1 : DmaSem sig := 59
abbrev cc4_sem7_0 : DmaSem sig := 60
abbrev cc4_sem7_1 : DmaSem sig := 61
abbrev cc4_sem8_0 : DmaSem sig := 62
abbrev cc4_sem8_1 : DmaSem sig := 63
abbrev cc4_sem9_0 : DmaSem sig := 64
abbrev cc4_sem9_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem3_1 : DmaSem sig := 73
abbrev cc6_sem0_0 : DmaSem sig := 74
abbrev cc6_sem0_1 : DmaSem sig := 75
abbrev cc6_sem1_0 : DmaSem sig := 76
abbrev cc6_sem1_1 : DmaSem sig := 77
abbrev cc6_sem2_0 : DmaSem sig := 78
abbrev cc6_sem2_1 : DmaSem sig := 79
abbrev cc6_sem3_0 : DmaSem sig := 80
abbrev cc6_sem3_1 : DmaSem sig := 81
abbrev cc7_sem0_0 : DmaSem sig := 82
abbrev cc7_sem0_1 : DmaSem sig := 83
abbrev cc7_sem1_0 : DmaSem sig := 84
abbrev cc7_sem1_1 : DmaSem sig := 85
abbrev cc7_sem2_0 : DmaSem sig := 86
abbrev cc7_sem2_1 : DmaSem sig := 87
abbrev cc7_sem3_0 : DmaSem sig := 88
abbrev cc7_sem3_1 : DmaSem sig := 89
abbrev cc7_sem4_0 : DmaSem sig := 90
abbrev cc7_sem4_1 : DmaSem sig := 91

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S512x2048 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![false, true]

abbrev stage4_6 : Fin 2 → Memref sig .tc .vmem S1x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![false, true]

abbrev stage4_7 : Fin 2 → Memref sig .tc .vmem S512x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S512x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S512x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev grid5 : Pipeline.Grid := ⟨2, ![16, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1024x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![2, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1024x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S512x2048_S512 : S512x2048.Reduces [1] S512
  shapeCasts_S512_S512x1 : S512.ShapeCasts S512x1
  broadcasts_S512x1_S512x2048 : S512x1.Broadcasts S512x2048
  broadcasts_S512x1_S512x128 : S512x1.Broadcasts S512x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S512x2048_S512x2048_S512x512_1_1_0_0_n_n_wf : DotDims.WF S512x2048 S512x2048 S512x512 [1] [1] [0] [0] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .bf16 = 32 ∨ (Rect.block (s := S2048x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S2048x2048.size a
  hwx0_7 : ∀ i : grid0.Coords, EltTy.bits .f32 = 32 ∨ (Rect.block (s := S2048x2048) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S2048x2048.size a
  hwx0_8 : ∀ i : grid0.Coords, EltTy.bits .f32 = 32 ∨ (Rect.block (s := S2048x2048) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S2048x2048.size a
  hwx0_9 : ∀ i : grid0.Coords, EltTy.bits .f32 = 32 ∨ (Rect.block (s := S2048x2048) S512x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S2048x2048.size a
  hwx1_0 : ∀ i : grid1.Coords, EltTy.bits .f32 = 32 ∨ (Rect.block (s := S2048x2048) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x2048.size a
  hwx1_1 : ∀ i : grid1.Coords, EltTy.bits .f32 = 32 ∨ (Rect.block (s := S2048x2048) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S2048x2048.size a
  hwx1_2 : ∀ i : grid1.Coords, EltTy.bits .f32 = 32 ∨ (Rect.block (s := S2048x2048) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S2048x2048.size a
  hwx1_3 : ∀ i : grid1.Coords, EltTy.bits .f32 = 32 ∨ (Rect.block (s := S2048x2048) S512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S2048x2048.size a
  hwx2_0 : ∀ i : grid2.Coords, EltTy.bits .f32 = 32 ∨ (Rect.block (s := S2048x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .bf16 = 32 ∨ (Rect.block (s := S2048x2048) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S2048x2048.size a
  hwx2_3 : ∀ i : grid2.Coords, EltTy.bits .f32 = 32 ∨ (Rect.block (s := S2048x2048) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S2048x2048.size a
  hwx3_0 : ∀ i : grid3.Coords, EltTy.bits .f32 = 32 ∨ (Rect.block (s := S2048x2048) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S2048x2048.size a
  hwx3_1 : ∀ i : grid3.Coords, EltTy.bits .bf16 = 32 ∨ (Rect.block (s := S2048x2048) S512x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x2048.size a
  hwx3_2 : ∀ i : grid3.Coords, EltTy.bits .f32 = 32 ∨ (Rect.block (s := S1x2048) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S2048x2048.size a
  hwx3_3 : ∀ i : grid3.Coords, EltTy.bits .f32 = 32 ∨ (Rect.block (s := S2048x2048) S1024x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S2048x2048.size a
  hwx3_4 : ∀ i : grid3.Coords, EltTy.bits .f32 = 32 ∨ (Rect.block (s := S2048x2048) S1024x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S2048x2048.size a
  hwx4_0 : ∀ i : grid4.Coords, EltTy.bits .f32 = 32 ∨ (Rect.block (s := S2048x2048) S512x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S2048x2048.size a
  hwx4_1 : ∀ i : grid4.Coords, EltTy.bits .bf16 = 32 ∨ (Rect.block (s := S2048x2048) S512x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x2048.size a
  hwx4_2 : ∀ i : grid4.Coords, EltTy.bits .f32 = 32 ∨ (Rect.block (s := S1x2048) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S2048x2048.size a
  hwx4_3 : ∀ i : grid4.Coords, EltTy.bits .bf16 = 32 ∨ (Rect.block (s := S2048x2048) S512x2048.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x2048.size a
  hwx4_4 : ∀ i : grid4.Coords, EltTy.bits .f32 = 32 ∨ (Rect.block (s := S1x2048) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x2048.size a ≤ S2048x2048.size a
  hwx4_5 : ∀ i : grid4.Coords, EltTy.bits .bf16 = 32 ∨ (Rect.block (s := S2048x2048) S512x2048.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x2048.size a
  hwx4_6 : ∀ i : grid4.Coords, EltTy.bits .f32 = 32 ∨ (Rect.block (s := S1x2048) S1x512.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x512.size a ≤ S2048x2048.size a
  hwx4_7 : ∀ i : grid4.Coords, EltTy.bits .f32 = 32 ∨ (Rect.block (s := S2048x2048) S512x512.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S512x512.size a ≤ S2048x2048.size a
  hwx4_8 : ∀ i : grid4.Coords, EltTy.bits .f32 = 32 ∨ (Rect.block (s := S2048x2048) S512x512.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S512x512.size a ≤ S2048x2048.size a
  hwx4_9 : ∀ i : grid4.Coords, EltTy.bits .f32 = 32 ∨ (Rect.block (s := S2048x2048) S512x512.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S2048x2048.size a
  hwx5_0 : ∀ i : grid5.Coords, EltTy.bits .f32 = 32 ∨ (Rect.block (s := S2048x2048) S512x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S2048x2048.size a
  hwx5_1 : ∀ i : grid5.Coords, EltTy.bits .f32 = 32 ∨ (Rect.block (s := S2048x2048) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S2048x2048.size a
  hwx5_2 : ∀ i : grid5.Coords, EltTy.bits .f32 = 32 ∨ (Rect.block (s := S2048x2048) S2048x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x128.size a ≤ S2048x2048.size a
  hwx5_3 : ∀ i : grid5.Coords, EltTy.bits .f32 = 32 ∨ (Rect.block (s := S2048x2048) S512x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x2048.size a ≤ S2048x2048.size a
  hwx6_0 : ∀ i : grid6.Coords, EltTy.bits .f32 = 32 ∨ (Rect.block (s := S2048x2048) S1024x2048.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x2048.size a ≤ S2048x2048.size a
  hwx6_1 : ∀ i : grid6.Coords, EltTy.bits .bf16 = 32 ∨ (Rect.block (s := S2048x2048) S512x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x2048.size a
  hwx6_2 : ∀ i : grid6.Coords, EltTy.bits .f32 = 32 ∨ (Rect.block (s := S1x2048) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x512.size a ≤ S2048x2048.size a
  hwx6_3 : ∀ i : grid6.Coords, EltTy.bits .f32 = 32 ∨ (Rect.block (s := S2048x2048) S1024x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S2048x2048.size a
  hwx7_0 : ∀ i : grid7.Coords, EltTy.bits .f32 = 32 ∨ (Rect.block (s := S2048x2048) S1024x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x2048.size a ≤ S2048x2048.size a
  hwx7_1 : ∀ i : grid7.Coords, EltTy.bits .bf16 = 32 ∨ (Rect.block (s := S2048x2048) S512x2048.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x2048.size a
  hwx7_2 : ∀ i : grid7.Coords, EltTy.bits .f32 = 32 ∨ (Rect.block (s := S1x2048) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S2048x2048.size a
  hwx7_3 : ∀ i : grid7.Coords, EltTy.bits .f32 = 32 ∨ (Rect.block (s := S2048x2048) S1024x512.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x512.size a ≤ S2048x2048.size a
  hwx7_4 : ∀ i : grid7.Coords, EltTy.bits .f32 = 32 ∨ (Rect.block (s := S2048x2048) S1024x512.size (cc7_transform_4 i) (hinb7_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S1024x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1024x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v13) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v1) S512x2048.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v15) S1x512.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v2) S512x2048.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v16) S1x512.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v17_0) S512x512.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v17_1) S512x512.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v17_2) S512x512.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v17_0) S512x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17_1) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v17_2) S2048x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v18) S512x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v18) S1024x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S512x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v19) S1x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v20) S1024x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v20) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v4) S512x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v21) S1x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v13) S1024x512.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v22) S1024x512.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S2048x2048 : Shape := ⟨2, ![2048, 2048]⟩
abbrev S2048 : Shape := ⟨1, ![2048]⟩
abbrev S1x2048 : Shape := ⟨2, ![1, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 129
  | .vmem => 0
  | .smem => 0
  | _ => 0

abbrev hbmTy0_0 (i : Nat) : BufTy := match i % 128 with
  | 0 => ⟨S2048x2048, .f32⟩
  | 1 => ⟨S2048x2048, .f32⟩
  | 2 => ⟨S2048, .f32⟩
  | 3 => ⟨S2048x2048, .f32⟩
  | 4 => ⟨S2048, .f32⟩
  | 5 => ⟨S2048x2048, .f32⟩
  | 6 => ⟨S2048, .f32⟩
  | 7 => ⟨S2048x2048, .f32⟩
  | 8 => ⟨S2048, .f32⟩
  | 9 => ⟨S2048x2048, .f32⟩
  | 10 => ⟨S2048, .f32⟩
  | 11 => ⟨S2048x2048, .f32⟩
  | 12 => ⟨S2048x2048, .f32⟩
  | 13 => ⟨S1x2048, .f32⟩
  | 14 => ⟨S2048x2048, .f32⟩
  | 15 => ⟨S2048x2048, .f32⟩
  | 16 => ⟨S2048x16x128, .f32⟩
  | 17 => ⟨S16x2048x128, .f32⟩
  | 18 => ⟨S2048x2048, .f32⟩
  | 19 => ⟨S2048x2048, .f32⟩
  | 20 => ⟨S1x2048, .f32⟩
  | 21 => ⟨S2048x2048, .f32⟩
  | 22 => ⟨S2048x2048, .f32⟩
  | 23 => ⟨S2048x16x128, .f32⟩
  | 24 => ⟨S16x2048x128, .f32⟩
  | 25 => ⟨S2048x2048, .f32⟩
  | 26 => ⟨S2048x2048, .f32⟩
  | 27 => ⟨S1x2048, .f32⟩
  | 28 => ⟨S2048x2048, .f32⟩
  | 29 => ⟨S2048x2048, .f32⟩
  | 30 => ⟨S2048x16x128, .f32⟩
  | 31 => ⟨S16x2048x128, .f32⟩
  | 32 => ⟨S16x2048x2048, .f32⟩
  | 33 => ⟨S_, .f32⟩
  | 34 => ⟨S16x2048x2048, .f32⟩
  | 35 => ⟨S16x2048x2048, .f32⟩
  | 36 => ⟨S_, .f32⟩
  | 37 => ⟨S16x2048, .f32⟩
  | 38 => ⟨S_, .f32⟩
  | 39 => ⟨S16x2048, .f32⟩
  | 40 => ⟨S16x2048, .f32⟩
  | 41 => ⟨S16x2048x1, .f32⟩
  | 42 => ⟨S16x2048x2048, .f32⟩
  | 43 => ⟨S16x2048x2048, .f32⟩
  | 44 => ⟨S16x2048x2048, .f32⟩
  | 45 => ⟨S_, .f32⟩
  | 46 => ⟨S16x2048, .f32⟩
  | 47 => ⟨S16x2048x1, .f32⟩
  | 48 => ⟨S16x2048x2048, .f32⟩
  | 49 => ⟨S16x2048x2048, .f32⟩
  | 50 => ⟨S16x2048x128, .f32⟩
  | 51 => ⟨S2048x16x128, .f32⟩
  | 52 => ⟨S2048x2048, .f32⟩
  | 53 => ⟨S2048x2048, .f32⟩
  | 54 => ⟨S2048x2048, .f32⟩
  | 55 => ⟨S1x2048, .f32⟩
  | 56 => ⟨S2048x2048, .f32⟩
  | 57 => ⟨S2048x2048, .f32⟩
  | 58 => ⟨S_, .f32⟩
  | 59 => ⟨S2048x2048, .f32⟩
  | 60 => ⟨S2048x2048, .f32⟩
  | 61 => ⟨S2048x2048, .f32⟩
  | 62 => ⟨S2048x2048, .f32⟩
  | 63 => ⟨S1x2048, .f32⟩
  | 64 => ⟨S2048x2048, .f32⟩
  | 65 => ⟨S2048x2048, .f32⟩
  | 66 => ⟨S_, .f32⟩
  | 67 => ⟨S2048x2048, .f32⟩
  | 68 => ⟨S2048x2048, .f32⟩
  | 69 => ⟨S2048x2048, .f32⟩
  | 70 => ⟨S2048x2048, .f32⟩
  | 71 => ⟨S2048x2048, .f32⟩
  | 72 => ⟨S1x2048, .f32⟩
  | 73 => ⟨S2048x2048, .f32⟩
  | 74 => ⟨S2048x2048, .f32⟩
  | 75 => ⟨S2048x16x128, .f32⟩
  | 76 => ⟨S16x2048x128, .f32⟩
  | 77 => ⟨S2048x2048, .f32⟩
  | 78 => ⟨S2048x2048, .f32⟩
  | 79 => ⟨S1x2048, .f32⟩
  | 80 => ⟨S2048x2048, .f32⟩
  | 81 => ⟨S2048x2048, .f32⟩
  | 82 => ⟨S2048x16x128, .f32⟩
  | 83 => ⟨S16x2048x128, .f32⟩
  | 84 => ⟨S2048x2048, .f32⟩
  | 85 => ⟨S2048x2048, .f32⟩
  | 86 => ⟨S1x2048, .f32⟩
  | 87 => ⟨S2048x2048, .f32⟩
  | 88 => ⟨S2048x2048, .f32⟩
  | 89 => ⟨S2048x16x128, .f32⟩
  | 90 => ⟨S16x2048x128, .f32⟩
  | 91 => ⟨S16x2048x2048, .f32⟩
  | 92 => ⟨S_, .f32⟩
  | 93 => ⟨S16x2048x2048, .f32⟩
  | 94 => ⟨S16x2048x2048, .f32⟩
  | 95 => ⟨S_, .f32⟩
  | 96 => ⟨S16x2048, .f32⟩
  | 97 => ⟨S_, .f32⟩
  | 98 => ⟨S16x2048, .f32⟩
  | 99 => ⟨S16x2048, .f32⟩
  | 100 => ⟨S16x2048x1, .f32⟩
  | 101 => ⟨S16x2048x2048, .f32⟩
  | 102 => ⟨S16x2048x2048, .f32⟩
  | 103 => ⟨S16x2048x2048, .f32⟩
  | 104 => ⟨S_, .f32⟩
  | 105 => ⟨S16x2048, .f32⟩
  | 106 => ⟨S16x2048x1, .f32⟩
  | 107 => ⟨S16x2048x2048, .f32⟩
  | 108 => ⟨S16x2048x2048, .f32⟩
  | 109 => ⟨S16x2048x128, .f32⟩
  | 110 => ⟨S2048x16x128, .f32⟩
  | 111 => ⟨S2048x2048, .f32⟩
  | 112 => ⟨S2048x2048, .f32⟩
  | 113 => ⟨S2048x2048, .f32⟩
  | 114 => ⟨S1x2048, .f32⟩
  | 115 => ⟨S2048x2048, .f32⟩
  | 116 => ⟨S2048x2048, .f32⟩
  | 117 => ⟨S_, .f32⟩
  | 118 => ⟨S2048x2048, .f32⟩
  | 119 => ⟨S2048x2048, .f32⟩
  | 120 => ⟨S2048x2048, .f32⟩
  | 121 => ⟨S2048x2048, .f32⟩
  | 122 => ⟨S1x2048, .f32⟩
  | 123 => ⟨S2048x2048, .f32⟩
  | 124 => ⟨S2048x2048, .f32⟩
  | 125 => ⟨S_, .f32⟩
  | 126 => ⟨S2048x2048, .f32⟩
  | 127 => ⟨S2048x2048, .f32⟩
  | _ => ⟨S2048x2048, .f32⟩

abbrev hbmTy0_1 (i : Nat) : BufTy := match i % 128 with
  | 0 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_3 : Ref sig .tc := ⟨.hbm, 92, rfl⟩
abbrev main_v73 : Ref sig .tc := ⟨.hbm, 93, rfl⟩
abbrev main_v74 : Ref sig .tc := ⟨.hbm, 94, rfl⟩
abbrev main_cst_4 : Ref sig .tc := ⟨.hbm, 95, rfl⟩
abbrev main_v75 : Ref sig .tc := ⟨.hbm, 96, rfl⟩
abbrev main_cst_5 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_6 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_call2_cst : Ref sig .tc := ⟨.hbm, 117, rfl⟩
abbrev main_call2_v0 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_call3_cst : Ref sig .tc := ⟨.hbm, 125, rfl⟩
abbrev main_call3_v0 : Ref sig .tc := ⟨.hbm, 126, rfl⟩
abbrev main_v100 : Ref sig .tc := ⟨.hbm, 127, rfl⟩
abbrev main_v101 : Ref sig .tc := ⟨.hbm, 128, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  shapeCasts_S2048x2048_S2048x16x128 : S2048x2048.ShapeCasts S2048x16x128
  transposes_S2048x16x128_S16x2048x128_1_0_2 : S2048x16x128.Transposes [1, 0, 2] S16x2048x128
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x128_S2048x16x128_1_0_2 : S16x2048x128.Transposes [1, 0, 2] S2048x16x128
  shapeCasts_S2048x16x128_S2048x2048 : S2048x16x128.ShapeCasts S2048x2048
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KernelRun.lean ====
/-
  The run of the idealized kernel program with its RESULT named.

  The program is eight pipelined regions among stretches of host operations. Its generated frame follows the buffer
  contents of the TensorCore from the launch memory through every segment boundary and ends with every unscoped
  buffer at the last boundary's contents; the frame statement then keeps only the argument arrays. Here the same
  launch is read once more, keeping the result array as well: it ends at the last boundary's contents of its buffer.
-/
import proofs.«155661_j52089363366285_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents
    the last segment boundary gives its buffer, and the argument arrays end as launched. -/
theorem run : θ_run defs (onTc (τ := τ) (main (F := F))) ⟨m, fun _ => 0, ρ⟩ (fun r => ∀ c : Dev nD,
      r.2.mem ((c.tc : Thread nD τ).loc main_v22) = W14 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v22 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Result

end
-- ==== Proof.Spec.lean ====
/-
  The mathematics both programs compute, over the extended reals, index by index.

  One round of multi-head self-attention on an entity matrix `x` (2048 entities, 2048 features, 16 heads of
  128 features): three affine maps `x · Wᵀ + b` give queries, keys and values; within head `h` the score of
  query `n` against key `k` is the inner product of their 128 features of that head, times a fixed scale;
  the weight of `k` is the exponential of its score minus the row's largest score; the head's output is the
  weighted mean of the values. Two further affine maps, each followed by `max · 0`, and the sum with `x` end
  the round.

  The weighted mean is written in two ways: as the quotient of the weighted sum by the total weight
  (`attnQuot`), and as the sum of the values times the normalised weights (`attnNorm`). They agree
  whenever the total weight is a positive real, because a positive real factor distributes over sums of
  extended reals.
-/
import Idealize.ShloMosaic.PureOps.Ideal
import Idealize.ShloMosaic.PureOps.Ideal.Laws
import Idealize.ShloMosaic.Lib.ValueIdx

noncomputable section

namespace Cert.Attn

open Idealize.ShloMosaic

/-- A 2048 × 2048 matrix of extended reals, and a vector of 2048. -/
abbrev Mat := Fin 2048 → Fin 2048 → EReal
abbrev Row := Fin 2048 → EReal

/-- Feature `e` of head `h` is column `128 · h + e`. -/
def col (h : Fin 16) (e : Fin 128) : Fin 2048 := ⟨128 * h.val + e.val, by omega⟩
/-- The head a column belongs to, and its place within the head. -/
def headOf (j : Fin 2048) : Fin 16 := ⟨j.val / 128, by omega⟩
def laneOf (j : Fin 2048) : Fin 128 := ⟨j.val % 128, Nat.mod_lt _ (by norm_num)⟩

theorem col_head_lane (j : Fin 2048) : col (headOf j) (laneOf j) = j :=
  Fin.ext (by simp only [col, headOf, laneOf]; omega)
theorem headOf_col (h : Fin 16) (e : Fin 128) : headOf (col h e) = h :=
  Fin.ext (by simp only [col, headOf]; omega)
theorem laneOf_col (h : Fin 16) (e : Fin 128) : laneOf (col h e) = e :=
  Fin.ext (by simp only [col, laneOf]; omega)

/-- The score scale (the single-precision number nearest 1/√128) and the starting value of a row maximum
    (minus infinity), as the bit patterns both programs carry. -/
def scale : EReal := Ideal.ofBits .f32 0x3DB504F3#32
def negInf : EReal := Ideal.ofBits .f32 0xFF800000#32

/-- The affine map `x · Wᵀ + b`. -/
def lin (x W : Mat) (b : Row) : Mat := fun n j => (∑ k, x n k * W j k) + b j

/-- Head `h`: the score of query `n` against key `k`. -/
def score (Q K : Mat) (h : Fin 16) (n k : Fin 2048) : EReal :=
  (∑ e : Fin 128, Q n (col h e) * K k (col h e)) * scale

/-- The largest score of query `n` in head `h`. -/
def rowMax (Q K : Mat) (h : Fin 16) (n : Fin 2048) : EReal :=
  (Finset.univ : Finset (Fin 2048)).fold max negInf (fun k => score Q K h n k)

/-- The unnormalised weight of key `k` for query `n` in head `h`. -/
def wgt (Q K : Mat) (h : Fin 16) (n k : Fin 2048) : EReal :=
  Ideal.exp (score Q K h n k - rowMax Q K h n)

/-- The weighted mean of the values as ONE quotient: weighted sum over total weight. -/
def attnQuot (Q K V : Mat) : Mat := fun n j =>
  Ideal.div (∑ k, wgt Q K (headOf j) n k * V k j) (∑ k, wgt Q K (headOf j) n k)

/-- The weighted mean of the values as a sum over normalised weights. -/
def attnNorm (Q K V : Mat) : Mat := fun n j =>
  ∑ k, Ideal.div (wgt Q K (headOf j) n k) (∑ k', wgt Q K (headOf j) n k') * V k j

/-- The ten parameter arrays of a round. -/
structure Params where
  Wq : Mat
  bq : Row
  Wk : Mat
  bk : Row
  Wv : Mat
  bv : Row
  W0 : Mat
  b0 : Row
  W1 : Mat
  b1 : Row

/-- One round, for either way `attn` of writing the weighted mean. -/
def round (attn : Mat → Mat → Mat → Mat) (P : Params) (x : Mat) : Mat :=
  let o : Mat := attn (lin x P.Wq P.bq) (lin x P.Wk P.bk) (lin x P.Wv P.bv)
  let h1 : Mat := fun n j => max (lin o P.W0 P.b0 n j) 0
  fun n j => x n j + max (lin h1 P.W1 P.b1 n j) 0

/-- An extended real that is a real number. -/
def IsReal (y : EReal) : Prop := ∃ r : ℝ, y = (r : EReal)

/-- Every entry of every parameter array is a real number. -/
structure Params.AllReal (P : Params) : Prop where
  Wq : ∀ i j, IsReal (P.Wq i j)
  bq : ∀ j, IsReal (P.bq j)
  Wk : ∀ i j, IsReal (P.Wk i j)
  bk : ∀ j, IsReal (P.bk j)
  Wv : ∀ i j, IsReal (P.Wv i j)
  bv : ∀ j, IsReal (P.bv j)
  W0 : ∀ i j, IsReal (P.W0 i j)
  b0 : ∀ j, IsReal (P.b0 j)
  W1 : ∀ i j, IsReal (P.W1 i j)
  b1 : ∀ j, IsReal (P.b1 j)

/-! ## Arrays of the programs' shapes as matrices -/

/-- The shapes of an entity or weight matrix and of a bias vector. -/
abbrev SMat : Shape := ⟨2, ![2048, 2048]⟩
abbrev SRow : Shape := ⟨1, ![2048]⟩

/-- An array of shape [2048, 2048] read as a matrix, a [2048] array as a vector, and back. -/
def toMat (a : SMat.Idx → EReal) : Mat := fun n j => a (ValueIdx.ix2 n j)
def toRow (a : SRow.Idx → EReal) : Row := fun j => a (ValueIdx.ix1 j)
def ofMat (M : Mat) : SMat.Idx → EReal := fun i => M (i 0) (i 1)

theorem ofMat_toMat (a : SMat.Idx → EReal) : ofMat (toMat a) = a :=
  funext fun i => (congrArg a (ValueIdx.eq_ix2 (n0 := 2048) (n1 := 2048) i)).symm
theorem toMat_ofMat (M : Mat) : toMat (ofMat M) = M := rfl

/-- The parameters, from the ten argument arrays in the programs' order. -/
def paramsOf (wq : SMat.Idx → EReal) (bq : SRow.Idx → EReal) (wk : SMat.Idx → EReal) (bk : SRow.Idx → EReal)
    (wv : SMat.Idx → EReal) (bv : SRow.Idx → EReal) (w0 : SMat.Idx → EReal) (b0 : SRow.Idx → EReal)
    (w1 : SMat.Idx → EReal) (b1 : SRow.Idx → EReal) : Params :=
  ⟨toMat wq, toRow bq, toMat wk, toRow bk, toMat wv, toRow bv, toMat w0, toRow b0, toMat w1, toRow b1⟩

/-- Two rounds from the entity array `x`, as an array again. -/
def twoRounds (attn : Mat → Mat → Mat → Mat) (P : Params) (x : SMat.Idx → EReal) : SMat.Idx → EReal :=
  ofMat (round attn P (round attn P (toMat x)))

end Cert.Attn

end
-- ==== Proof.RegionSpec.lean ====
/-
  What each pipelined region of the kernel program leaves in its output array, as a function of the arrays the region
  finds when it is entered.

  The program has four kinds of region, each used once per round: the three affine maps giving queries, keys and
  values (one region, three output arrays); the attention of every head (weighted mean of the values, written as one
  quotient); an affine map followed by `max · 0`; and the same added to a further array. Each is stated through the
  matrices of the specification. A bias enters a region as a one-row array.
-/
import proofs.«155661_j52089363366285_2_alg».proof.Proof.Spec
import proofs.«155661_j52089363366285_2_alg».proof.Proof.Gen.KernelIdeal.Frame

set_option maxRecDepth 16384

noncomputable section

namespace Cert.KernelIdeal.Region

open Idealize.ShloMosaic Idealize.ShloMosaic.TcCoe Idealize.ShloMosaic.ValueIdx Idealize.SL.Sem
open Cert.Attn Cert.KernelIdeal Cert.KernelIdeal.Gen

/-- A one-row array `[1, 2048]` read as a vector. -/
def rowOf (b : S1x2048.Idx → EReal) : Row := fun j => b (ix2 (0 : Fin 1) j)

/-- `x · Wᵀ + b` as an array. -/
def linArr (x w : S2048x2048.Idx → EReal) (b : S1x2048.Idx → EReal) : S2048x2048.Idx → EReal :=
  ofMat (lin (toMat x) (toMat w) (rowOf b))

/-- The heads' weighted means of the values, each written as one quotient, as an array. -/
def attnArr (q k v : S2048x2048.Idx → EReal) : S2048x2048.Idx → EReal :=
  ofMat (attnQuot (toMat q) (toMat k) (toMat v))

/-- `max (x · Wᵀ + b) 0` as an array. -/
def linReluArr (x w : S2048x2048.Idx → EReal) (b : S1x2048.Idx → EReal) : S2048x2048.Idx → EReal :=
  ofMat fun n j => max (lin (toMat x) (toMat w) (rowOf b) n j) 0

/-- `r + max (x · Wᵀ + b) 0` as an array. -/
def linReluAddArr (x w : S2048x2048.Idx → EReal) (b : S1x2048.Idx → EReal) (r : S2048x2048.Idx → EReal) :
    S2048x2048.Idx → EReal :=
  ofMat fun n j => toMat r n j + max (lin (toMat x) (toMat w) (rowOf b) n j) 0

/-- Region 0: its output arrays after the region, from the arrays it finds at entry. -/
def Final0 : Prop :=
  ∀ (V : (c : Dev nD) → (b : Ref sig .tc) → Buf (Elt Ideal) ((c : Thread nD τ).loc b)) (c : Dev nD),
      (dat0 (F := Ideal) V c).arrAt 7 cfg0.N = linArr (V c (Pipeline.arrRef spec0 0)) (V c (Pipeline.arrRef spec0 1)) (V c (Pipeline.arrRef spec0 2))
      ∧ (dat0 (F := Ideal) V c).arrAt 8 cfg0.N = linArr (V c (Pipeline.arrRef spec0 0)) (V c (Pipeline.arrRef spec0 3)) (V c (Pipeline.arrRef spec0 4))
      ∧ (dat0 (F := Ideal) V c).arrAt 9 cfg0.N = linArr (V c (Pipeline.arrRef spec0 0)) (V c (Pipeline.arrRef spec0 5)) (V c (Pipeline.arrRef spec0 6))

/-- Region 1: its output array after the region, from the arrays it finds at entry. -/
def Final1 : Prop :=
  ∀ (V : (c : Dev nD) → (b : Ref sig .tc) → Buf (Elt Ideal) ((c : Thread nD τ).loc b)) (c : Dev nD),
      (dat1 (F := Ideal) V c).arrAt 3 cfg1.N = attnArr (V c (Pipeline.arrRef spec1 0)) (V c (Pipeline.arrRef spec1 1)) (V c (Pipeline.arrRef spec1 2))

/-- Region 2: its output array after the region, from the arrays it finds at entry. -/
def Final2 : Prop :=
  ∀ (V : (c : Dev nD) → (b : Ref sig .tc) → Buf (Elt Ideal) ((c : Thread nD τ).loc b)) (c : Dev nD),
      (dat2 (F := Ideal) V c).arrAt 3 cfg2.N = linReluArr (V c (Pipeline.arrRef spec2 0)) (V c (Pipeline.arrRef spec2 1)) (V c (Pipeline.arrRef spec2 2))

/-- Region 3: its output array after the region, from the arrays it finds at entry. -/
def Final3 : Prop :=
  ∀ (V : (c : Dev nD) → (b : Ref sig .tc) → Buf (Elt Ideal) ((c : Thread nD τ).loc b)) (c : Dev nD),
      (dat3 (F := Ideal) V c).arrAt 4 cfg3.N = linReluAddArr (V c (Pipeline.arrRef spec3 0)) (V c (Pipeline.arrRef spec3 1)) (V c (Pipeline.arrRef spec3 2)) (V c (Pipeline.arrRef spec3 3))

/-- Region 4: its output arrays after the region, from the arrays it finds at entry. -/
def Final4 : Prop :=
  ∀ (V : (c : Dev nD) → (b : Ref sig .tc) → Buf (Elt Ideal) ((c : Thread nD τ).loc b)) (c : Dev nD),
      (dat4 (F := Ideal) V c).arrAt 7 cfg4.N = linArr (V c (Pipeline.arrRef spec4 0)) (V c (Pipeline.arrRef spec4 1)) (V c (Pipeline.arrRef spec4 2))
      ∧ (dat4 (F := Ideal) V c).arrAt 8 cfg4.N = linArr (V c (Pipeline.arrRef spec4 0)) (V c (Pipeline.arrRef spec4 3)) (V c (Pipeline.arrRef spec4 4))
      ∧ (dat4 (F := Ideal) V c).arrAt 9 cfg4.N = linArr (V c (Pipeline.arrRef spec4 0)) (V c (Pipeline.arrRef spec4 5)) (V c (Pipeline.arrRef spec4 6))

/-- Region 5: its output array after the region, from the arrays it finds at entry. -/
def Final5 : Prop :=
  ∀ (V : (c : Dev nD) → (b : Ref sig .tc) → Buf (Elt Ideal) ((c : Thread nD τ).loc b)) (c : Dev nD),
      (dat5 (F := Ideal) V c).arrAt 3 cfg5.N = attnArr (V c (Pipeline.arrRef spec5 0)) (V c (Pipeline.arrRef spec5 1)) (V c (Pipeline.arrRef spec5 2))

/-- Region 6: its output array after the region, from the arrays it finds at entry. -/
def Final6 : Prop :=
  ∀ (V : (c : Dev nD) → (b : Ref sig .tc) → Buf (Elt Ideal) ((c : Thread nD τ).loc b)) (c : Dev nD),
      (dat6 (F := Ideal) V c).arrAt 3 cfg6.N = linReluArr (V c (Pipeline.arrRef spec6 0)) (V c (Pipeline.arrRef spec6 1)) (V c (Pipeline.arrRef spec6 2))

/-- Region 7: its output array after the region, from the arrays it finds at entry. -/
def Final7 : Prop :=
  ∀ (V : (c : Dev nD) → (b : Ref sig .tc) → Buf (Elt Ideal) ((c : Thread nD τ).loc b)) (c : Dev nD),
      (dat7 (F := Ideal) V c).arrAt 4 cfg7.N = linReluAddArr (V c (Pipeline.arrRef spec7 0)) (V c (Pipeline.arrRef spec7 1)) (V c (Pipeline.arrRef spec7 2)) (V c (Pipeline.arrRef spec7 3))

end Cert.KernelIdeal.Region

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.PayLinear.lean ====
/-
  The linear layers of the kernel, read entry by entry over the extended reals.

  Every linear layer multiplies a block of rows `x` (each row has 2048 features) by the transpose of a block of
  512 rows of a weight matrix `w` and adds the matching 512 entries of a bias row `b`: entry `(p, q)` of the
  result is `(∑ k, x (p, k) · w (q, k)) + b (0, q)`. Rounding the operand to a narrower format before the
  product is the identity over the extended reals, and the product's accumulator starts at zero.

  Three shapes of layer occur, each once per round:
    • the query, key and value maps: the affine map alone, on 512 rows;
    • the first feed-forward map: the affine map followed by the maximum with zero, on 1024 rows;
    • the second feed-forward map: the same, added to the entry `(p, q)` of a residual block `r`, the
      residual on the left: `r (p, q) + max ((∑ k, x (p, k) · w (q, k)) + b (0, q)) 0`.
  The second round's layers compute the same functions as the first round's.
-/
import proofs.«155661_j52089363366285_2_alg».proof.Proof.Gen.KernelIdeal.Skeleton
import proofs.«155661_j52089363366285_2_alg».proof.Proof.LibTransposedProduct
import proofs.«155661_j52089363366285_2_alg».proof.Proof.LibRepeat
import Idealize.ShloMosaic.Lib.Pipeline.Value
import Idealize.ShloMosaic.Lib.ValueIdx

noncomputable section

namespace Cert.KernelIdeal.Pay

open Idealize.ShloMosaic Idealize.ShloMosaic.ValueIdx Cert.KernelIdeal Cert.KernelIdeal.Gen

/-! ## The first round -/

/-- First round, the query map: entry `(p, q)` is the inner product of row `p` of `x0` with row `q` of `w`,
    plus entry `q` of the bias row. -/
theorem k0_pay2_apply (x0 : Vec Ideal S512x2048 .f32) (w : Vec Ideal S512x2048 .bf16) (b : Vec Ideal S1x512 .f32)
    (p q : Fin 512) :
    k0_pay2 (F := Ideal) x0 w b (ix2 p q)
      = (∑ k : Fin 2048, x0 (ix2 p k) * w (ix2 q k)) + b (ix2 (0 : Fin 1) q) := by
  unfold k0_pay2 k0_pay1
  rw [addf_apply]
  rw [shapeCast_self, shapeCast_self]
  rw [Cert.Lib.Repeat.rowRepeat_apply]
  rw [Cert.Lib.TransposedProduct.matmul_apply (m := 512) (k := 2048) (n := 512)
    dot_S512x2048_S512x2048_S512x512_1_1_0_0_n_n rfl]
  rfl

/-- First round, the key map: entry `(p, q)` is the inner product of row `p` of `x0` with row `q` of `w`,
    plus entry `q` of the bias row. -/
theorem k0_pay3_apply (x0 : Vec Ideal S512x2048 .f32) (w : Vec Ideal S512x2048 .bf16) (b : Vec Ideal S1x512 .f32)
    (p q : Fin 512) :
    k0_pay3 (F := Ideal) x0 w b (ix2 p q)
      = (∑ k : Fin 2048, x0 (ix2 p k) * w (ix2 q k)) + b (ix2 (0 : Fin 1) q) := by
  unfold k0_pay3 k0_pay1
  rw [addf_apply]
  rw [shapeCast_self, shapeCast_self]
  rw [Cert.Lib.Repeat.rowRepeat_apply]
  rw [Cert.Lib.TransposedProduct.matmul_apply (m := 512) (k := 2048) (n := 512)
    dot_S512x2048_S512x2048_S512x512_1_1_0_0_n_n rfl]
  rfl

/-- First round, the value map: entry `(p, q)` is the inner product of row `p` of `x0` with row `q` of `w`,
    plus entry `q` of the bias row. -/
theorem k0_pay4_apply (x0 : Vec Ideal S512x2048 .f32) (w : Vec Ideal S512x2048 .bf16) (b : Vec Ideal S1x512 .f32)
    (p q : Fin 512) :
    k0_pay4 (F := Ideal) x0 w b (ix2 p q)
      = (∑ k : Fin 2048, x0 (ix2 p k) * w (ix2 q k)) + b (ix2 (0 : Fin 1) q) := by
  unfold k0_pay4 k0_pay1
  rw [addf_apply]
  rw [shapeCast_self, shapeCast_self]
  rw [Cert.Lib.Repeat.rowRepeat_apply]
  rw [Cert.Lib.TransposedProduct.matmul_apply (m := 512) (k := 2048) (n := 512)
    dot_S512x2048_S512x2048_S512x512_1_1_0_0_n_n rfl]
  rfl

/-- First round, the first feed-forward map: entry `(p, q)` is the maximum with zero of the inner product of row
    `p` of `x0` with row `q` of `x1` plus entry `q` of the bias row. -/
theorem k2_pay1_apply (x0 : Vec Ideal S1024x2048 .f32) (x1 : Vec Ideal S512x2048 .bf16) (x2 : Vec Ideal S1x512 .f32)
    (p : Fin 1024) (q : Fin 512) :
    k2_pay1 (F := Ideal) x0 x1 x2 (ix2 p q)
      = max ((∑ k : Fin 2048, x0 (ix2 p k) * x1 (ix2 q k)) + x2 (ix2 (0 : Fin 1) q)) 0 := by
  unfold k2_pay1
  rw [maximumf_apply, addf_apply, broadcast_apply]
  rw [shapeCast_self, shapeCast_self, shapeCast_self]
  rw [Cert.Lib.Repeat.rowRepeat_apply]
  rw [Cert.Lib.TransposedProduct.matmul_apply (m := 1024) (k := 2048) (n := 512)
    dot_S1024x2048_S512x2048_S1024x512_1_1_0_0_n_n rfl]
  show max (_ + _) (Ideal.ofBits .f32 0x00000000#32) = _
  rw [Ideal.ofBits_zero_f32]
  rfl

/-- First round, the second feed-forward map with its residual: entry `(p, q)` of the residual block `x3` plus
    the maximum with zero of the inner product of row `p` of `x0` with row `q` of `x1` plus entry `q` of the
    bias row. -/
theorem k3_pay1_apply (x0 : Vec Ideal S1024x2048 .f32) (x1 : Vec Ideal S512x2048 .bf16) (x2 : Vec Ideal S1x512 .f32)
    (x3 : Vec Ideal S1024x512 .f32) (p : Fin 1024) (q : Fin 512) :
    k3_pay1 (F := Ideal) x0 x1 x2 x3 (ix2 p q)
      = x3 (ix2 p q) + max ((∑ k : Fin 2048, x0 (ix2 p k) * x1 (ix2 q k)) + x2 (ix2 (0 : Fin 1) q)) 0 := by
  unfold k3_pay1
  rw [addf_apply, maximumf_apply, addf_apply, broadcast_apply]
  rw [shapeCast_self, shapeCast_self, shapeCast_self]
  rw [Cert.Lib.Repeat.rowRepeat_apply]
  rw [Cert.Lib.TransposedProduct.matmul_apply (m := 1024) (k := 2048) (n := 512)
    dot_S1024x2048_S512x2048_S1024x512_1_1_0_0_n_n rfl]
  show _ + max (_ + _) (Ideal.ofBits .f32 0x00000000#32) = _
  rw [Ideal.ofBits_zero_f32]
  rfl

/-! ## The second round -/

/-- Second round, the query map: entry `(p, q)` is the inner product of row `p` of `x0` with row `q` of `w`,
    plus entry `q` of the bias row. -/
theorem k4_pay2_apply (x0 : Vec Ideal S512x2048 .f32) (w : Vec Ideal S512x2048 .bf16) (b : Vec Ideal S1x512 .f32)
    (p q : Fin 512) :
    k4_pay2 (F := Ideal) x0 w b (ix2 p q)
      = (∑ k : Fin 2048, x0 (ix2 p k) * w (ix2 q k)) + b (ix2 (0 : Fin 1) q) := by
  unfold k4_pay2 k4_pay1
  rw [addf_apply]
  rw [shapeCast_self, shapeCast_self, shapeCast_self]
  rw [Cert.Lib.Repeat.rowRepeat_apply]
  rw [Cert.Lib.TransposedProduct.matmul_apply (m := 512) (k := 2048) (n := 512)
    dot_S512x2048_S512x2048_S512x512_1_1_0_0_n_n rfl]
  rfl

/-- Second round, the key map: entry `(p, q)` is the inner product of row `p` of `x0` with row `q` of `w`,
    plus entry `q` of the bias row. -/
theorem k4_pay3_apply (x0 : Vec Ideal S512x2048 .f32) (w : Vec Ideal S512x2048 .bf16) (b : Vec Ideal S1x512 .f32)
    (p q : Fin 512) :
    k4_pay3 (F := Ideal) x0 w b (ix2 p q)
      = (∑ k : Fin 2048, x0 (ix2 p k) * w (ix2 q k)) + b (ix2 (0 : Fin 1) q) := by
  unfold k4_pay3 k4_pay1
  rw [addf_apply]
  rw [shapeCast_self, shapeCast_self, shapeCast_self]
  rw [Cert.Lib.Repeat.rowRepeat_apply]
  rw [Cert.Lib.TransposedProduct.matmul_apply (m := 512) (k := 2048) (n := 512)
    dot_S512x2048_S512x2048_S512x512_1_1_0_0_n_n rfl]
  rfl

/-- Second round, the value map: entry `(p, q)` is the inner product of row `p` of `x0` with row `q` of `w`,
    plus entry `q` of the bias row. -/
theorem k4_pay4_apply (x0 : Vec Ideal S512x2048 .f32) (w : Vec Ideal S512x2048 .bf16) (b : Vec Ideal S1x512 .f32)
    (p q : Fin 512) :
    k4_pay4 (F := Ideal) x0 w b (ix2 p q)
      = (∑ k : Fin 2048, x0 (ix2 p k) * w (ix2 q k)) + b (ix2 (0 : Fin 1) q) := by
  unfold k4_pay4 k4_pay1
  rw [addf_apply]
  rw [shapeCast_self, shapeCast_self, shapeCast_self]
  rw [Cert.Lib.Repeat.rowRepeat_apply]
  rw [Cert.Lib.TransposedProduct.matmul_apply (m := 512) (k := 2048) (n := 512)
    dot_S512x2048_S512x2048_S512x512_1_1_0_0_n_n rfl]
  rfl

/-- Second round, the first feed-forward map: entry `(p, q)` is the maximum with zero of the inner product of row
    `p` of `x0` with row `q` of `x1` plus entry `q` of the bias row. -/
theorem k6_pay1_apply (x0 : Vec Ideal S1024x2048 .f32) (x1 : Vec Ideal S512x2048 .bf16) (x2 : Vec Ideal S1x512 .f32)
    (p : Fin 1024) (q : Fin 512) :
    k6_pay1 (F := Ideal) x0 x1 x2 (ix2 p q)
      = max ((∑ k : Fin 2048, x0 (ix2 p k) * x1 (ix2 q k)) + x2 (ix2 (0 : Fin 1) q)) 0 := by
  unfold k6_pay1
  rw [maximumf_apply, addf_apply, broadcast_apply]
  rw [shapeCast_self, shapeCast_self, shapeCast_self]
  rw [Cert.Lib.Repeat.rowRepeat_apply]
  rw [Cert.Lib.TransposedProduct.matmul_apply (m := 1024) (k := 2048) (n := 512)
    dot_S1024x2048_S512x2048_S1024x512_1_1_0_0_n_n rfl]
  show max (_ + _) (Ideal.ofBits .f32 0x00000000#32) = _
  rw [Ideal.ofBits_zero_f32]
  rfl

/-- Second round, the second feed-forward map with its residual: entry `(p, q)` of the residual block `x3` plus
    the maximum with zero of the inner product of row `p` of `x0` with row `q` of `x1` plus entry `q` of the
    bias row. -/
theorem k7_pay1_apply (x0 : Vec Ideal S1024x2048 .f32) (x1 : Vec Ideal S512x2048 .bf16) (x2 : Vec Ideal S1x512 .f32)
    (x3 : Vec Ideal S1024x512 .f32) (p : Fin 1024) (q : Fin 512) :
    k7_pay1 (F := Ideal) x0 x1 x2 x3 (ix2 p q)
      = x3 (ix2 p q) + max ((∑ k : Fin 2048, x0 (ix2 p k) * x1 (ix2 q k)) + x2 (ix2 (0 : Fin 1) q)) 0 := by
  unfold k7_pay1
  rw [addf_apply, maximumf_apply, addf_apply, broadcast_apply]
  rw [shapeCast_self, shapeCast_self, shapeCast_self, shapeCast_self]
  rw [Cert.Lib.Repeat.rowRepeat_apply]
  rw [Cert.Lib.TransposedProduct.matmul_apply (m := 1024) (k := 2048) (n := 512)
    dot_S1024x2048_S512x2048_S1024x512_1_1_0_0_n_n rfl]
  show _ + max (_ + _) (Ideal.ofBits .f32 0x00000000#32) = _
  rw [Ideal.ofBits_zero_f32]
  rfl

end Cert.KernelIdeal.Pay

end
-- ==== Proof.FinalQkv.lean ====
/-
  The regions computing queries, keys and values: what they leave in their three output arrays.

  Such a region walks a 4 × 4 grid of tiles. At tile `(i, j)` it reads rows `512 i …` of the entity array `x`, and for
  each of the three maps rows `512 j …` of the weight array `W` and entries `512 j …` of the one-row bias `b`, and
  writes the `512 × 512` block `(i, j)` of the output: entry `(p, q)` of the block is
  `(∑ k, x (512 i + p, k) · W (512 j + q, k)) + b (0, 512 j + q)`, which is entry `(512 i + p, 512 j + q)` of
  `x · Wᵀ + b`. Every entry of the output lies in exactly the block given by dividing its coordinates by 512, and every
  block is written at some tile; so after the region each output array is `x · Wᵀ + b` for its weight and bias.
  The second round's region is the same computation on the second round's arrays.
-/
import proofs.«155661_j52089363366285_2_alg».proof.Proof.RegionSpec
import proofs.«155661_j52089363366285_2_alg».proof.Proof.PayLinear
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.Attn Cert.KernelIdeal Cert.KernelIdeal.Gen

/-- The offset of a block that starts at the origin, written out. -/
theorem zeroOffsets : (![0, 0] : Fin 2 → Nat) = fun _ => 0 := funext fun a => by fin_cases a <;> rfl

/-- Block `(i, j)` of `x · Wᵀ + b`: rows `512 i …`, columns `512 j …`, from rows `512 i …` of `x`, rows `512 j …` of
    `W` and entries `512 j …` of `b`; for any function `pay` of three blocks that is the affine map entry by entry. -/
theorem lin_block
    (pay : Vec Ideal S512x2048 .f32 → Vec Ideal S512x2048 .bf16 → Vec Ideal S1x512 .f32 → FVec Ideal S512x512 .f32)
    (hpay : ∀ (X0 : Vec Ideal S512x2048 .f32) (X1 : Vec Ideal S512x2048 .bf16) (X2 : Vec Ideal S1x512 .f32)
      (p q : Fin 512), pay X0 X1 X2 (ix2 p q)
        = (∑ k : Fin 2048, X0 (ix2 p k) * X1 (ix2 q k)) + X2 (ix2 (0 : Fin 1) q))
    (x w : S2048x2048.Idx → EReal) (b : S1x2048.Idx → EReal)
    (X0 : Vec Ideal S512x2048 .f32) (X1 : Vec Ideal S512x2048 .bf16) (X2 : Vec Ideal S1x512 .f32)
    (i j : Nat) (hi : i ≤ 3) (hj : j ≤ 3)
    (h0 : ∀ (p : Fin 512) (k : Fin 2048), X0 (ix2 p k) = x (ix2 (⟨i * 512 + p.val, by omega⟩ : Fin 2048) k))
    (h1 : ∀ (q : Fin 512) (k : Fin 2048), X1 (ix2 q k) = w (ix2 (⟨j * 512 + q.val, by omega⟩ : Fin 2048) k))
    (h2 : ∀ (q : Fin 512), X2 (ix2 (0 : Fin 1) q) = b (ix2 (0 : Fin 1) (⟨j * 512 + q.val, by omega⟩ : Fin 2048)))
    (y : S512x512.Idx) (g : S2048x2048.Idx) (hg0 : (g 0).val = i * 512 + (y 0).val)
    (hg1 : (g 1).val = j * 512 + (y 1).val) :
    pay X0 X1 X2 y = linArr x w b g := by
  refine ((congrArg (pay X0 X1 X2) (eq_ix2 (n0 := 512) (n1 := 512) y)).trans (hpay X0 X1 X2 (y 0) (y 1))).trans ?_
  have e0 : g 0 = (⟨i * 512 + (y 0).val, by have h : (y 0).val < 512 := (y 0).isLt; omega⟩ : Fin 2048) := Fin.ext hg0
  have e1 : g 1 = (⟨j * 512 + (y 1).val, by have h : (y 1).val < 512 := (y 1).isLt; omega⟩ : Fin 2048) := Fin.ext hg1
  unfold linArr ofMat lin toMat rowOf
  rw [e0, e1]
  refine congrArg₂ (· + ·) (Finset.sum_congr rfl fun k _ => ?_) (h2 (y 1))
  exact congrArg₂ (· * ·) (h0 (y 0) k) (h1 (y 1) k)

variable (V : (c : Dev nD) → (b : Ref sig .tc) → Buf (Elt Ideal) ((c : Thread nD τ).loc b))

/-! ## The first round's region -/

/-! ### Region 0, the queries -/

/-- At every tile the blocks read lie where the block written needs them: the entity block in its row of tiles, the
    weight and bias blocks in its column of tiles; and the tile indices are at most 3. -/
theorem idx0_7 : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = win0_7.index t (1 : Fin 2)
    ∧ win0_7.index t (0 : Fin 2) ≤ 3 ∧ win0_7.index t (1 : Fin 2) ≤ 3 :=
  (by decide +kernel : ∀ t : Fin grid0.N, _)

/-- Every block of the output is written at some tile. -/
theorem onto0_7 : ∀ (q0 : Fin 4) (q1 : Fin 4), ∃ t : Fin cfg0.N, win0_7.index t = ![q0.val, q1.val] :=
  (by decide +kernel : ∀ (q0 : Fin 4) (q1 : Fin 4), ∃ t : Fin grid0.N, win0_7.index t = ![q0.val, q1.val])

/-- The block written at tile `t` is that block of `x · Wᵀ + b`. -/
theorem flushed0_7_eq (c : Dev nD) (t : Fin cfg0.N) :
    (dat0 (F := Ideal) V c).flushed 7 t = ((cfg0.win 7).blk t).view.read (Elt Ideal)
      (linArr (V c (Pipeline.arrRef spec0 0)) (V c (Pipeline.arrRef spec0 1)) (V c (Pipeline.arrRef spec0 2))) := by
  show (cfg0.win 7).cut (grid0.coords t) ((dat0 V c).after 7 t) = _
  rw [after0_7]
  unfold out0_7
  rw [View.canon_unit_zero zeroOffsets]
  simp only [View.ld_unit_zero (S := S512x2048) zeroOffsets, View.ld_unit_zero (S := S1x512) zeroOffsets]
  obtain ⟨e0, e1, e2, e3, e4, e5, e6, e7⟩ := idx0_7 t
  funext y
  refine lin_block (k0_pay2 (F := Ideal)) Pay.k0_pay2_apply
    (V c (Pipeline.arrRef spec0 0)) (V c (Pipeline.arrRef spec0 1)) (V c (Pipeline.arrRef spec0 2))
    (iblk0 V c 0 t) (iblk0 V c 1 t) (iblk0 V c 2 t)
    (win0_7.index t (0 : Fin 2)) (win0_7.index t (1 : Fin 2)) e6 e7 ?_ ?_ ?_ y
    (((cfg0.win 7).blk t).view.emb y) ?_ ?_
  · intro p k
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 512 + 1 * p.val = win0_7.index t (0 : Fin 2) * 512 + p.val; omega
    | ⟨1, _⟩ => show win0_0.index t (1 : Fin 2) * 2048 + 1 * k.val = k.val; omega
  · intro q k
    show V c (Pipeline.arrRef spec0 1) (((cfg0.win 1).blk t).view.emb (ix2 q k)) = _
    refine congrArg (V c (Pipeline.arrRef spec0 1)) (funext fun a => Fin.ext ?_)
    match a with
    | ⟨0, _⟩ => show win0_1.index t (0 : Fin 2) * 512 + 1 * q.val = win0_7.index t (1 : Fin 2) * 512 + q.val; omega
    | ⟨1, _⟩ => show win0_1.index t (1 : Fin 2) * 2048 + 1 * k.val = k.val; omega
  · intro q
    show V c (Pipeline.arrRef spec0 2) (((cfg0.win 2).blk t).view.emb (ix2 (0 : Fin 1) q)) = _
    refine congrArg (V c (Pipeline.arrRef spec0 2)) (funext fun a => Fin.ext ?_)
    match a with
    | ⟨0, _⟩ => show win0_2.index t (0 : Fin 2) * 1 + 1 * 0 = 0; omega
    | ⟨1, _⟩ => show win0_2.index t (1 : Fin 2) * 512 + 1 * q.val = win0_7.index t (1 : Fin 2) * 512 + q.val; omega
  · show win0_7.index t (0 : Fin 2) * 512 + 1 * (y 0).val = win0_7.index t (0 : Fin 2) * 512 + (y 0).val; omega
  · show win0_7.index t (1 : Fin 2) * 512 + 1 * (y 1).val = win0_7.index t (1 : Fin 2) * 512 + (y 1).val; omega

/-- An entry of the output lies in the block written at tile `t` exactly when each coordinate lies in the block's
    range of 512. -/
theorem memBlk0_7 (t : Fin cfg0.N) (i : S2048x2048.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v8_0).slice (win0_7.rect t)).set ↔ _
  rw [View.set_slice_whole, Rect.mem_set_unit]
  exact Iff.rfl

/-- Every entry of the output lies in a block that is written: the one given by dividing its coordinates by 512. -/
theorem covers0_7 (i : S2048x2048.Idx) :
    ∃ t : Fin cfg0.N, (cfg0.win 7).flush t = true ∧ i ∈ ((cfg0.win 7).blk t).view.set := by
  have hi0 : (i 0).val < 2048 := (i 0).isLt
  have hi1 : (i 1).val < 2048 := (i 1).isLt
  obtain ⟨t, ht⟩ := onto0_7 ⟨(i 0).val / 512, by omega⟩ ⟨(i 1).val / 512, by omega⟩
  have q0 : win0_7.index t (0 : Fin 2) = (i 0).val / 512 := congrFun ht 0
  have q1 : win0_7.index t (1 : Fin 2) = (i 1).val / 512 := congrFun ht 1
  refine ⟨t, flush0_7 t, ?_⟩
  rw [memBlk0_7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-! ### Region 0, the keys -/

/-- At every tile the blocks read lie where the block written needs them: the entity block in its row of tiles, the
    weight and bias blocks in its column of tiles; and the tile indices are at most 3. -/
theorem idx0_8 : ∀ t : Fin cfg0.N,
    win0_0.index t (0 : Fin 2) = win0_8.index t (0 : Fin 2) ∧ win0_0.index t (1 : Fin 2) = 0
    ∧ win0_3.index t (0 : Fin 2) = win0_8.index t (1 : Fin 2) ∧ win0_3.index t (1 : Fin 2) = 0
    ∧ win0_4.index t (0 : Fin 2) = 0 ∧ win0_4.index t (1 : Fin 2) = win0_8.index t (1 : Fin 2)
    ∧ win0_8.index t (0 : Fin 2) ≤ 3 ∧ win0_8.index t (1 : Fin 2) ≤ 3 :=
  (by decide +kernel : ∀ t : Fin grid0.N, _)

/-- Every block of the output is written at some tile. -/
theorem onto0_8 : ∀ (q0 : Fin 4) (q1 : Fin 4), ∃ t : Fin cfg0.N, win0_8.index t = ![q0.val, q1.val] :=
  (by decide +kernel : ∀ (q0 : Fin 4) (q1 : Fin 4), ∃ t : Fin grid0.N, win0_8.index t = ![q0.val, q1.val])

/-- The block written at tile `t` is that block of `x · Wᵀ + b`. -/
theorem flushed0_8_eq (c : Dev nD) (t : Fin cfg0.N) :
    (dat0 (F := Ideal) V c).flushed 8 t = ((cfg0.win 8).blk t).view.read (Elt Ideal)
      (linArr (V c (Pipeline.arrRef spec0 0)) (V c (Pipeline.arrRef spec0 3)) (V c (Pipeline.arrRef spec0 4))) := by
  show (cfg0.win 8).cut (grid0.coords t) ((dat0 V c).after 8 t) = _
  rw [after0_8]
  unfold out0_8
  rw [View.canon_unit_zero zeroOffsets]
  simp only [View.ld_unit_zero (S := S512x2048) zeroOffsets, View.ld_unit_zero (S := S1x512) zeroOffsets]
  obtain ⟨e0, e1, e2, e3, e4, e5, e6, e7⟩ := idx0_8 t
  funext y
  refine lin_block (k0_pay3 (F := Ideal)) Pay.k0_pay3_apply
    (V c (Pipeline.arrRef spec0 0)) (V c (Pipeline.arrRef spec0 3)) (V c (Pipeline.arrRef spec0 4))
    (iblk0 V c 0 t) (iblk0 V c 3 t) (iblk0 V c 4 t)
    (win0_8.index t (0 : Fin 2)) (win0_8.index t (1 : Fin 2)) e6 e7 ?_ ?_ ?_ y
    (((cfg0.win 8).blk t).view.emb y) ?_ ?_
  · intro p k
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 512 + 1 * p.val = win0_8.index t (0 : Fin 2) * 512 + p.val; omega
    | ⟨1, _⟩ => show win0_0.index t (1 : Fin 2) * 2048 + 1 * k.val = k.val; omega
  · intro q k
    show V c (Pipeline.arrRef spec0 3) (((cfg0.win 3).blk t).view.emb (ix2 q k)) = _
    refine congrArg (V c (Pipeline.arrRef spec0 3)) (funext fun a => Fin.ext ?_)
    match a with
    | ⟨0, _⟩ => show win0_3.index t (0 : Fin 2) * 512 + 1 * q.val = win0_8.index t (1 : Fin 2) * 512 + q.val; omega
    | ⟨1, _⟩ => show win0_3.index t (1 : Fin 2) * 2048 + 1 * k.val = k.val; omega
  · intro q
    show V c (Pipeline.arrRef spec0 4) (((cfg0.win 4).blk t).view.emb (ix2 (0 : Fin 1) q)) = _
    refine congrArg (V c (Pipeline.arrRef spec0 4)) (funext fun a => Fin.ext ?_)
    match a with
    | ⟨0, _⟩ => show win0_4.index t (0 : Fin 2) * 1 + 1 * 0 = 0; omega
    | ⟨1, _⟩ => show win0_4.index t (1 : Fin 2) * 512 + 1 * q.val = win0_8.index t (1 : Fin 2) * 512 + q.val; omega
  · show win0_8.index t (0 : Fin 2) * 512 + 1 * (y 0).val = win0_8.index t (0 : Fin 2) * 512 + (y 0).val; omega
  · show win0_8.index t (1 : Fin 2) * 512 + 1 * (y 1).val = win0_8.index t (1 : Fin 2) * 512 + (y 1).val; omega

/-- An entry of the output lies in the block written at tile `t` exactly when each coordinate lies in the block's
    range of 512. -/
theorem memBlk0_8 (t : Fin cfg0.N) (i : S2048x2048.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v8_1).slice (win0_8.rect t)).set ↔ _
  rw [View.set_slice_whole, Rect.mem_set_unit]
  exact Iff.rfl

/-- Every entry of the output lies in a block that is written: the one given by dividing its coordinates by 512. -/
theorem covers0_8 (i : S2048x2048.Idx) :
    ∃ t : Fin cfg0.N, (cfg0.win 8).flush t = true ∧ i ∈ ((cfg0.win 8).blk t).view.set := by
  have hi0 : (i 0).val < 2048 := (i 0).isLt
  have hi1 : (i 1).val < 2048 := (i 1).isLt
  obtain ⟨t, ht⟩ := onto0_8 ⟨(i 0).val / 512, by omega⟩ ⟨(i 1).val / 512, by omega⟩
  have q0 : win0_8.index t (0 : Fin 2) = (i 0).val / 512 := congrFun ht 0
  have q1 : win0_8.index t (1 : Fin 2) = (i 1).val / 512 := congrFun ht 1
  refine ⟨t, flush0_8 t, ?_⟩
  rw [memBlk0_8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

/-! ### Region 0, the values -/

/-- At every tile the blocks read lie where the block written needs them: the entity block in its row of tiles, the
    weight and bias blocks in its column of tiles; and the tile indices are at most 3. -/
theorem idx0_9 : ∀ t : Fin cfg0.N,
    win0_0.index t (0 : Fin 2) = win0_9.index t (0 : Fin 2) ∧ win0_0.index t (1 : Fin 2) = 0
    ∧ win0_5.index t (0 : Fin 2) = win0_9.index t (1 : Fin 2) ∧ win0_5.index t (1 : Fin 2) = 0
    ∧ win0_6.index t (0 : Fin 2) = 0 ∧ win0_6.index t (1 : Fin 2) = win0_9.index t (1 : Fin 2)
    ∧ win0_9.index t (0 : Fin 2) ≤ 3 ∧ win0_9.index t (1 : Fin 2) ≤ 3 :=
  (by decide +kernel : ∀ t : Fin grid0.N, _)

/-- Every block of the output is written at some tile. -/
theorem onto0_9 : ∀ (q0 : Fin 4) (q1 : Fin 4), ∃ t : Fin cfg0.N, win0_9.index t = ![q0.val, q1.val] :=
  (by decide +kernel : ∀ (q0 : Fin 4) (q1 : Fin 4), ∃ t : Fin grid0.N, win0_9.index t = ![q0.val, q1.val])

/-- The block written at tile `t` is that block of `x · Wᵀ + b`. -/
theorem flushed0_9_eq (c : Dev nD) (t : Fin cfg0.N) :
    (dat0 (F := Ideal) V c).flushed 9 t = ((cfg0.win 9).blk t).view.read (Elt Ideal)
      (linArr (V c (Pipeline.arrRef spec0 0)) (V c (Pipeline.arrRef spec0 5)) (V c (Pipeline.arrRef spec0 6))) := by
  show (cfg0.win 9).cut (grid0.coords t) ((dat0 V c).after 9 t) = _
  rw [after0_9]
  unfold out0_9
  rw [View.canon_unit_zero zeroOffsets]
  simp only [View.ld_unit_zero (S := S512x2048) zeroOffsets, View.ld_unit_zero (S := S1x512) zeroOffsets]
  obtain ⟨e0, e1, e2, e3, e4, e5, e6, e7⟩ := idx0_9 t
  funext y
  refine lin_block (k0_pay4 (F := Ideal)) Pay.k0_pay4_apply
    (V c (Pipeline.arrRef spec0 0)) (V c (Pipeline.arrRef spec0 5)) (V c (Pipeline.arrRef spec0 6))
    (iblk0 V c 0 t) (iblk0 V c 5 t) (iblk0 V c 6 t)
    (win0_9.index t (0 : Fin 2)) (win0_9.index t (1 : Fin 2)) e6 e7 ?_ ?_ ?_ y
    (((cfg0.win 9).blk t).view.emb y) ?_ ?_
  · intro p k
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 512 + 1 * p.val = win0_9.index t (0 : Fin 2) * 512 + p.val; omega
    | ⟨1, _⟩ => show win0_0.index t (1 : Fin 2) * 2048 + 1 * k.val = k.val; omega
  · intro q k
    show V c (Pipeline.arrRef spec0 5) (((cfg0.win 5).blk t).view.emb (ix2 q k)) = _
    refine congrArg (V c (Pipeline.arrRef spec0 5)) (funext fun a => Fin.ext ?_)
    match a with
    | ⟨0, _⟩ => show win0_5.index t (0 : Fin 2) * 512 + 1 * q.val = win0_9.index t (1 : Fin 2) * 512 + q.val; omega
    | ⟨1, _⟩ => show win0_5.index t (1 : Fin 2) * 2048 + 1 * k.val = k.val; omega
  · intro q
    show V c (Pipeline.arrRef spec0 6) (((cfg0.win 6).blk t).view.emb (ix2 (0 : Fin 1) q)) = _
    refine congrArg (V c (Pipeline.arrRef spec0 6)) (funext fun a => Fin.ext ?_)
    match a with
    | ⟨0, _⟩ => show win0_6.index t (0 : Fin 2) * 1 + 1 * 0 = 0; omega
    | ⟨1, _⟩ => show win0_6.index t (1 : Fin 2) * 512 + 1 * q.val = win0_9.index t (1 : Fin 2) * 512 + q.val; omega
  · show win0_9.index t (0 : Fin 2) * 512 + 1 * (y 0).val = win0_9.index t (0 : Fin 2) * 512 + (y 0).val; omega
  · show win0_9.index t (1 : Fin 2) * 512 + 1 * (y 1).val = win0_9.index t (1 : Fin 2) * 512 + (y 1).val; omega

/-- An entry of the output lies in the block written at tile `t` exactly when each coordinate lies in the block's
    range of 512. -/
theorem memBlk0_9 (t : Fin cfg0.N) (i : S2048x2048.Idx) :
    i ∈ ((cfg0.win 9).blk t).view.set ↔ ∀ a : Fin 2, win0_9.index t a * S512x512.size a ≤ (i a).val
      ∧ (i a).val < win0_9.index t a * S512x512.size a + S512x512.size a := by
  show i ∈ ((View.whole main_v8_2).slice (win0_9.rect t)).set ↔ _
  rw [View.set_slice_whole, Rect.mem_set_unit]
  exact Iff.rfl

/-- Every entry of the output lies in a block that is written: the one given by dividing its coordinates by 512. -/
theorem covers0_9 (i : S2048x2048.Idx) :
    ∃ t : Fin cfg0.N, (cfg0.win 9).flush t = true ∧ i ∈ ((cfg0.win 9).blk t).view.set := by
  have hi0 : (i 0).val < 2048 := (i 0).isLt
  have hi1 : (i 1).val < 2048 := (i 1).isLt
  obtain ⟨t, ht⟩ := onto0_9 ⟨(i 0).val / 512, by omega⟩ ⟨(i 1).val / 512, by omega⟩
  have q0 : win0_9.index t (0 : Fin 2) = (i 0).val / 512 := congrFun ht 0
  have q1 : win0_9.index t (1 : Fin 2) = (i 1).val / 512 := congrFun ht 1
  refine ⟨t, flush0_9 t, ?_⟩
  rw [memBlk0_9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- After the first round's region its three output arrays are the three affine maps of the entity array. -/
theorem final0 : Final0 := fun V c =>
  ⟨(dat0 (F := Ideal) V c).arrAt_eq_of_cover 7 _ (fun t _ => flushed0_7_eq V c t) covers0_7,
   (dat0 (F := Ideal) V c).arrAt_eq_of_cover 8 _ (fun t _ => flushed0_8_eq V c t) covers0_8,
   (dat0 (F := Ideal) V c).arrAt_eq_of_cover 9 _ (fun t _ => flushed0_9_eq V c t) covers0_9⟩

/-! ## The second round's region -/

/-! ### Region 4, the queries -/

/-- At every tile the blocks read lie where the block written needs them: the entity block in its row of tiles, the
    weight and bias blocks in its column of tiles; and the tile indices are at most 3. -/
theorem idx4_7 : ∀ t : Fin cfg4.N,
    win4_0.index t (0 : Fin 2) = win4_7.index t (0 : Fin 2) ∧ win4_0.index t (1 : Fin 2) = 0
    ∧ win4_1.index t (0 : Fin 2) = win4_7.index t (1 : Fin 2) ∧ win4_1.index t (1 : Fin 2) = 0
    ∧ win4_2.index t (0 : Fin 2) = 0 ∧ win4_2.index t (1 : Fin 2) = win4_7.index t (1 : Fin 2)
    ∧ win4_7.index t (0 : Fin 2) ≤ 3 ∧ win4_7.index t (1 : Fin 2) ≤ 3 :=
  (by decide +kernel : ∀ t : Fin grid4.N, _)

/-- Every block of the output is written at some tile. -/
theorem onto4_7 : ∀ (q0 : Fin 4) (q1 : Fin 4), ∃ t : Fin cfg4.N, win4_7.index t = ![q0.val, q1.val] :=
  (by decide +kernel : ∀ (q0 : Fin 4) (q1 : Fin 4), ∃ t : Fin grid4.N, win4_7.index t = ![q0.val, q1.val])

/-- The block written at tile `t` is that block of `x · Wᵀ + b`. -/
theorem flushed4_7_eq (c : Dev nD) (t : Fin cfg4.N) :
    (dat4 (F := Ideal) V c).flushed 7 t = ((cfg4.win 7).blk t).view.read (Elt Ideal)
      (linArr (V c (Pipeline.arrRef spec4 0)) (V c (Pipeline.arrRef spec4 1)) (V c (Pipeline.arrRef spec4 2))) := by
  show (cfg4.win 7).cut (grid4.coords t) ((dat4 V c).after 7 t) = _
  rw [after4_7]
  unfold out4_7
  rw [View.canon_unit_zero zeroOffsets]
  simp only [View.ld_unit_zero (S := S512x2048) zeroOffsets, View.ld_unit_zero (S := S1x512) zeroOffsets]
  obtain ⟨e0, e1, e2, e3, e4, e5, e6, e7⟩ := idx4_7 t
  funext y
  refine lin_block (k4_pay2 (F := Ideal)) Pay.k4_pay2_apply
    (V c (Pipeline.arrRef spec4 0)) (V c (Pipeline.arrRef spec4 1)) (V c (Pipeline.arrRef spec4 2))
    (iblk4 V c 0 t) (iblk4 V c 1 t) (iblk4 V c 2 t)
    (win4_7.index t (0 : Fin 2)) (win4_7.index t (1 : Fin 2)) e6 e7 ?_ ?_ ?_ y
    (((cfg4.win 7).blk t).view.emb y) ?_ ?_
  · intro p k
    show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 512 + 1 * p.val = win4_7.index t (0 : Fin 2) * 512 + p.val; omega
    | ⟨1, _⟩ => show win4_0.index t (1 : Fin 2) * 2048 + 1 * k.val = k.val; omega
  · intro q k
    show V c (Pipeline.arrRef spec4 1) (((cfg4.win 1).blk t).view.emb (ix2 q k)) = _
    refine congrArg (V c (Pipeline.arrRef spec4 1)) (funext fun a => Fin.ext ?_)
    match a with
    | ⟨0, _⟩ => show win4_1.index t (0 : Fin 2) * 512 + 1 * q.val = win4_7.index t (1 : Fin 2) * 512 + q.val; omega
    | ⟨1, _⟩ => show win4_1.index t (1 : Fin 2) * 2048 + 1 * k.val = k.val; omega
  · intro q
    show V c (Pipeline.arrRef spec4 2) (((cfg4.win 2).blk t).view.emb (ix2 (0 : Fin 1) q)) = _
    refine congrArg (V c (Pipeline.arrRef spec4 2)) (funext fun a => Fin.ext ?_)
    match a with
    | ⟨0, _⟩ => show win4_2.index t (0 : Fin 2) * 1 + 1 * 0 = 0; omega
    | ⟨1, _⟩ => show win4_2.index t (1 : Fin 2) * 512 + 1 * q.val = win4_7.index t (1 : Fin 2) * 512 + q.val; omega
  · show win4_7.index t (0 : Fin 2) * 512 + 1 * (y 0).val = win4_7.index t (0 : Fin 2) * 512 + (y 0).val; omega
  · show win4_7.index t (1 : Fin 2) * 512 + 1 * (y 1).val = win4_7.index t (1 : Fin 2) * 512 + (y 1).val; omega

/-- An entry of the output lies in the block written at tile `t` exactly when each coordinate lies in the block's
    range of 512. -/
theorem memBlk4_7 (t : Fin cfg4.N) (i : S2048x2048.Idx) :
    i ∈ ((cfg4.win 7).blk t).view.set ↔ ∀ a : Fin 2, win4_7.index t a * S512x512.size a ≤ (i a).val
      ∧ (i a).val < win4_7.index t a * S512x512.size a + S512x512.size a := by
  show i ∈ ((View.whole main_v17_0).slice (win4_7.rect t)).set ↔ _
  rw [View.set_slice_whole, Rect.mem_set_unit]
  exact Iff.rfl

/-- Every entry of the output lies in a block that is written: the one given by dividing its coordinates by 512. -/
theorem covers4_7 (i : S2048x2048.Idx) :
    ∃ t : Fin cfg4.N, (cfg4.win 7).flush t = true ∧ i ∈ ((cfg4.win 7).blk t).view.set := by
  have hi0 : (i 0).val < 2048 := (i 0).isLt
  have hi1 : (i 1).val < 2048 := (i 1).isLt
  obtain ⟨t, ht⟩ := onto4_7 ⟨(i 0).val / 512, by omega⟩ ⟨(i 1).val / 512, by omega⟩
  have q0 : win4_7.index t (0 : Fin 2) = (i 0).val / 512 := congrFun ht 0
  have q1 : win4_7.index t (1 : Fin 2) = (i 1).val / 512 := congrFun ht 1
  refine ⟨t, flush4_7 t, ?_⟩
  rw [memBlk4_7]
  intro a
  match a with
  | ⟨0, _⟩ => show win4_7.index t (0 : Fin 2) * 512 ≤ (i 0).val ∧ (i 0).val < win4_7.index t (0 : Fin 2) * 512 + 512; omega
  | ⟨1, _⟩ => show win4_7.index t (1 : Fin 2) * 512 ≤ (i 1).val ∧ (i 1).val < win4_7.index t (1 : Fin 2) * 512 + 512; omega

/-! ### Region 4, the keys -/

/-- At every tile the blocks read lie where the block written needs them: the entity block in its row of tiles, the
    weight and bias blocks in its column of tiles; and the tile indices are at most 3. -/
theorem idx4_8 : ∀ t : Fin cfg4.N,
    win4_0.index t (0 : Fin 2) = win4_8.index t (0 : Fin 2) ∧ win4_0.index t (1 : Fin 2) = 0
    ∧ win4_3.index t (0 : Fin 2) = win4_8.index t (1 : Fin 2) ∧ win4_3.index t (1 : Fin 2) = 0
    ∧ win4_4.index t (0 : Fin 2) = 0 ∧ win4_4.index t (1 : Fin 2) = win4_8.index t (1 : Fin 2)
    ∧ win4_8.index t (0 : Fin 2) ≤ 3 ∧ win4_8.index t (1 : Fin 2) ≤ 3 :=
  (by decide +kernel : ∀ t : Fin grid4.N, _)

/-- Every block of the output is written at some tile. -/
theorem onto4_8 : ∀ (q0 : Fin 4) (q1 : Fin 4), ∃ t : Fin cfg4.N, win4_8.index t = ![q0.val, q1.val] :=
  (by decide +kernel : ∀ (q0 : Fin 4) (q1 : Fin 4), ∃ t : Fin grid4.N, win4_8.index t = ![q0.val, q1.val])

/-- The block written at tile `t` is that block of `x · Wᵀ + b`. -/
theorem flushed4_8_eq (c : Dev nD) (t : Fin cfg4.N) :
    (dat4 (F := Ideal) V c).flushed 8 t = ((cfg4.win 8).blk t).view.read (Elt Ideal)
      (linArr (V c (Pipeline.arrRef spec4 0)) (V c (Pipeline.arrRef spec4 3)) (V c (Pipeline.arrRef spec4 4))) := by
  show (cfg4.win 8).cut (grid4.coords t) ((dat4 V c).after 8 t) = _
  rw [after4_8]
  unfold out4_8
  rw [View.canon_unit_zero zeroOffsets]
  simp only [View.ld_unit_zero (S := S512x2048) zeroOffsets, View.ld_unit_zero (S := S1x512) zeroOffsets]
  obtain ⟨e0, e1, e2, e3, e4, e5, e6, e7⟩ := idx4_8 t
  funext y
  refine lin_block (k4_pay3 (F := Ideal)) Pay.k4_pay3_apply
    (V c (Pipeline.arrRef spec4 0)) (V c (Pipeline.arrRef spec4 3)) (V c (Pipeline.arrRef spec4 4))
    (iblk4 V c 0 t) (iblk4 V c 3 t) (iblk4 V c 4 t)
    (win4_8.index t (0 : Fin 2)) (win4_8.index t (1 : Fin 2)) e6 e7 ?_ ?_ ?_ y
    (((cfg4.win 8).blk t).view.emb y) ?_ ?_
  · intro p k
    show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 512 + 1 * p.val = win4_8.index t (0 : Fin 2) * 512 + p.val; omega
    | ⟨1, _⟩ => show win4_0.index t (1 : Fin 2) * 2048 + 1 * k.val = k.val; omega
  · intro q k
    show V c (Pipeline.arrRef spec4 3) (((cfg4.win 3).blk t).view.emb (ix2 q k)) = _
    refine congrArg (V c (Pipeline.arrRef spec4 3)) (funext fun a => Fin.ext ?_)
    match a with
    | ⟨0, _⟩ => show win4_3.index t (0 : Fin 2) * 512 + 1 * q.val = win4_8.index t (1 : Fin 2) * 512 + q.val; omega
    | ⟨1, _⟩ => show win4_3.index t (1 : Fin 2) * 2048 + 1 * k.val = k.val; omega
  · intro q
    show V c (Pipeline.arrRef spec4 4) (((cfg4.win 4).blk t).view.emb (ix2 (0 : Fin 1) q)) = _
    refine congrArg (V c (Pipeline.arrRef spec4 4)) (funext fun a => Fin.ext ?_)
    match a with
    | ⟨0, _⟩ => show win4_4.index t (0 : Fin 2) * 1 + 1 * 0 = 0; omega
    | ⟨1, _⟩ => show win4_4.index t (1 : Fin 2) * 512 + 1 * q.val = win4_8.index t (1 : Fin 2) * 512 + q.val; omega
  · show win4_8.index t (0 : Fin 2) * 512 + 1 * (y 0).val = win4_8.index t (0 : Fin 2) * 512 + (y 0).val; omega
  · show win4_8.index t (1 : Fin 2) * 512 + 1 * (y 1).val = win4_8.index t (1 : Fin 2) * 512 + (y 1).val; omega

/-- An entry of the output lies in the block written at tile `t` exactly when each coordinate lies in the block's
    range of 512. -/
theorem memBlk4_8 (t : Fin cfg4.N) (i : S2048x2048.Idx) :
    i ∈ ((cfg4.win 8).blk t).view.set ↔ ∀ a : Fin 2, win4_8.index t a * S512x512.size a ≤ (i a).val
      ∧ (i a).val < win4_8.index t a * S512x512.size a + S512x512.size a := by
  show i ∈ ((View.whole main_v17_1).slice (win4_8.rect t)).set ↔ _
  rw [View.set_slice_whole, Rect.mem_set_unit]
  exact Iff.rfl

/-- Every entry of the output lies in a block that is written: the one given by dividing its coordinates by 512. -/
theorem covers4_8 (i : S2048x2048.Idx) :
    ∃ t : Fin cfg4.N, (cfg4.win 8).flush t = true ∧ i ∈ ((cfg4.win 8).blk t).view.set := by
  have hi0 : (i 0).val < 2048 := (i 0).isLt
  have hi1 : (i 1).val < 2048 := (i 1).isLt
  obtain ⟨t, ht⟩ := onto4_8 ⟨(i 0).val / 512, by omega⟩ ⟨(i 1).val / 512, by omega⟩
  have q0 : win4_8.index t (0 : Fin 2) = (i 0).val / 512 := congrFun ht 0
  have q1 : win4_8.index t (1 : Fin 2) = (i 1).val / 512 := congrFun ht 1
  refine ⟨t, flush4_8 t, ?_⟩
  rw [memBlk4_8]
  intro a
  match a with
  | ⟨0, _⟩ => show win4_8.index t (0 : Fin 2) * 512 ≤ (i 0).val ∧ (i 0).val < win4_8.index t (0 : Fin 2) * 512 + 512; omega
  | ⟨1, _⟩ => show win4_8.index t (1 : Fin 2) * 512 ≤ (i 1).val ∧ (i 1).val < win4_8.index t (1 : Fin 2) * 512 + 512; omega

/-! ### Region 4, the values -/

/-- At every tile the blocks read lie where the block written needs them: the entity block in its row of tiles, the
    weight and bias blocks in its column of tiles; and the tile indices are at most 3. -/
theorem idx4_9 : ∀ t : Fin cfg4.N,
    win4_0.index t (0 : Fin 2) = win4_9.index t (0 : Fin 2) ∧ win4_0.index t (1 : Fin 2) = 0
    ∧ win4_5.index t (0 : Fin 2) = win4_9.index t (1 : Fin 2) ∧ win4_5.index t (1 : Fin 2) = 0
    ∧ win4_6.index t (0 : Fin 2) = 0 ∧ win4_6.index t (1 : Fin 2) = win4_9.index t (1 : Fin 2)
    ∧ win4_9.index t (0 : Fin 2) ≤ 3 ∧ win4_9.index t (1 : Fin 2) ≤ 3 :=
  (by decide +kernel : ∀ t : Fin grid4.N, _)

/-- Every block of the output is written at some tile. -/
theorem onto4_9 : ∀ (q0 : Fin 4) (q1 : Fin 4), ∃ t : Fin cfg4.N, win4_9.index t = ![q0.val, q1.val] :=
  (by decide +kernel : ∀ (q0 : Fin 4) (q1 : Fin 4), ∃ t : Fin grid4.N, win4_9.index t = ![q0.val, q1.val])

/-- The block written at tile `t` is that block of `x · Wᵀ + b`. -/
theorem flushed4_9_eq (c : Dev nD) (t : Fin cfg4.N) :
    (dat4 (F := Ideal) V c).flushed 9 t = ((cfg4.win 9).blk t).view.read (Elt Ideal)
      (linArr (V c (Pipeline.arrRef spec4 0)) (V c (Pipeline.arrRef spec4 5)) (V c (Pipeline.arrRef spec4 6))) := by
  show (cfg4.win 9).cut (grid4.coords t) ((dat4 V c).after 9 t) = _
  rw [after4_9]
  unfold out4_9
  rw [View.canon_unit_zero zeroOffsets]
  simp only [View.ld_unit_zero (S := S512x2048) zeroOffsets, View.ld_unit_zero (S := S1x512) zeroOffsets]
  obtain ⟨e0, e1, e2, e3, e4, e5, e6, e7⟩ := idx4_9 t
  funext y
  refine lin_block (k4_pay4 (F := Ideal)) Pay.k4_pay4_apply
    (V c (Pipeline.arrRef spec4 0)) (V c (Pipeline.arrRef spec4 5)) (V c (Pipeline.arrRef spec4 6))
    (iblk4 V c 0 t) (iblk4 V c 5 t) (iblk4 V c 6 t)
    (win4_9.index t (0 : Fin 2)) (win4_9.index t (1 : Fin 2)) e6 e7 ?_ ?_ ?_ y
    (((cfg4.win 9).blk t).view.emb y) ?_ ?_
  · intro p k
    show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 512 + 1 * p.val = win4_9.index t (0 : Fin 2) * 512 + p.val; omega
    | ⟨1, _⟩ => show win4_0.index t (1 : Fin 2) * 2048 + 1 * k.val = k.val; omega
  · intro q k
    show V c (Pipeline.arrRef spec4 5) (((cfg4.win 5).blk t).view.emb (ix2 q k)) = _
    refine congrArg (V c (Pipeline.arrRef spec4 5)) (funext fun a => Fin.ext ?_)
    match a with
    | ⟨0, _⟩ => show win4_5.index t (0 : Fin 2) * 512 + 1 * q.val = win4_9.index t (1 : Fin 2) * 512 + q.val; omega
    | ⟨1, _⟩ => show win4_5.index t (1 : Fin 2) * 2048 + 1 * k.val = k.val; omega
  · intro q
    show V c (Pipeline.arrRef spec4 6) (((cfg4.win 6).blk t).view.emb (ix2 (0 : Fin 1) q)) = _
    refine congrArg (V c (Pipeline.arrRef spec4 6)) (funext fun a => Fin.ext ?_)
    match a with
    | ⟨0, _⟩ => show win4_6.index t (0 : Fin 2) * 1 + 1 * 0 = 0; omega
    | ⟨1, _⟩ => show win4_6.index t (1 : Fin 2) * 512 + 1 * q.val = win4_9.index t (1 : Fin 2) * 512 + q.val; omega
  · show win4_9.index t (0 : Fin 2) * 512 + 1 * (y 0).val = win4_9.index t (0 : Fin 2) * 512 + (y 0).val; omega
  · show win4_9.index t (1 : Fin 2) * 512 + 1 * (y 1).val = win4_9.index t (1 : Fin 2) * 512 + (y 1).val; omega

/-- An entry of the output lies in the block written at tile `t` exactly when each coordinate lies in the block's
    range of 512. -/
theorem memBlk4_9 (t : Fin cfg4.N) (i : S2048x2048.Idx) :
    i ∈ ((cfg4.win 9).blk t).view.set ↔ ∀ a : Fin 2, win4_9.index t a * S512x512.size a ≤ (i a).val
      ∧ (i a).val < win4_9.index t a * S512x512.size a + S512x512.size a := by
  show i ∈ ((View.whole main_v17_2).slice (win4_9.rect t)).set ↔ _
  rw [View.set_slice_whole, Rect.mem_set_unit]
  exact Iff.rfl

/-- Every entry of the output lies in a block that is written: the one given by dividing its coordinates by 512. -/
theorem covers4_9 (i : S2048x2048.Idx) :
    ∃ t : Fin cfg4.N, (cfg4.win 9).flush t = true ∧ i ∈ ((cfg4.win 9).blk t).view.set := by
  have hi0 : (i 0).val < 2048 := (i 0).isLt
  have hi1 : (i 1).val < 2048 := (i 1).isLt
  obtain ⟨t, ht⟩ := onto4_9 ⟨(i 0).val / 512, by omega⟩ ⟨(i 1).val / 512, by omega⟩
  have q0 : win4_9.index t (0 : Fin 2) = (i 0).val / 512 := congrFun ht 0
  have q1 : win4_9.index t (1 : Fin 2) = (i 1).val / 512 := congrFun ht 1
  refine ⟨t, flush4_9 t, ?_⟩
  rw [memBlk4_9]
  intro a
  match a with
  | ⟨0, _⟩ => show win4_9.index t (0 : Fin 2) * 512 ≤ (i 0).val ∧ (i 0).val < win4_9.index t (0 : Fin 2) * 512 + 512; omega
  | ⟨1, _⟩ => show win4_9.index t (1 : Fin 2) * 512 ≤ (i 1).val ∧ (i 1).val < win4_9.index t (1 : Fin 2) * 512 + 512; omega

/-- After the second round's region its three output arrays are the three affine maps of the entity array. -/
theorem final4 : Final4 := fun V c =>
  ⟨(dat4 (F := Ideal) V c).arrAt_eq_of_cover 7 _ (fun t _ => flushed4_7_eq V c t) covers4_7,
   (dat4 (F := Ideal) V c).arrAt_eq_of_cover 8 _ (fun t _ => flushed4_8_eq V c t) covers4_8,
   (dat4 (F := Ideal) V c).arrAt_eq_of_cover 9 _ (fun t _ => flushed4_9_eq V c t) covers4_9⟩

end Cert.KernelIdeal.Region

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.PayAttn.lean ====
/-
  The attention kernel's block computation read at an index, over the extended reals.

  For a block of 512 queries, 2048 keys and 2048 values of one head (128 features each) the kernel forms the
  scores (inner products of query and key features, times the scale), the largest score of each query row,
  the exponential of each score minus that maximum, the row's total of these weights, the weighted sum of the
  values, and the quotient of the weighted sum by the total.
-/
import proofs.«155661_j52089363366285_2_alg».proof.Proof.Gen.KernelIdeal.Skeleton
import proofs.«155661_j52089363366285_2_alg».proof.Proof.Spec
import proofs.«155661_j52089363366285_2_alg».proof.Proof.LibTransposedProduct
import proofs.«155661_j52089363366285_2_alg».proof.Proof.LibPlainProduct
import proofs.«155661_j52089363366285_2_alg».proof.Proof.LibColumn
import proofs.«155661_j52089363366285_2_alg».proof.Proof.LibRepeat
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The score of query p against key k within the block: the inner product of their 128 features, times the scale. -/
def blkScore (x0 : S512x128.Idx → EReal) (x1 : S2048x128.Idx → EReal) (p : Fin 512) (k : Fin 2048) : EReal :=
  (∑ e : Fin 128, x0 (ix2 p e) * x1 (ix2 k e)) * Cert.Attn.scale

/-- The largest score of query p. -/
def blkMax (x0 : S512x128.Idx → EReal) (x1 : S2048x128.Idx → EReal) (p : Fin 512) : EReal :=
  (Finset.univ : Finset (Fin 2048)).fold max Cert.Attn.negInf (fun k => blkScore x0 x1 p k)

/-- The unnormalised weight of key k for query p. -/
def blkWgt (x0 : S512x128.Idx → EReal) (x1 : S2048x128.Idx → EReal) (p : Fin 512) (k : Fin 2048) : EReal :=
  Ideal.exp (blkScore x0 x1 p k - blkMax x0 x1 p)

/-! ## The non-pointwise operations at an index -/

/-- Inserting the key coordinate k into the row index p gives the index (p, k). -/
theorem lift_eq (p : Fin 512) (k : Fin 2048) :
    reduces_S512x2048_S512.lift (ix1 p) k = ix2 p k := by
  funext a
  apply Fin.ext
  match a with
  | ⟨0, _⟩ => rfl
  | ⟨1, _⟩ => rfl

/-- The maximum along a row of a 512 × 2048 array, started from minus infinity. -/
theorem rowMax_apply (s : FVec Ideal S512x2048 .f32) (p : Fin 512) :
    multiReduction (F := Ideal) .maximumf [1] S512 s 0xFF800000#32 reduces_S512x2048_S512 (.inl rfl) rfl (ix1 p)
      = (Finset.univ : Finset (Fin 2048)).fold max Cert.Attn.negInf (fun k => s (ix2 p k)) := by
  refine (Ideal.multiReduction_maximumf_single s 0xFF800000#32 reduces_S512x2048_S512 (.inl rfl) rfl (ix1 p)).trans ?_
  exact congrArg (fun f => (Finset.univ : Finset (Fin 2048)).fold max Cert.Attn.negInf f)
    (funext fun k => congrArg s (lift_eq p k))

/-- The sum along a row of a 512 × 2048 array. -/
theorem rowSum_apply (s : FVec Ideal S512x2048 .f32) (p : Fin 512) :
    multiReduction (F := Ideal) .add [1] S512 s 0x00000000#32 reduces_S512x2048_S512 (.inl rfl) rfl (ix1 p)
      = ∑ k : Fin 2048, s (ix2 p k) := by
  refine (Ideal.multiReduction_add_single s 0x00000000#32 reduces_S512x2048_S512 (.inl rfl) rfl (ix1 p)).trans ?_
  show ∑ k : Fin 2048, s (reduces_S512x2048_S512.lift (ix1 p) k) = _
  simp only [lift_eq]

/-- A vector of 512 numbers written as a column and repeated across 2048 columns. -/
theorem colWide_apply (r : FVec Ideal S512 .f32) (p : Fin 512) (k : Fin 2048) :
    broadcastTo S512x2048 (shapeCast S512x1 r shapeCasts_S512_S512x1) broadcasts_S512x1_S512x2048 (ix2 p k) = r (ix1 p) := by
  rw [Cert.Lib.Repeat.colRepeat_apply, Cert.Lib.Column.shapeCast_a_a1_apply]

/-- The same column repeated across 128 columns. -/
theorem colNarrow_apply (r : FVec Ideal S512 .f32) (p : Fin 512) (q : Fin 128) :
    broadcastTo S512x128 (shapeCast S512x1 r shapeCasts_S512_S512x1) broadcasts_S512x1_S512x128 (ix2 p q) = r (ix1 p) := by
  rw [Cert.Lib.Repeat.colRepeat_apply, Cert.Lib.Column.shapeCast_a_a1_apply]

/-! ## The scores and the weights as arrays -/

/-- The block's scores as the kernel forms them: the product of the queries with the transposed keys, times the scale. -/
def scoreV (x0 : FVec Ideal S512x128 .f32) (x1 : FVec Ideal S2048x128 .f32) : FVec Ideal S512x2048 .f32 :=
  mulf (matmul dot_S512x128_S2048x128_S512x2048_1_1_0_0_n_n none (truncf .bf16 x0 bitsLt_bf16_f32)
      (truncf .bf16 x1 bitsLt_bf16_f32) (constant S512x2048 .f32 0x00000000#32))
    (broadcast S512x2048 (Scalar.ofBits .f32 0x3DB504F3#32))

theorem scoreV_apply (x0 : FVec Ideal S512x128 .f32) (x1 : FVec Ideal S2048x128 .f32) (p : Fin 512) (k : Fin 2048) :
    scoreV x0 x1 (ix2 p k) = blkScore x0 x1 p k := by
  unfold scoreV blkScore
  rw [mulf_apply, broadcast_apply,
    Cert.Lib.TransposedProduct.matmul_apply (m := 512) (k := 128) (n := 2048)
      dot_S512x128_S2048x128_S512x2048_1_1_0_0_n_n rfl]
  rfl

/-- The exponential of an array, entry by entry. -/
theorem exp_apply (a : FVec Ideal S512x2048 .f32) (i : S512x2048.Idx) : exp a i = Ideal.exp (a i) := rfl

/-- The block's weights as the kernel forms them: the exponential of each score minus its row's maximum. -/
def wgtV (x0 : FVec Ideal S512x128 .f32) (x1 : FVec Ideal S2048x128 .f32) : FVec Ideal S512x2048 .f32 :=
  exp (subf (scoreV x0 x1)
    (broadcastTo S512x2048
      (shapeCast S512x1
        (multiReduction .maximumf [1] S512 (scoreV x0 x1) 0xFF800000#32 reduces_S512x2048_S512 (.inl rfl) rfl)
        shapeCasts_S512_S512x1)
      broadcasts_S512x1_S512x2048))

theorem wgtV_apply (x0 : FVec Ideal S512x128 .f32) (x1 : FVec Ideal S2048x128 .f32) (p : Fin 512) (k : Fin 2048) :
    wgtV x0 x1 (ix2 p k) = blkWgt x0 x1 p k := by
  unfold wgtV blkWgt blkMax
  rw [exp_apply, subf_apply, colWide_apply, rowMax_apply, scoreV_apply]
  have hs : (fun k => scoreV x0 x1 (ix2 p k)) = fun k => blkScore x0 x1 p k :=
    funext fun k => scoreV_apply x0 x1 p k
  rw [hs]

/-! ## The payload -/

/-- The weighted sum of the values over the total weight, at row p and feature q. -/
theorem payload_core (x0 : FVec Ideal S512x128 .f32) (x1 x2 : FVec Ideal S2048x128 .f32) (p : Fin 512) (q : Fin 128) :
    divf (matmul dot_S512x2048_S2048x128_S512x128_1_0_0_1_n_n none (truncf .bf16 (wgtV x0 x1) bitsLt_bf16_f32)
        (truncf .bf16 x2 bitsLt_bf16_f32) (constant S512x128 .f32 0x00000000#32))
      (broadcastTo S512x128
        (shapeCast S512x1
          (multiReduction .add [1] S512 (wgtV x0 x1) 0x00000000#32 reduces_S512x2048_S512 (.inl rfl) rfl)
          shapeCasts_S512_S512x1)
        broadcasts_S512x1_S512x128) (ix2 p q)
      = Ideal.div (∑ k : Fin 2048, blkWgt x0 x1 p k * x2 (ix2 k q)) (∑ k : Fin 2048, blkWgt x0 x1 p k) := by
  rw [divf_apply, colNarrow_apply, rowSum_apply,
    Cert.PlainProduct.matmul_plain_apply (m := 512) (k := 2048) (n := 128)
      dot_S512x2048_S2048x128_S512x128_1_0_0_1_n_n rfl]
  simp only [truncf_apply, wgtV_apply]

theorem k1_pay1_apply (x0 : Vec Ideal S512x128 .f32) (x1 x2 : Vec Ideal S2048x128 .f32) (p : Fin 512) (q : Fin 128) :
    k1_pay1 (F := Ideal) x0 x1 x2 (ix2 p q)
      = Ideal.div (∑ k : Fin 2048, blkWgt x0 x1 p k * x2 (ix2 k q)) (∑ k : Fin 2048, blkWgt x0 x1 p k) := by
  unfold k1_pay1
  rw [shapeCast_self, shapeCast_self, shapeCast_self]
  exact payload_core x0 x1 x2 p q

theorem k5_pay1_apply (x0 : Vec Ideal S512x128 .f32) (x1 x2 : Vec Ideal S2048x128 .f32) (p : Fin 512) (q : Fin 128) :
    k5_pay1 (F := Ideal) x0 x1 x2 (ix2 p q)
      = Ideal.div (∑ k : Fin 2048, blkWgt x0 x1 p k * x2 (ix2 k q)) (∑ k : Fin 2048, blkWgt x0 x1 p k) := by
  unfold k5_pay1
  rw [shapeCast_self, shapeCast_self, shapeCast_self]
  exact payload_core x0 x1 x2 p q

end Cert.KernelIdeal.Pay

end
-- ==== Proof.FinalAttn.lean ====
/-
  What the attention regions leave in their output array: the heads' weighted means of the values.

  A region runs over a grid of 16 heads × 4 query tiles. At each grid point the kernel reads a block of 512 queries
  and all 2048 keys and values, each restricted to the 128 columns of the point's head, and writes the block of the
  weighted means at the same rows and columns. Restricted to the columns of one head, the score, the row maximum,
  the weights and the quotient of the block computation are those of the whole matrices; the blocks of all grid
  points cover the output array.
-/
import proofs.«155661_j52089363366285_2_alg».proof.Proof.RegionSpec
import proofs.«155661_j52089363366285_2_alg».proof.Proof.PayAttn
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.Attn Cert.KernelIdeal Cert.KernelIdeal.Gen Cert.KernelIdeal.Region

theorem hzAttn : (![0, 0] : Fin 2 → Nat) = fun _ => 0 := funext fun a => by fin_cases a <;> rfl

/-! ## The block computation is the whole computation restricted to one head's columns -/

section Block

variable (q k : S2048x2048.Idx → EReal) (X0 : S512x128.Idx → EReal) (X1 : S2048x128.Idx → EReal)
  (n : Fin 2048) (H : Fin 16) (p : Fin 512)

/-- The block's score of query p against key r is the matrices' score of row n against r in head H, when the block's
    queries are row n's and the block's keys are the keys', both at head H's columns. -/
theorem blkScore_eq (h0 : ∀ e : Fin 128, X0 (ix2 p e) = q (ix2 n (col H e)))
    (h1 : ∀ (r : Fin 2048) (e : Fin 128), X1 (ix2 r e) = k (ix2 r (col H e))) (r : Fin 2048) :
    Pay.blkScore X0 X1 p r = score (toMat q) (toMat k) H n r := by
  unfold Pay.blkScore score toMat
  refine congrArg (· * Cert.Attn.scale) (Finset.sum_congr rfl fun e _ => ?_)
  rw [h0 e, h1 r e]

theorem blkMax_eq (h0 : ∀ e : Fin 128, X0 (ix2 p e) = q (ix2 n (col H e)))
    (h1 : ∀ (r : Fin 2048) (e : Fin 128), X1 (ix2 r e) = k (ix2 r (col H e))) :
    Pay.blkMax X0 X1 p = rowMax (toMat q) (toMat k) H n := by
  unfold Pay.blkMax rowMax
  exact congrArg (fun f => (Finset.univ : Finset (Fin 2048)).fold max negInf f)
    (funext fun r => blkScore_eq q k X0 X1 n H p h0 h1 r)

theorem blkWgt_eq (h0 : ∀ e : Fin 128, X0 (ix2 p e) = q (ix2 n (col H e)))
    (h1 : ∀ (r : Fin 2048) (e : Fin 128), X1 (ix2 r e) = k (ix2 r (col H e))) (r : Fin 2048) :
    Pay.blkWgt X0 X1 p r = wgt (toMat q) (toMat k) H n r := by
  unfold Pay.blkWgt wgt
  rw [blkScore_eq q k X0 X1 n H p h0 h1 r, blkMax_eq q k X0 X1 n H p h0 h1]

end Block

/-- The block's quotient at (y₀, y₁) is the matrices' weighted mean at row i·512 + y₀ and column h·128 + y₁. -/
theorem quot_block (q k v : S2048x2048.Idx → EReal) (X0 : S512x128.Idx → EReal) (X1 X2 : S2048x128.Idx → EReal)
    (i h : Nat) (hi : i ≤ 3) (hh : h ≤ 15)
    (h0 : ∀ (p : Fin 512) (e : Fin 128), X0 (ix2 p e) = q (ix2 (⟨i * 512 + p.val, by omega⟩ : Fin 2048) (⟨h * 128 + e.val, by omega⟩ : Fin 2048)))
    (h1 : ∀ (r : Fin 2048) (e : Fin 128), X1 (ix2 r e) = k (ix2 r (⟨h * 128 + e.val, by omega⟩ : Fin 2048)))
    (h2 : ∀ (r : Fin 2048) (e : Fin 128), X2 (ix2 r e) = v (ix2 r (⟨h * 128 + e.val, by omega⟩ : Fin 2048)))
    (y : S512x128.Idx) (g : S2048x2048.Idx) (hg0 : (g 0).val = i * 512 + (y 0).val) (hg1 : (g 1).val = h * 128 + (y 1).val) :
    Ideal.div (∑ r : Fin 2048, Pay.blkWgt X0 X1 (y 0) r * X2 (ix2 r (y 1))) (∑ r : Fin 2048, Pay.blkWgt X0 X1 (y 0) r)
      = attnArr q k v g := by
  have hy0 : (y 0).val < 512 := (y 0).isLt
  have hy1 : (y 1).val < 128 := (y 1).isLt
  have e0 : g 0 = (⟨i * 512 + (y 0).val, by omega⟩ : Fin 2048) := Fin.ext hg0
  have e1 : g 1 = (⟨h * 128 + (y 1).val, by omega⟩ : Fin 2048) := Fin.ext hg1
  have hH : headOf (g 1) = (⟨h, by omega⟩ : Fin 16) := Fin.ext (by show (g 1).val / 128 = h; omega)
  have hc : ∀ e : Fin 128, (⟨h * 128 + e.val, by omega⟩ : Fin 2048) = col (⟨h, by omega⟩ : Fin 16) e :=
    fun e => Fin.ext (by show h * 128 + e.val = 128 * h + e.val; omega)
  have hw : ∀ r : Fin 2048, Pay.blkWgt X0 X1 (y 0) r = wgt (toMat q) (toMat k) (headOf (g 1)) (g 0) r := by
    intro r
    rw [hH, e0]
    exact blkWgt_eq q k X0 X1 _ _ (y 0) (fun e => (h0 (y 0) e).trans (by rw [hc e]))
      (fun r e => (h1 r e).trans (by rw [hc e])) r
  unfold attnArr ofMat attnQuot
  refine congrArg₂ Ideal.div (Finset.sum_congr rfl fun r _ => ?_) (Finset.sum_congr rfl fun r _ => hw r)
  rw [hw r]
  refine congrArg (fun z : EReal => wgt (toMat q) (toMat k) (headOf (g 1)) (g 0) r * z) ?_
  show X2 (ix2 r (y 1)) = v (ix2 r (g 1))
  rw [e1]
  exact h2 r (y 1)

/-- Block (i, h) of the heads' weighted means — rows i·512 …, the 128 columns of head h — from the matching block of
    the queries and head h's columns of all the keys and values. -/
theorem attn_block1 (q k v : S2048x2048.Idx → EReal) (X0 : Vec Ideal S512x128 .f32) (X1 X2 : Vec Ideal S2048x128 .f32)
    (i h : Nat) (hi : i ≤ 3) (hh : h ≤ 15)
    (h0 : ∀ (p : Fin 512) (e : Fin 128), X0 (ix2 p e) = q (ix2 (⟨i * 512 + p.val, by omega⟩ : Fin 2048) (⟨h * 128 + e.val, by omega⟩ : Fin 2048)))
    (h1 : ∀ (r : Fin 2048) (e : Fin 128), X1 (ix2 r e) = k (ix2 r (⟨h * 128 + e.val, by omega⟩ : Fin 2048)))
    (h2 : ∀ (r : Fin 2048) (e : Fin 128), X2 (ix2 r e) = v (ix2 r (⟨h * 128 + e.val, by omega⟩ : Fin 2048)))
    (y : S512x128.Idx) (g : S2048x2048.Idx) (hg0 : (g 0).val = i * 512 + (y 0).val) (hg1 : (g 1).val = h * 128 + (y 1).val) :
    k1_pay1 (F := Ideal) X0 X1 X2 y = attnArr q k v g :=
  ((congrArg (k1_pay1 (F := Ideal) X0 X1 X2) (eq_ix2 (n0 := 512) (n1 := 128) y)).trans
    (Pay.k1_pay1_apply X0 X1 X2 (y 0) (y 1))).trans (quot_block q k v X0 X1 X2 i h hi hh h0 h1 h2 y g hg0 hg1)

/-- Block (i, h) of the heads' weighted means — rows i·512 …, the 128 columns of head h — from the matching block of
    the queries and head h's columns of all the keys and values. -/
theorem attn_block5 (q k v : S2048x2048.Idx → EReal) (X0 : Vec Ideal S512x128 .f32) (X1 X2 : Vec Ideal S2048x128 .f32)
    (i h : Nat) (hi : i ≤ 3) (hh : h ≤ 15)
    (h0 : ∀ (p : Fin 512) (e : Fin 128), X0 (ix2 p e) = q (ix2 (⟨i * 512 + p.val, by omega⟩ : Fin 2048) (⟨h * 128 + e.val, by omega⟩ : Fin 2048)))
    (h1 : ∀ (r : Fin 2048) (e : Fin 128), X1 (ix2 r e) = k (ix2 r (⟨h * 128 + e.val, by omega⟩ : Fin 2048)))
    (h2 : ∀ (r : Fin 2048) (e : Fin 128), X2 (ix2 r e) = v (ix2 r (⟨h * 128 + e.val, by omega⟩ : Fin 2048)))
    (y : S512x128.Idx) (g : S2048x2048.Idx) (hg0 : (g 0).val = i * 512 + (y 0).val) (hg1 : (g 1).val = h * 128 + (y 1).val) :
    k5_pay1 (F := Ideal) X0 X1 X2 y = attnArr q k v g :=
  ((congrArg (k5_pay1 (F := Ideal) X0 X1 X2) (eq_ix2 (n0 := 512) (n1 := 128) y)).trans
    (Pay.k5_pay1_apply X0 X1 X2 (y 0) (y 1))).trans (quot_block q k v X0 X1 X2 i h hi hh h0 h1 h2 y g hg0 hg1)

variable (V : (c : Dev nD) → (b : Ref sig .tc) → Buf (Elt Ideal) ((c : Thread nD τ).loc b))

/-! ## Region 1 -/

/-- The relations between the region's block index maps, at every grid point: the query block and the output block sit
    at (query tile, head); the key and value blocks at (0, head); there are 4 query tiles and 16 heads. -/
theorem idx1 : ∀ t : Fin cfg1.N,
    win1_0.index t (0 : Fin 2) = win1_3.index t (0 : Fin 2) ∧ win1_0.index t (1 : Fin 2) = win1_3.index t (1 : Fin 2)
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 3 ∧ win1_3.index t (1 : Fin 2) ≤ 15 :=
  (by decide +kernel : ∀ t : Fin grid1.N, _)

/-- Every (query tile, head) pair is the output block of some grid point. -/
theorem onto1 : ∀ (q0 : Fin 4) (q1 : Fin 16), ∃ t : Fin cfg1.N, win1_3.index t = ![q0.val, q1.val] :=
  (by decide +kernel : ∀ (q0 : Fin 4) (q1 : Fin 16), ∃ t : Fin grid1.N, win1_3.index t = ![q0.val, q1.val])

/-- What a grid point writes back is the block of the heads' weighted means at its (query tile, head). -/
theorem flushed1_eq (c : Dev nD) (t : Fin cfg1.N) :
    (dat1 (F := Ideal) V c).flushed 3 t = ((cfg1.win 3).blk t).view.read (Elt Ideal)
      (attnArr (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hzAttn]
  simp only [View.ld_unit_zero (S := S512x128) hzAttn, View.ld_unit_zero (S := S2048x128) hzAttn]
  obtain ⟨e0, e1, e2, e3, e4, e5, e6, e7⟩ := idx1 t
  funext y
  refine attn_block1 (V c (Pipeline.arrRef spec1 0)) (V c (Pipeline.arrRef spec1 1)) (V c (Pipeline.arrRef spec1 2))
    (iblk1 V c 0 t) (iblk1 V c 1 t) (iblk1 V c 2 t) (win1_3.index t (0 : Fin 2)) (win1_3.index t (1 : Fin 2)) e6 e7 ?_ ?_ ?_ y
    (((cfg1.win 3).blk t).view.emb y) ?_ ?_
  · intro p e
    show V c (Pipeline.arrRef spec1 0) (((cfg1.win 0).blk t).view.emb (ix2 p e)) = _
    refine congrArg (V c (Pipeline.arrRef spec1 0)) (funext fun a => Fin.ext ?_)
    match a with
    | ⟨0, _⟩ => show win1_0.index t (0 : Fin 2) * 512 + 1 * p.val = win1_3.index t (0 : Fin 2) * 512 + p.val; omega
    | ⟨1, _⟩ => show win1_0.index t (1 : Fin 2) * 128 + 1 * e.val = win1_3.index t (1 : Fin 2) * 128 + e.val; omega
  · intro r e
    show V c (Pipeline.arrRef spec1 1) (((cfg1.win 1).blk t).view.emb (ix2 r e)) = _
    refine congrArg (V c (Pipeline.arrRef spec1 1)) (funext fun a => Fin.ext ?_)
    match a with
    | ⟨0, _⟩ => show win1_1.index t (0 : Fin 2) * 2048 + 1 * r.val = r.val; omega
    | ⟨1, _⟩ => show win1_1.index t (1 : Fin 2) * 128 + 1 * e.val = win1_3.index t (1 : Fin 2) * 128 + e.val; omega
  · intro r e
    show V c (Pipeline.arrRef spec1 2) (((cfg1.win 2).blk t).view.emb (ix2 r e)) = _
    refine congrArg (V c (Pipeline.arrRef spec1 2)) (funext fun a => Fin.ext ?_)
    match a with
    | ⟨0, _⟩ => show win1_2.index t (0 : Fin 2) * 2048 + 1 * r.val = r.val; omega
    | ⟨1, _⟩ => show win1_2.index t (1 : Fin 2) * 128 + 1 * e.val = win1_3.index t (1 : Fin 2) * 128 + e.val; omega
  · show win1_3.index t (0 : Fin 2) * 512 + 1 * (y 0).val = win1_3.index t (0 : Fin 2) * 512 + (y 0).val; omega
  · show win1_3.index t (1 : Fin 2) * 128 + 1 * (y 1).val = win1_3.index t (1 : Fin 2) * 128 + (y 1).val; omega

/-- An index lies in a grid point's output block exactly when each coordinate lies in the block's range. -/
theorem mem_blk1 (t : Fin cfg1.N) (i : S2048x2048.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v9).slice (win1_3.rect t)).set ↔ _
  rw [View.set_slice_whole, Rect.mem_set_unit]
  exact Iff.rfl

/-- Every index of the output array lies in the block some grid point writes back: row r in query tile r / 512,
    column j in head j / 128. -/
theorem cover1 (i : S2048x2048.Idx) : ∃ t : Fin cfg1.N, (cfg1.win 3).flush t = true ∧ i ∈ ((cfg1.win 3).blk t).view.set := by
  have hi0 : (i 0).val < 2048 := (i 0).isLt
  have hi1 : (i 1).val < 2048 := (i 1).isLt
  obtain ⟨t, ht⟩ := onto1 ⟨(i 0).val / 512, by omega⟩ ⟨(i 1).val / 128, by omega⟩
  have q0 : win1_3.index t (0 : Fin 2) = (i 0).val / 512 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- After the region its output array holds the heads' weighted means of the values. -/
theorem final1 : Final1 := fun V c =>
  (dat1 (F := Ideal) V c).arrAt_eq_of_cover 3 _ (fun t _ => flushed1_eq V c t) cover1

/-! ## Region 5 -/

/-- The relations between the region's block index maps, at every grid point: the query block and the output block sit
    at (query tile, head); the key and value blocks at (0, head); there are 4 query tiles and 16 heads. -/
theorem idx5 : ∀ t : Fin cfg5.N,
    win5_0.index t (0 : Fin 2) = win5_3.index t (0 : Fin 2) ∧ win5_0.index t (1 : Fin 2) = win5_3.index t (1 : Fin 2)
    ∧ win5_1.index t (0 : Fin 2) = 0 ∧ win5_1.index t (1 : Fin 2) = win5_3.index t (1 : Fin 2)
    ∧ win5_2.index t (0 : Fin 2) = 0 ∧ win5_2.index t (1 : Fin 2) = win5_3.index t (1 : Fin 2)
    ∧ win5_3.index t (0 : Fin 2) ≤ 3 ∧ win5_3.index t (1 : Fin 2) ≤ 15 :=
  (by decide +kernel : ∀ t : Fin grid5.N, _)

/-- Every (query tile, head) pair is the output block of some grid point. -/
theorem onto5 : ∀ (q0 : Fin 4) (q1 : Fin 16), ∃ t : Fin cfg5.N, win5_3.index t = ![q0.val, q1.val] :=
  (by decide +kernel : ∀ (q0 : Fin 4) (q1 : Fin 16), ∃ t : Fin grid5.N, win5_3.index t = ![q0.val, q1.val])

/-- What a grid point writes back is the block of the heads' weighted means at its (query tile, head). -/
theorem flushed5_eq (c : Dev nD) (t : Fin cfg5.N) :
    (dat5 (F := Ideal) V c).flushed 3 t = ((cfg5.win 3).blk t).view.read (Elt Ideal)
      (attnArr (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hzAttn]
  simp only [View.ld_unit_zero (S := S512x128) hzAttn, View.ld_unit_zero (S := S2048x128) hzAttn]
  obtain ⟨e0, e1, e2, e3, e4, e5, e6, e7⟩ := idx5 t
  funext y
  refine attn_block5 (V c (Pipeline.arrRef spec5 0)) (V c (Pipeline.arrRef spec5 1)) (V c (Pipeline.arrRef spec5 2))
    (iblk5 V c 0 t) (iblk5 V c 1 t) (iblk5 V c 2 t) (win5_3.index t (0 : Fin 2)) (win5_3.index t (1 : Fin 2)) e6 e7 ?_ ?_ ?_ y
    (((cfg5.win 3).blk t).view.emb y) ?_ ?_
  · intro p e
    show V c (Pipeline.arrRef spec5 0) (((cfg5.win 0).blk t).view.emb (ix2 p e)) = _
    refine congrArg (V c (Pipeline.arrRef spec5 0)) (funext fun a => Fin.ext ?_)
    match a with
    | ⟨0, _⟩ => show win5_0.index t (0 : Fin 2) * 512 + 1 * p.val = win5_3.index t (0 : Fin 2) * 512 + p.val; omega
    | ⟨1, _⟩ => show win5_0.index t (1 : Fin 2) * 128 + 1 * e.val = win5_3.index t (1 : Fin 2) * 128 + e.val; omega
  · intro r e
    show V c (Pipeline.arrRef spec5 1) (((cfg5.win 1).blk t).view.emb (ix2 r e)) = _
    refine congrArg (V c (Pipeline.arrRef spec5 1)) (funext fun a => Fin.ext ?_)
    match a with
    | ⟨0, _⟩ => show win5_1.index t (0 : Fin 2) * 2048 + 1 * r.val = r.val; omega
    | ⟨1, _⟩ => show win5_1.index t (1 : Fin 2) * 128 + 1 * e.val = win5_3.index t (1 : Fin 2) * 128 + e.val; omega
  · intro r e
    show V c (Pipeline.arrRef spec5 2) (((cfg5.win 2).blk t).view.emb (ix2 r e)) = _
    refine congrArg (V c (Pipeline.arrRef spec5 2)) (funext fun a => Fin.ext ?_)
    match a with
    | ⟨0, _⟩ => show win5_2.index t (0 : Fin 2) * 2048 + 1 * r.val = r.val; omega
    | ⟨1, _⟩ => show win5_2.index t (1 : Fin 2) * 128 + 1 * e.val = win5_3.index t (1 : Fin 2) * 128 + e.val; omega
  · show win5_3.index t (0 : Fin 2) * 512 + 1 * (y 0).val = win5_3.index t (0 : Fin 2) * 512 + (y 0).val; omega
  · show win5_3.index t (1 : Fin 2) * 128 + 1 * (y 1).val = win5_3.index t (1 : Fin 2) * 128 + (y 1).val; omega

/-- An index lies in a grid point's output block exactly when each coordinate lies in the block's range. -/
theorem mem_blk5 (t : Fin cfg5.N) (i : S2048x2048.Idx) :
    i ∈ ((cfg5.win 3).blk t).view.set ↔ ∀ a : Fin 2, win5_3.index t a * S512x128.size a ≤ (i a).val ∧ (i a).val < win5_3.index t a * S512x128.size a + S512x128.size a := by
  show i ∈ ((View.whole main_v18).slice (win5_3.rect t)).set ↔ _
  rw [View.set_slice_whole, Rect.mem_set_unit]
  exact Iff.rfl

/-- Every index of the output array lies in the block some grid point writes back: row r in query tile r / 512,
    column j in head j / 128. -/
theorem cover5 (i : S2048x2048.Idx) : ∃ t : Fin cfg5.N, (cfg5.win 3).flush t = true ∧ i ∈ ((cfg5.win 3).blk t).view.set := by
  have hi0 : (i 0).val < 2048 := (i 0).isLt
  have hi1 : (i 1).val < 2048 := (i 1).isLt
  obtain ⟨t, ht⟩ := onto5 ⟨(i 0).val / 512, by omega⟩ ⟨(i 1).val / 128, by omega⟩
  have q0 : win5_3.index t (0 : Fin 2) = (i 0).val / 512 := congrFun ht 0
  have q1 : win5_3.index t (1 : Fin 2) = (i 1).val / 128 := congrFun ht 1
  refine ⟨t, flush5_3 t, ?_⟩
  rw [mem_blk5]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 128 ≤ (i 1).val ∧ (i 1).val < win5_3.index t (1 : Fin 2) * 128 + 128; omega

/-- After the region its output array holds the heads' weighted means of the values. -/
theorem final5 : Final5 := fun V c =>
  (dat5 (F := Ideal) V c).arrAt_eq_of_cover 3 _ (fun t _ => flushed5_eq V c t) cover5

end Cert.KernelIdeal.Region

end
-- ==== Proof.FinalLinear.lean ====
/-
  The two affine-map regions of each round, from tiles to whole arrays.

  A region of this kind walks a 2 × 4 grid of output tiles of 1024 rows by 512 columns. At tile (i, j) it reads rows
  i·1024 … of its input (all 2048 columns), rows j·512 … of the weight matrix (its output columns), and columns
  j·512 … of the one-row bias, and writes `max (x · Wᵀ + b) 0` of them — in the second kind added to the same tile of a
  further array. Entry (r, s) of the output is therefore `max (∑ₖ x[r, k] · W[s, k] + b[s]) 0` (plus that array's
  entry), whatever tile it falls in, and the eight tiles cover the array.
-/
import proofs.«155661_j52089363366285_2_alg».proof.Proof.RegionSpec
import proofs.«155661_j52089363366285_2_alg».proof.Proof.PayLinear
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat Cfg Window)
open Cert.Attn Cert.KernelIdeal Cert.KernelIdeal.Gen

/-- The origin of a two-axis block. -/
theorem hz : (![0, 0] : Fin 2 → Nat) = fun _ => 0 := funext fun a => by fin_cases a <;> rfl

/-- Tile (i, j) of `max (x · Wᵀ + b) 0` — rows i·1024 …, columns j·512 … — from the matching tiles of x, W and b, for
    any tile function `pay` that computes `max (X₀ · X₁ᵀ + X₂) 0` entry by entry. -/
theorem linRelu_block (pay : Vec Ideal S1024x2048 .f32 → Vec Ideal S512x2048 .bf16 → Vec Ideal S1x512 .f32 → FVec Ideal S1024x512 .f32)
    (hpay : ∀ (a : Vec Ideal S1024x2048 .f32) (b : Vec Ideal S512x2048 .bf16) (d : Vec Ideal S1x512 .f32) (p : Fin 1024) (q : Fin 512),
      pay a b d (ix2 p q) = max ((∑ k : Fin 2048, a (ix2 p k) * b (ix2 q k)) + d (ix2 (0 : Fin 1) q)) 0)
    (x w : S2048x2048.Idx → EReal) (b : S1x2048.Idx → EReal)
    (X0 : Vec Ideal S1024x2048 .f32) (X1 : Vec Ideal S512x2048 .bf16) (X2 : Vec Ideal S1x512 .f32)
    (i j : Nat) (hi : i ≤ 1) (hj : j ≤ 3)
    (h0 : ∀ (p : Fin 1024) (k : Fin 2048), X0 (ix2 p k) = x (ix2 (⟨i * 1024 + p.val, by omega⟩ : Fin 2048) k))
    (h1 : ∀ (q : Fin 512) (k : Fin 2048), X1 (ix2 q k) = w (ix2 (⟨j * 512 + q.val, by omega⟩ : Fin 2048) k))
    (h2 : ∀ (q : Fin 512), X2 (ix2 (0 : Fin 1) q) = b (ix2 (0 : Fin 1) (⟨j * 512 + q.val, by omega⟩ : Fin 2048)))
    (y : S1024x512.Idx) (g : S2048x2048.Idx) (hg0 : (g 0).val = i * 1024 + (y 0).val) (hg1 : (g 1).val = j * 512 + (y 1).val) :
    pay X0 X1 X2 y = linReluArr x w b g := by
  refine ((congrArg (pay X0 X1 X2) (eq_ix2 (n0 := 1024) (n1 := 512) y)).trans (hpay X0 X1 X2 (y 0) (y 1))).trans ?_
  have e0 : g 0 = (⟨i * 1024 + (y 0).val, by have h : (y 0).val < 1024 := (y 0).isLt; omega⟩ : Fin 2048) := Fin.ext hg0
  have e1 : g 1 = (⟨j * 512 + (y 1).val, by have h : (y 1).val < 512 := (y 1).isLt; omega⟩ : Fin 2048) := Fin.ext hg1
  unfold linReluArr ofMat lin toMat rowOf
  rw [e0, e1]
  refine congrArg (fun z => max z 0) ?_
  refine congrArg₂ (· + ·) (Finset.sum_congr rfl fun k _ => ?_) (h2 (y 1))
  exact congrArg₂ (· * ·) (h0 (y 0) k) (h1 (y 1) k)

/-- The same tile added to the matching tile of a further array `r`. -/
theorem linReluAdd_block (pay : Vec Ideal S1024x2048 .f32 → Vec Ideal S512x2048 .bf16 → Vec Ideal S1x512 .f32 → Vec Ideal S1024x512 .f32 → FVec Ideal S1024x512 .f32)
    (hpay : ∀ (a : Vec Ideal S1024x2048 .f32) (b : Vec Ideal S512x2048 .bf16) (d : Vec Ideal S1x512 .f32) (r : Vec Ideal S1024x512 .f32) (p : Fin 1024) (q : Fin 512),
      pay a b d r (ix2 p q) = r (ix2 p q) + max ((∑ k : Fin 2048, a (ix2 p k) * b (ix2 q k)) + d (ix2 (0 : Fin 1) q)) 0)
    (x w : S2048x2048.Idx → EReal) (b : S1x2048.Idx → EReal) (r : S2048x2048.Idx → EReal)
    (X0 : Vec Ideal S1024x2048 .f32) (X1 : Vec Ideal S512x2048 .bf16) (X2 : Vec Ideal S1x512 .f32) (X3 : Vec Ideal S1024x512 .f32)
    (i j : Nat) (hi : i ≤ 1) (hj : j ≤ 3)
    (h0 : ∀ (p : Fin 1024) (k : Fin 2048), X0 (ix2 p k) = x (ix2 (⟨i * 1024 + p.val, by omega⟩ : Fin 2048) k))
    (h1 : ∀ (q : Fin 512) (k : Fin 2048), X1 (ix2 q k) = w (ix2 (⟨j * 512 + q.val, by omega⟩ : Fin 2048) k))
    (h2 : ∀ (q : Fin 512), X2 (ix2 (0 : Fin 1) q) = b (ix2 (0 : Fin 1) (⟨j * 512 + q.val, by omega⟩ : Fin 2048)))
    (h3 : ∀ (p : Fin 1024) (q : Fin 512), X3 (ix2 p q) = r (ix2 (⟨i * 1024 + p.val, by omega⟩ : Fin 2048) (⟨j * 512 + q.val, by omega⟩ : Fin 2048)))
    (y : S1024x512.Idx) (g : S2048x2048.Idx) (hg0 : (g 0).val = i * 1024 + (y 0).val) (hg1 : (g 1).val = j * 512 + (y 1).val) :
    pay X0 X1 X2 X3 y = linReluAddArr x w b r g := by
  refine ((congrArg (pay X0 X1 X2 X3) (eq_ix2 (n0 := 1024) (n1 := 512) y)).trans (hpay X0 X1 X2 X3 (y 0) (y 1))).trans ?_
  have e0 : g 0 = (⟨i * 1024 + (y 0).val, by have h : (y 0).val < 1024 := (y 0).isLt; omega⟩ : Fin 2048) := Fin.ext hg0
  have e1 : g 1 = (⟨j * 512 + (y 1).val, by have h : (y 1).val < 512 := (y 1).isLt; omega⟩ : Fin 2048) := Fin.ext hg1
  unfold linReluAddArr ofMat lin toMat rowOf
  rw [e0, e1]
  refine congrArg₂ (· + ·) (h3 (y 0) (y 1)) ?_
  refine congrArg (fun z => max z 0) ?_
  refine congrArg₂ (· + ·) (Finset.sum_congr rfl fun k _ => ?_) (h2 (y 1))
  exact congrArg₂ (· * ·) (h0 (y 0) k) (h1 (y 1) k)

variable (V : (c : Dev nD) → (b : Ref sig .tc) → Buf (Elt Ideal) ((c : Thread nD τ).loc b))

/-! ## Region 2 -/

/-- The printed index maps of region 2, decided over its eight grid points: the row tile of the input and of the
    output agree, the weight's row tile is the output's column tile, the bias moves with the output's columns, and
    the output's tiles stay in their ranges. -/
theorem idx2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 1 ∧ win2_3.index t (1 : Fin 2) ≤ 3 :=
  (by decide +kernel : ∀ t : Fin grid2.N, _)

/-- Every tile of the output is some grid point's. -/
theorem onto2 : ∀ (q0 : Fin 2) (q1 : Fin 4), ∃ t : Fin cfg2.N, win2_3.index t = ![q0.val, q1.val] :=
  (by decide +kernel : ∀ (q0 : Fin 2) (q1 : Fin 4), ∃ t : Fin grid2.N, win2_3.index t = ![q0.val, q1.val])

/-- What grid point `t` writes back is tile `t` of the region's function of the arrays it finds at entry. -/
theorem flushed2_eq (c : Dev nD) (t : Fin cfg2.N) :
    (dat2 (F := Ideal) V c).flushed 3 t = ((cfg2.win 3).blk t).view.read (Elt Ideal)
      (linReluArr (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S1024x2048) hz, View.ld_unit_zero (S := S512x2048) hz, View.ld_unit_zero (S := S1x512) hz]
  obtain ⟨e0, e1, e2, e3, e4, e5, e6, e7⟩ := idx2 t
  funext y
  refine linRelu_block k2_pay1 (fun a b d p q => Pay.k2_pay1_apply a b d p q) (V c (Pipeline.arrRef spec2 0)) (V c (Pipeline.arrRef spec2 1)) (V c (Pipeline.arrRef spec2 2))
    (iblk2 V c 0 t) (iblk2 V c 1 t) (iblk2 V c 2 t) (win2_3.index t (0 : Fin 2)) (win2_3.index t (1 : Fin 2)) e6 e7 ?_ ?_ ?_ y
    (((cfg2.win 3).blk t).view.emb y) ?_ ?_
  · intro p k
    show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 1024 + 1 * p.val = win2_3.index t (0 : Fin 2) * 1024 + p.val; omega
    | ⟨1, _⟩ => show win2_0.index t (1 : Fin 2) * 2048 + 1 * k.val = k.val; omega
  · intro q k
    show V c (Pipeline.arrRef spec2 1) (((cfg2.win 1).blk t).view.emb (ix2 q k)) = _
    refine congrArg (V c (Pipeline.arrRef spec2 1)) (funext fun a => Fin.ext ?_)
    match a with
    | ⟨0, _⟩ => show win2_1.index t (0 : Fin 2) * 512 + 1 * q.val = win2_3.index t (1 : Fin 2) * 512 + q.val; omega
    | ⟨1, _⟩ => show win2_1.index t (1 : Fin 2) * 2048 + 1 * k.val = k.val; omega
  · intro q
    show V c (Pipeline.arrRef spec2 2) (((cfg2.win 2).blk t).view.emb (ix2 (0 : Fin 1) q)) = _
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 512 + 1 * q.val = win2_3.index t (1 : Fin 2) * 512 + q.val; omega
  · show win2_3.index t (0 : Fin 2) * 1024 + 1 * (y 0).val = win2_3.index t (0 : Fin 2) * 1024 + (y 0).val; omega
  · show win2_3.index t (1 : Fin 2) * 512 + 1 * (y 1).val = win2_3.index t (1 : Fin 2) * 512 + (y 1).val; omega

/-- An index of the output array lies in grid point `t`'s tile iff each coordinate lies in the tile's range. -/
theorem mem_blk2 (t : Fin cfg2.N) (i : S2048x2048.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v11).slice (win2_3.rect t)).set ↔ _
  rw [View.set_slice_whole, Rect.mem_set_unit]
  exact Iff.rfl

/-- The tiles cover the array: index `(r, s)` lies in the tile of row tile `r / 1024` and column tile `s / 512`. -/
theorem cover2 (i : S2048x2048.Idx) : ∃ t : Fin cfg2.N, (cfg2.win 3).flush t = true ∧ i ∈ ((cfg2.win 3).blk t).view.set := by
  have hi0 : (i 0).val < 2048 := (i 0).isLt
  have hi1 : (i 1).val < 2048 := (i 1).isLt
  obtain ⟨t, ht⟩ := onto2 ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- Region 2's output array after the region. -/
theorem final2 : Final2 := fun V c =>
  (dat2 (F := Ideal) V c).arrAt_eq_of_cover 3 _ (fun t _ => flushed2_eq V c t) cover2

/-! ## Region 3 -/

/-- The printed index maps of region 3, decided over its eight grid points: the row tile of the input and of the
    output agree, the weight's row tile is the output's column tile, the bias moves with the output's columns, the array
    being added moves with the output, and
    the output's tiles stay in their ranges. -/
theorem idx3 : ∀ t : Fin cfg3.N,
    win3_0.index t (0 : Fin 2) = win3_4.index t (0 : Fin 2) ∧ win3_0.index t (1 : Fin 2) = 0
    ∧ win3_1.index t (0 : Fin 2) = win3_4.index t (1 : Fin 2) ∧ win3_1.index t (1 : Fin 2) = 0
    ∧ win3_2.index t (0 : Fin 2) = 0 ∧ win3_2.index t (1 : Fin 2) = win3_4.index t (1 : Fin 2)
    ∧ win3_3.index t (0 : Fin 2) = win3_4.index t (0 : Fin 2) ∧ win3_3.index t (1 : Fin 2) = win3_4.index t (1 : Fin 2)
    ∧ win3_4.index t (0 : Fin 2) ≤ 1 ∧ win3_4.index t (1 : Fin 2) ≤ 3 :=
  (by decide +kernel : ∀ t : Fin grid3.N, _)

/-- Every tile of the output is some grid point's. -/
theorem onto3 : ∀ (q0 : Fin 2) (q1 : Fin 4), ∃ t : Fin cfg3.N, win3_4.index t = ![q0.val, q1.val] :=
  (by decide +kernel : ∀ (q0 : Fin 2) (q1 : Fin 4), ∃ t : Fin grid3.N, win3_4.index t = ![q0.val, q1.val])

/-- What grid point `t` writes back is tile `t` of the region's function of the arrays it finds at entry. -/
theorem flushed3_eq (c : Dev nD) (t : Fin cfg3.N) :
    (dat3 (F := Ideal) V c).flushed 4 t = ((cfg3.win 4).blk t).view.read (Elt Ideal)
      (linReluAddArr (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S1024x2048) hz, View.ld_unit_zero (S := S512x2048) hz, View.ld_unit_zero (S := S1x512) hz, View.ld_unit_zero (S := S1024x512) hz]
  obtain ⟨e0, e1, e2, e3, e4, e5, e8, e9, e6, e7⟩ := idx3 t
  funext y
  refine linReluAdd_block k3_pay1 (fun a b d r p q => Pay.k3_pay1_apply a b d r p q) (V c (Pipeline.arrRef spec3 0)) (V c (Pipeline.arrRef spec3 1)) (V c (Pipeline.arrRef spec3 2)) (V c (Pipeline.arrRef spec3 3))
    (iblk3 V c 0 t) (iblk3 V c 1 t) (iblk3 V c 2 t) (iblk3 V c 3 t) (win3_4.index t (0 : Fin 2)) (win3_4.index t (1 : Fin 2)) e6 e7 ?_ ?_ ?_ ?_ y
    (((cfg3.win 4).blk t).view.emb y) ?_ ?_
  · intro p k
    show V c (Pipeline.arrRef spec3 0) (((cfg3.win 0).blk t).view.emb (ix2 p k)) = _
    refine congrArg (V c (Pipeline.arrRef spec3 0)) (funext fun a => Fin.ext ?_)
    match a with
    | ⟨0, _⟩ => show win3_0.index t (0 : Fin 2) * 1024 + 1 * p.val = win3_4.index t (0 : Fin 2) * 1024 + p.val; omega
    | ⟨1, _⟩ => show win3_0.index t (1 : Fin 2) * 2048 + 1 * k.val = k.val; omega
  · intro q k
    show V c (Pipeline.arrRef spec3 1) (((cfg3.win 1).blk t).view.emb (ix2 q k)) = _
    refine congrArg (V c (Pipeline.arrRef spec3 1)) (funext fun a => Fin.ext ?_)
    match a with
    | ⟨0, _⟩ => show win3_1.index t (0 : Fin 2) * 512 + 1 * q.val = win3_4.index t (1 : Fin 2) * 512 + q.val; omega
    | ⟨1, _⟩ => show win3_1.index t (1 : Fin 2) * 2048 + 1 * k.val = k.val; omega
  · intro q
    show V c (Pipeline.arrRef spec3 2) (((cfg3.win 2).blk t).view.emb (ix2 (0 : Fin 1) q)) = _
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 512 + 1 * q.val = win3_4.index t (1 : Fin 2) * 512 + q.val; omega
  · intro p q
    show V c (Pipeline.arrRef spec3 3) (((cfg3.win 3).blk t).view.emb (ix2 p q)) = _
    refine congrArg (V c (Pipeline.arrRef spec3 3)) (funext fun a => Fin.ext ?_)
    match a with
    | ⟨0, _⟩ => show win3_3.index t (0 : Fin 2) * 1024 + 1 * p.val = win3_4.index t (0 : Fin 2) * 1024 + p.val; omega
    | ⟨1, _⟩ => show win3_3.index t (1 : Fin 2) * 512 + 1 * q.val = win3_4.index t (1 : Fin 2) * 512 + q.val; omega
  · show win3_4.index t (0 : Fin 2) * 1024 + 1 * (y 0).val = win3_4.index t (0 : Fin 2) * 1024 + (y 0).val; omega
  · show win3_4.index t (1 : Fin 2) * 512 + 1 * (y 1).val = win3_4.index t (1 : Fin 2) * 512 + (y 1).val; omega

/-- An index of the output array lies in grid point `t`'s tile iff each coordinate lies in the tile's range. -/
theorem mem_blk3 (t : Fin cfg3.N) (i : S2048x2048.Idx) :
    i ∈ ((cfg3.win 4).blk t).view.set ↔ ∀ a : Fin 2, win3_4.index t a * S1024x512.size a ≤ (i a).val ∧ (i a).val < win3_4.index t a * S1024x512.size a + S1024x512.size a := by
  show i ∈ ((View.whole main_v13).slice (win3_4.rect t)).set ↔ _
  rw [View.set_slice_whole, Rect.mem_set_unit]
  exact Iff.rfl

/-- The tiles cover the array: index `(r, s)` lies in the tile of row tile `r / 1024` and column tile `s / 512`. -/
theorem cover3 (i : S2048x2048.Idx) : ∃ t : Fin cfg3.N, (cfg3.win 4).flush t = true ∧ i ∈ ((cfg3.win 4).blk t).view.set := by
  have hi0 : (i 0).val < 2048 := (i 0).isLt
  have hi1 : (i 1).val < 2048 := (i 1).isLt
  obtain ⟨t, ht⟩ := onto3 ⟨(i 0).val / 1024, by omega⟩ ⟨(i 1).val / 512, by omega⟩
  have q0 : win3_4.index t (0 : Fin 2) = (i 0).val / 1024 := congrFun ht 0
  have q1 : win3_4.index t (1 : Fin 2) = (i 1).val / 512 := congrFun ht 1
  refine ⟨t, flush3_4 t, ?_⟩
  rw [mem_blk3]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 512 ≤ (i 1).val ∧ (i 1).val < win3_4.index t (1 : Fin 2) * 512 + 512; omega

/-- Region 3's output array after the region. -/
theorem final3 : Final3 := fun V c =>
  (dat3 (F := Ideal) V c).arrAt_eq_of_cover 4 _ (fun t _ => flushed3_eq V c t) cover3

/-! ## Region 6 -/

/-- The printed index maps of region 6, decided over its eight grid points: the row tile of the input and of the
    output agree, the weight's row tile is the output's column tile, the bias moves with the output's columns, and
    the output's tiles stay in their ranges. -/
theorem idx6 : ∀ t : Fin cfg6.N,
    win6_0.index t (0 : Fin 2) = win6_3.index t (0 : Fin 2) ∧ win6_0.index t (1 : Fin 2) = 0
    ∧ win6_1.index t (0 : Fin 2) = win6_3.index t (1 : Fin 2) ∧ win6_1.index t (1 : Fin 2) = 0
    ∧ win6_2.index t (0 : Fin 2) = 0 ∧ win6_2.index t (1 : Fin 2) = win6_3.index t (1 : Fin 2)
    ∧ win6_3.index t (0 : Fin 2) ≤ 1 ∧ win6_3.index t (1 : Fin 2) ≤ 3 :=
  (by decide +kernel : ∀ t : Fin grid6.N, _)

/-- Every tile of the output is some grid point's. -/
theorem onto6 : ∀ (q0 : Fin 2) (q1 : Fin 4), ∃ t : Fin cfg6.N, win6_3.index t = ![q0.val, q1.val] :=
  (by decide +kernel : ∀ (q0 : Fin 2) (q1 : Fin 4), ∃ t : Fin grid6.N, win6_3.index t = ![q0.val, q1.val])

/-- What grid point `t` writes back is tile `t` of the region's function of the arrays it finds at entry. -/
theorem flushed6_eq (c : Dev nD) (t : Fin cfg6.N) :
    (dat6 (F := Ideal) V c).flushed 3 t = ((cfg6.win 3).blk t).view.read (Elt Ideal)
      (linReluArr (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S1024x2048) hz, View.ld_unit_zero (S := S512x2048) hz, View.ld_unit_zero (S := S1x512) hz]
  obtain ⟨e0, e1, e2, e3, e4, e5, e6, e7⟩ := idx6 t
  funext y
  refine linRelu_block k6_pay1 (fun a b d p q => Pay.k6_pay1_apply a b d p q) (V c (Pipeline.arrRef spec6 0)) (V c (Pipeline.arrRef spec6 1)) (V c (Pipeline.arrRef spec6 2))
    (iblk6 V c 0 t) (iblk6 V c 1 t) (iblk6 V c 2 t) (win6_3.index t (0 : Fin 2)) (win6_3.index t (1 : Fin 2)) e6 e7 ?_ ?_ ?_ y
    (((cfg6.win 3).blk t).view.emb y) ?_ ?_
  · intro p k
    show V c (Pipeline.arrRef spec6 0) (((cfg6.win 0).blk t).view.emb (ix2 p k)) = _
    refine congrArg (V c (Pipeline.arrRef spec6 0)) (funext fun a => Fin.ext ?_)
    match a with
    | ⟨0, _⟩ => show win6_0.index t (0 : Fin 2) * 1024 + 1 * p.val = win6_3.index t (0 : Fin 2) * 1024 + p.val; omega
    | ⟨1, _⟩ => show win6_0.index t (1 : Fin 2) * 2048 + 1 * k.val = k.val; omega
  · intro q k
    show V c (Pipeline.arrRef spec6 1) (((cfg6.win 1).blk t).view.emb (ix2 q k)) = _
    refine congrArg (V c (Pipeline.arrRef spec6 1)) (funext fun a => Fin.ext ?_)
    match a with
    | ⟨0, _⟩ => show win6_1.index t (0 : Fin 2) * 512 + 1 * q.val = win6_3.index t (1 : Fin 2) * 512 + q.val; omega
    | ⟨1, _⟩ => show win6_1.index t (1 : Fin 2) * 2048 + 1 * k.val = k.val; omega
  · intro q
    show V c (Pipeline.arrRef spec6 2) (((cfg6.win 2).blk t).view.emb (ix2 (0 : Fin 1) q)) = _
    refine congrArg (V c (Pipeline.arrRef spec6 2)) (funext fun a => Fin.ext ?_)
    match a with
    | ⟨0, _⟩ => show win6_2.index t (0 : Fin 2) * 1 + 1 * 0 = 0; omega
    | ⟨1, _⟩ => show win6_2.index t (1 : Fin 2) * 512 + 1 * q.val = win6_3.index t (1 : Fin 2) * 512 + q.val; omega
  · show win6_3.index t (0 : Fin 2) * 1024 + 1 * (y 0).val = win6_3.index t (0 : Fin 2) * 1024 + (y 0).val; omega
  · show win6_3.index t (1 : Fin 2) * 512 + 1 * (y 1).val = win6_3.index t (1 : Fin 2) * 512 + (y 1).val; omega

/-- An index of the output array lies in grid point `t`'s tile iff each coordinate lies in the tile's range. -/
theorem mem_blk6 (t : Fin cfg6.N) (i : S2048x2048.Idx) :
    i ∈ ((cfg6.win 3).blk t).view.set ↔ ∀ a : Fin 2, win6_3.index t a * S1024x512.size a ≤ (i a).val ∧ (i a).val < win6_3.index t a * S1024x512.size a + S1024x512.size a := by
  show i ∈ ((View.whole main_v20).slice (win6_3.rect t)).set ↔ _
  rw [View.set_slice_whole, Rect.mem_set_unit]
  exact Iff.rfl

/-- The tiles cover the array: index `(r, s)` lies in the tile of row tile `r / 1024` and column tile `s / 512`. -/
theorem cover6 (i : S2048x2048.Idx) : ∃ t : Fin cfg6.N, (cfg6.win 3).flush t = true ∧ i ∈ ((cfg6.win 3).blk t).view.set := by
  have hi0 : (i 0).val < 2048 := (i 0).isLt
  have hi1 : (i 1).val < 2048 := (i 1).isLt
  obtain ⟨t, ht⟩ := onto6 ⟨(i 0).val / 1024, by omega⟩ ⟨(i 1).val / 512, by omega⟩
  have q0 : win6_3.index t (0 : Fin 2) = (i 0).val / 1024 := congrFun ht 0
  have q1 : win6_3.index t (1 : Fin 2) = (i 1).val / 512 := congrFun ht 1
  refine ⟨t, flush6_3 t, ?_⟩
  rw [mem_blk6]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 512 ≤ (i 1).val ∧ (i 1).val < win6_3.index t (1 : Fin 2) * 512 + 512; omega

/-- Region 6's output array after the region. -/
theorem final6 : Final6 := fun V c =>
  (dat6 (F := Ideal) V c).arrAt_eq_of_cover 3 _ (fun t _ => flushed6_eq V c t) cover6

/-! ## Region 7 -/

/-- The printed index maps of region 7, decided over its eight grid points: the row tile of the input and of the
    output agree, the weight's row tile is the output's column tile, the bias moves with the output's columns, the array
    being added moves with the output, and
    the output's tiles stay in their ranges. -/
theorem idx7 : ∀ t : Fin cfg7.N,
    win7_0.index t (0 : Fin 2) = win7_4.index t (0 : Fin 2) ∧ win7_0.index t (1 : Fin 2) = 0
    ∧ win7_1.index t (0 : Fin 2) = win7_4.index t (1 : Fin 2) ∧ win7_1.index t (1 : Fin 2) = 0
    ∧ win7_2.index t (0 : Fin 2) = 0 ∧ win7_2.index t (1 : Fin 2) = win7_4.index t (1 : Fin 2)
    ∧ win7_3.index t (0 : Fin 2) = win7_4.index t (0 : Fin 2) ∧ win7_3.index t (1 : Fin 2) = win7_4.index t (1 : Fin 2)
    ∧ win7_4.index t (0 : Fin 2) ≤ 1 ∧ win7_4.index t (1 : Fin 2) ≤ 3 :=
  (by decide +kernel : ∀ t : Fin grid7.N, _)

/-- Every tile of the output is some grid point's. -/
theorem onto7 : ∀ (q0 : Fin 2) (q1 : Fin 4), ∃ t : Fin cfg7.N, win7_4.index t = ![q0.val, q1.val] :=
  (by decide +kernel : ∀ (q0 : Fin 2) (q1 : Fin 4), ∃ t : Fin grid7.N, win7_4.index t = ![q0.val, q1.val])

/-- What grid point `t` writes back is tile `t` of the region's function of the arrays it finds at entry. -/
theorem flushed7_eq (c : Dev nD) (t : Fin cfg7.N) :
    (dat7 (F := Ideal) V c).flushed 4 t = ((cfg7.win 4).blk t).view.read (Elt Ideal)
      (linReluAddArr (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero hz]
  simp only [View.ld_unit_zero (S := S1024x2048) hz, View.ld_unit_zero (S := S512x2048) hz, View.ld_unit_zero (S := S1x512) hz, View.ld_unit_zero (S := S1024x512) hz]
  obtain ⟨e0, e1, e2, e3, e4, e5, e8, e9, e6, e7⟩ := idx7 t
  funext y
  refine linReluAdd_block k7_pay1 (fun a b d r p q => Pay.k7_pay1_apply a b d r p q) (V c (Pipeline.arrRef spec7 0)) (V c (Pipeline.arrRef spec7 1)) (V c (Pipeline.arrRef spec7 2)) (V c (Pipeline.arrRef spec7 3))
    (iblk7 V c 0 t) (iblk7 V c 1 t) (iblk7 V c 2 t) (iblk7 V c 3 t) (win7_4.index t (0 : Fin 2)) (win7_4.index t (1 : Fin 2)) e6 e7 ?_ ?_ ?_ ?_ y
    (((cfg7.win 4).blk t).view.emb y) ?_ ?_
  · intro p k
    show V c (Pipeline.arrRef spec7 0) (((cfg7.win 0).blk t).view.emb (ix2 p k)) = _
    refine congrArg (V c (Pipeline.arrRef spec7 0)) (funext fun a => Fin.ext ?_)
    match a with
    | ⟨0, _⟩ => show win7_0.index t (0 : Fin 2) * 1024 + 1 * p.val = win7_4.index t (0 : Fin 2) * 1024 + p.val; omega
    | ⟨1, _⟩ => show win7_0.index t (1 : Fin 2) * 2048 + 1 * k.val = k.val; omega
  · intro q k
    show V c (Pipeline.arrRef spec7 1) (((cfg7.win 1).blk t).view.emb (ix2 q k)) = _
    refine congrArg (V c (Pipeline.arrRef spec7 1)) (funext fun a => Fin.ext ?_)
    match a with
    | ⟨0, _⟩ => show win7_1.index t (0 : Fin 2) * 512 + 1 * q.val = win7_4.index t (1 : Fin 2) * 512 + q.val; omega
    | ⟨1, _⟩ => show win7_1.index t (1 : Fin 2) * 2048 + 1 * k.val = k.val; omega
  · intro q
    show V c (Pipeline.arrRef spec7 2) (((cfg7.win 2).blk t).view.emb (ix2 (0 : Fin 1) q)) = _
    refine congrArg (V c (Pipeline.arrRef spec7 2)) (funext fun a => Fin.ext ?_)
    match a with
    | ⟨0, _⟩ => show win7_2.index t (0 : Fin 2) * 1 + 1 * 0 = 0; omega
    | ⟨1, _⟩ => show win7_2.index t (1 : Fin 2) * 512 + 1 * q.val = win7_4.index t (1 : Fin 2) * 512 + q.val; omega
  · intro p q
    show V c (Pipeline.arrRef spec7 3) (((cfg7.win 3).blk t).view.emb (ix2 p q)) = _
    refine congrArg (V c (Pipeline.arrRef spec7 3)) (funext fun a => Fin.ext ?_)
    match a with
    | ⟨0, _⟩ => show win7_3.index t (0 : Fin 2) * 1024 + 1 * p.val = win7_4.index t (0 : Fin 2) * 1024 + p.val; omega
    | ⟨1, _⟩ => show win7_3.index t (1 : Fin 2) * 512 + 1 * q.val = win7_4.index t (1 : Fin 2) * 512 + q.val; omega
  · show win7_4.index t (0 : Fin 2) * 1024 + 1 * (y 0).val = win7_4.index t (0 : Fin 2) * 1024 + (y 0).val; omega
  · show win7_4.index t (1 : Fin 2) * 512 + 1 * (y 1).val = win7_4.index t (1 : Fin 2) * 512 + (y 1).val; omega

/-- An index of the output array lies in grid point `t`'s tile iff each coordinate lies in the tile's range. -/
theorem mem_blk7 (t : Fin cfg7.N) (i : S2048x2048.Idx) :
    i ∈ ((cfg7.win 4).blk t).view.set ↔ ∀ a : Fin 2, win7_4.index t a * S1024x512.size a ≤ (i a).val ∧ (i a).val < win7_4.index t a * S1024x512.size a + S1024x512.size a := by
  show i ∈ ((View.whole main_v22).slice (win7_4.rect t)).set ↔ _
  rw [View.set_slice_whole, Rect.mem_set_unit]
  exact Iff.rfl

/-- The tiles cover the array: index `(r, s)` lies in the tile of row tile `r / 1024` and column tile `s / 512`. -/
theorem cover7 (i : S2048x2048.Idx) : ∃ t : Fin cfg7.N, (cfg7.win 4).flush t = true ∧ i ∈ ((cfg7.win 4).blk t).view.set := by
  have hi0 : (i 0).val < 2048 := (i 0).isLt
  have hi1 : (i 1).val < 2048 := (i 1).isLt
  obtain ⟨t, ht⟩ := onto7 ⟨(i 0).val / 1024, by omega⟩ ⟨(i 1).val / 512, by omega⟩
  have q0 : win7_4.index t (0 : Fin 2) = (i 0).val / 1024 := congrFun ht 0
  have q1 : win7_4.index t (1 : Fin 2) = (i 1).val / 512 := congrFun ht 1
  refine ⟨t, flush7_4 t, ?_⟩
  rw [mem_blk7]
  intro a
  match a with
  | ⟨0, _⟩ => show win7_4.index t (0 : Fin 2) * 1024 ≤ (i 0).val ∧ (i 0).val < win7_4.index t (0 : Fin 2) * 1024 + 1024; omega
  | ⟨1, _⟩ => show win7_4.index t (1 : Fin 2) * 512 ≤ (i 1).val ∧ (i 1).val < win7_4.index t (1 : Fin 2) * 512 + 512; omega

/-- Region 7's output array after the region. -/
theorem final7 : Final7 := fun V c =>
  (dat7 (F := Ideal) V c).arrAt_eq_of_cover 4 _ (fun t _ => flushed7_eq V c t) cover7

end Cert.KernelIdeal.Region

end
-- ==== Proof.Chain.lean ====
/-
  The kernel program's result array, read back through its segments.

  The program is eight pipelined regions among stretches of host operations. Each stretch of host operations only
  converts a weight matrix (which leaves the extended reals as they are) or lays a bias vector out as a one-row array;
  each region leaves in its output arrays a function of the arrays it finds when it is entered. A buffer that a segment
  does not write keeps its contents across it. Following every buffer from where it is written to where it is read,
  the four regions of a round compose to one round of the specification (the weighted mean written as one quotient),
  and the second four apply the same round to the result of the first.
-/
import proofs.«155661_j52089363366285_2_alg».proof.Proof.RegionSpec
import Idealize.ShloMosaic.Lib.Pipeline.Value

set_option maxRecDepth 16384

noncomputable section

namespace Cert.KernelIdeal.Chain

open Idealize.ShloMosaic Idealize.ShloMosaic.TcCoe Idealize.ShloMosaic.ValueIdx Idealize.SL.Sem
open Idealize.ShloMosaic.StableHlo (after_of_writes_sub)
open Cert.Attn Cert.KernelIdeal Cert.KernelIdeal.Gen Cert.KernelIdeal.Region

variable (m : (ℓ : Loc nD τ sig) → Buf (Elt Ideal) ℓ) (ρ : Dev nD → PrngReg) (c : Dev nD)

/-! ## What the host operations write, and what they keep -/

/-- The buffers the host operations before region 0 write. -/
theorem writes_h0 : (hostOps0 : List (HloOp τ sig (Elt Ideal))).Forall fun op =>
    op.writes ⊆ (([main_v0, main_v1, main_v2, main_v3, main_v4, main_v5, main_v6, main_v7] : List (Ref sig .tc)).map (Proc.devRef (τ := τ) .tc)).toFinset := by
  simp only [hostOps0, List.Forall, StableHlo.unary_writes, StableHlo.reshape_writes, Finset.singleton_subset_iff,
    List.mem_toFinset]
  repeat' apply And.intro
  all_goals exact List.mem_map_of_mem (by decide)

/-- Any other buffer keeps its contents across them. -/
theorem keep_h0 {r : Ref sig .tc} (hr : r ∉ ([main_v0, main_v1, main_v2, main_v3, main_v4, main_v5, main_v6, main_v7] : List (Ref sig .tc))) :
    W1 (F := Ideal) m ρ c (Proc.devRef .tc r) = W0 (F := Ideal) m ρ c (Proc.devRef .tc r) :=
  StableHlo.after_of_writes_sub _ _ writes_h0 hr

/-- The buffers the host operations before region 2 write. -/
theorem writes_h2 : (hostOps2 : List (HloOp τ sig (Elt Ideal))).Forall fun op =>
    op.writes ⊆ (([main_v10] : List (Ref sig .tc)).map (Proc.devRef (τ := τ) .tc)).toFinset := by
  simp only [hostOps2, List.Forall, StableHlo.unary_writes, StableHlo.reshape_writes, Finset.singleton_subset_iff,
    List.mem_toFinset]
  repeat' apply And.intro
  all_goals exact List.mem_map_of_mem (by decide)

/-- Any other buffer keeps its contents across them. -/
theorem keep_h2 {r : Ref sig .tc} (hr : r ∉ ([main_v10] : List (Ref sig .tc))) :
    W4 (F := Ideal) m ρ c (Proc.devRef .tc r) = W3 (F := Ideal) m ρ c (Proc.devRef .tc r) :=
  StableHlo.after_of_writes_sub _ _ writes_h2 hr

/-- The buffers the host operations before region 3 write. -/
theorem writes_h3 : (hostOps3 : List (HloOp τ sig (Elt Ideal))).Forall fun op =>
    op.writes ⊆ (([main_v12] : List (Ref sig .tc)).map (Proc.devRef (τ := τ) .tc)).toFinset := by
  simp only [hostOps3, List.Forall, StableHlo.unary_writes, StableHlo.reshape_writes, Finset.singleton_subset_iff,
    List.mem_toFinset]
  repeat' apply And.intro
  all_goals exact List.mem_map_of_mem (by decide)

/-- Any other buffer keeps its contents across them. -/
theorem keep_h3 {r : Ref sig .tc} (hr : r ∉ ([main_v12] : List (Ref sig .tc))) :
    W6 (F := Ideal) m ρ c (Proc.devRef .tc r) = W5 (F := Ideal) m ρ c (Proc.devRef .tc r) :=
  StableHlo.after_of_writes_sub _ _ writes_h3 hr

/-- The buffers the host operations before region 4 write. -/
theorem writes_h4 : (hostOps4 : List (HloOp τ sig (Elt Ideal))).Forall fun op =>
    op.writes ⊆ (([main_v14, main_v15, main_v16] : List (Ref sig .tc)).map (Proc.devRef (τ := τ) .tc)).toFinset := by
  simp only [hostOps4, List.Forall, StableHlo.unary_writes, StableHlo.reshape_writes, Finset.singleton_subset_iff,
    List.mem_toFinset]
  repeat' apply And.intro
  all_goals exact List.mem_map_of_mem (by decide)

/-- Any other buffer keeps its contents across them. -/
theorem keep_h4 {r : Ref sig .tc} (hr : r ∉ ([main_v14, main_v15, main_v16] : List (Ref sig .tc))) :
    W8 (F := Ideal) m ρ c (Proc.devRef .tc r) = W7 (F := Ideal) m ρ c (Proc.devRef .tc r) :=
  StableHlo.after_of_writes_sub _ _ writes_h4 hr

/-- The buffers the host operations before region 6 write. -/
theorem writes_h6 : (hostOps6 : List (HloOp τ sig (Elt Ideal))).Forall fun op =>
    op.writes ⊆ (([main_v19] : List (Ref sig .tc)).map (Proc.devRef (τ := τ) .tc)).toFinset := by
  simp only [hostOps6, List.Forall, StableHlo.unary_writes, StableHlo.reshape_writes, Finset.singleton_subset_iff,
    List.mem_toFinset]
  repeat' apply And.intro
  all_goals exact List.mem_map_of_mem (by decide)

/-- Any other buffer keeps its contents across them. -/
theorem keep_h6 {r : Ref sig .tc} (hr : r ∉ ([main_v19] : List (Ref sig .tc))) :
    W11 (F := Ideal) m ρ c (Proc.devRef .tc r) = W10 (F := Ideal) m ρ c (Proc.devRef .tc r) :=
  StableHlo.after_of_writes_sub _ _ writes_h6 hr

/-- The buffers the host operations before region 7 write. -/
theorem writes_h7 : (hostOps7 : List (HloOp τ sig (Elt Ideal))).Forall fun op =>
    op.writes ⊆ (([main_v21] : List (Ref sig .tc)).map (Proc.devRef (τ := τ) .tc)).toFinset := by
  simp only [hostOps7, List.Forall, StableHlo.unary_writes, StableHlo.reshape_writes, Finset.singleton_subset_iff,
    List.mem_toFinset]
  repeat' apply And.intro
  all_goals exact List.mem_map_of_mem (by decide)

/-- Any other buffer keeps its contents across them. -/
theorem keep_h7 {r : Ref sig .tc} (hr : r ∉ ([main_v21] : List (Ref sig .tc))) :
    W13 (F := Ideal) m ρ c (Proc.devRef .tc r) = W12 (F := Ideal) m ρ c (Proc.devRef .tc r) :=
  StableHlo.after_of_writes_sub _ _ writes_h7 hr

/-! ## The arrays of a round -/

/-- A bias vector laid out as a one-row array. -/
def rsh (b : S2048.Idx → EReal) : S1x2048.Idx → EReal := shapeCast S1x2048 b shapeCasts_S2048_S1x2048

/-- Read as a vector again, it is the bias. -/
theorem rowOf_rsh (b : S2048.Idx → EReal) : rowOf (rsh b) = toRow b := by
  funext j
  exact shapeCast_apply b shapeCasts_S2048_S1x2048 (ix2 (0 : Fin 1) j) (ix1 j) (by
    rw [Shape.rowMajor_val_two, Shape.rowMajor_val_one]; show j.val = 0 * 2048 + j.val; omega)

/-- What the four regions of a round leave, composed: from the round's input array and the ten parameter arrays. -/
def roundA (x a1 : S2048x2048.Idx → EReal) (a2 : S2048.Idx → EReal) (a3 : S2048x2048.Idx → EReal) (a4 : S2048.Idx → EReal)
    (a5 : S2048x2048.Idx → EReal) (a6 : S2048.Idx → EReal) (a7 : S2048x2048.Idx → EReal) (a8 : S2048.Idx → EReal)
    (a9 : S2048x2048.Idx → EReal) (a10 : S2048.Idx → EReal) : S2048x2048.Idx → EReal :=
  linReluAddArr (linReluArr (attnArr (linArr x a1 (rsh a2)) (linArr x a3 (rsh a4)) (linArr x a5 (rsh a6))) a7 (rsh a8))
    a9 (rsh a10) x

/-- It is one round of the specification, with the weighted mean written as one quotient. -/
theorem roundA_eq (x a1 : S2048x2048.Idx → EReal) (a2 : S2048.Idx → EReal) (a3 : S2048x2048.Idx → EReal) (a4 : S2048.Idx → EReal)
    (a5 : S2048x2048.Idx → EReal) (a6 : S2048.Idx → EReal) (a7 : S2048x2048.Idx → EReal) (a8 : S2048.Idx → EReal)
    (a9 : S2048x2048.Idx → EReal) (a10 : S2048.Idx → EReal) :
    roundA x a1 a2 a3 a4 a5 a6 a7 a8 a9 a10
      = ofMat (Cert.Attn.round attnQuot (paramsOf a1 a2 a3 a4 a5 a6 a7 a8 a9 a10) (toMat x)) := by
  unfold roundA linReluAddArr linReluArr attnArr linArr
  simp only [rowOf_rsh]
  rfl

/-! ## The argument arrays at the boundaries where they are read -/

theorem arg0_at1 :
    W1 (F := Ideal) m ρ c (Proc.devRef .tc main_arg0) = (m ((c.tc : Thread nD τ).loc main_arg0)) :=
  (keep_h0 m ρ c (r := main_arg0) (by decide)).trans rfl

theorem arg0_at6 :
    W6 (F := Ideal) m ρ c (Proc.devRef .tc main_arg0) = (m ((c.tc : Thread nD τ).loc main_arg0)) :=
  ((((((keep_h3 m ρ c (r := main_arg0) (by decide)).trans (W5_of_ne m ρ c main_arg0 (by decide))).trans (keep_h2 m ρ c (r := main_arg0) (by decide))).trans (W3_of_ne m ρ c main_arg0 (by decide))).trans ((W2_arr m ρ c 0).trans (((dat0 (V1 m ρ) c).arrAt_in 0 rfl _).trans (A_eq0 (V1 m ρ) c 0)))).trans (keep_h0 m ρ c (r := main_arg0) (by decide))).trans rfl

theorem arg1_at0 :
    W0 (F := Ideal) m ρ c (Proc.devRef .tc main_arg1) = (m ((c.tc : Thread nD τ).loc main_arg1)) :=
  rfl

theorem arg2_at0 :
    W0 (F := Ideal) m ρ c (Proc.devRef .tc main_arg2) = (m ((c.tc : Thread nD τ).loc main_arg2)) :=
  rfl

theorem arg4_at0 :
    W0 (F := Ideal) m ρ c (Proc.devRef .tc main_arg4) = (m ((c.tc : Thread nD τ).loc main_arg4)) :=
  rfl

theorem arg6_at0 :
    W0 (F := Ideal) m ρ c (Proc.devRef .tc main_arg6) = (m ((c.tc : Thread nD τ).loc main_arg6)) :=
  rfl

theorem arg8_at3 :
    W3 (F := Ideal) m ρ c (Proc.devRef .tc main_arg8) = (m ((c.tc : Thread nD τ).loc main_arg8)) :=
  (((W3_of_ne m ρ c main_arg8 (by decide)).trans (W2_of_ne m ρ c main_arg8 (by decide))).trans (keep_h0 m ρ c (r := main_arg8) (by decide))).trans rfl

theorem arg10_at5 :
    W5 (F := Ideal) m ρ c (Proc.devRef .tc main_arg10) = (m ((c.tc : Thread nD τ).loc main_arg10)) :=
  (((((W5_of_ne m ρ c main_arg10 (by decide)).trans (keep_h2 m ρ c (r := main_arg10) (by decide))).trans (W3_of_ne m ρ c main_arg10 (by decide))).trans (W2_of_ne m ρ c main_arg10 (by decide))).trans (keep_h0 m ρ c (r := main_arg10) (by decide))).trans rfl

theorem arg2_at7 :
    W7 (F := Ideal) m ρ c (Proc.devRef .tc main_arg2) = (m ((c.tc : Thread nD τ).loc main_arg2)) :=
  (((((((W7_of_ne m ρ c main_arg2 (by decide)).trans (keep_h3 m ρ c (r := main_arg2) (by decide))).trans (W5_of_ne m ρ c main_arg2 (by decide))).trans (keep_h2 m ρ c (r := main_arg2) (by decide))).trans (W3_of_ne m ρ c main_arg2 (by decide))).trans (W2_of_ne m ρ c main_arg2 (by decide))).trans (keep_h0 m ρ c (r := main_arg2) (by decide))).trans rfl

theorem arg4_at7 :
    W7 (F := Ideal) m ρ c (Proc.devRef .tc main_arg4) = (m ((c.tc : Thread nD τ).loc main_arg4)) :=
  (((((((W7_of_ne m ρ c main_arg4 (by decide)).trans (keep_h3 m ρ c (r := main_arg4) (by decide))).trans (W5_of_ne m ρ c main_arg4 (by decide))).trans (keep_h2 m ρ c (r := main_arg4) (by decide))).trans (W3_of_ne m ρ c main_arg4 (by decide))).trans (W2_of_ne m ρ c main_arg4 (by decide))).trans (keep_h0 m ρ c (r := main_arg4) (by decide))).trans rfl

theorem arg6_at7 :
    W7 (F := Ideal) m ρ c (Proc.devRef .tc main_arg6) = (m ((c.tc : Thread nD τ).loc main_arg6)) :=
  (((((((W7_of_ne m ρ c main_arg6 (by decide)).trans (keep_h3 m ρ c (r := main_arg6) (by decide))).trans (W5_of_ne m ρ c main_arg6 (by decide))).trans (keep_h2 m ρ c (r := main_arg6) (by decide))).trans (W3_of_ne m ρ c main_arg6 (by decide))).trans (W2_of_ne m ρ c main_arg6 (by decide))).trans (keep_h0 m ρ c (r := main_arg6) (by decide))).trans rfl

theorem arg8_at10 :
    W10 (F := Ideal) m ρ c (Proc.devRef .tc main_arg8) = (m ((c.tc : Thread nD τ).loc main_arg8)) :=
  ((((((((((W10_of_ne m ρ c main_arg8 (by decide)).trans (W9_of_ne m ρ c main_arg8 (by decide))).trans (keep_h4 m ρ c (r := main_arg8) (by decide))).trans (W7_of_ne m ρ c main_arg8 (by decide))).trans (keep_h3 m ρ c (r := main_arg8) (by decide))).trans (W5_of_ne m ρ c main_arg8 (by decide))).trans (keep_h2 m ρ c (r := main_arg8) (by decide))).trans (W3_of_ne m ρ c main_arg8 (by decide))).trans (W2_of_ne m ρ c main_arg8 (by decide))).trans (keep_h0 m ρ c (r := main_arg8) (by decide))).trans rfl

theorem arg10_at12 :
    W12 (F := Ideal) m ρ c (Proc.devRef .tc main_arg10) = (m ((c.tc : Thread nD τ).loc main_arg10)) :=
  ((((((((((((W12_of_ne m ρ c main_arg10 (by decide)).trans (keep_h6 m ρ c (r := main_arg10) (by decide))).trans (W10_of_ne m ρ c main_arg10 (by decide))).trans (W9_of_ne m ρ c main_arg10 (by decide))).trans (keep_h4 m ρ c (r := main_arg10) (by decide))).trans (W7_of_ne m ρ c main_arg10 (by decide))).trans (keep_h3 m ρ c (r := main_arg10) (by decide))).trans (W5_of_ne m ρ c main_arg10 (by decide))).trans (keep_h2 m ρ c (r := main_arg10) (by decide))).trans (W3_of_ne m ρ c main_arg10 (by decide))).trans (W2_of_ne m ρ c main_arg10 (by decide))).trans (keep_h0 m ρ c (r := main_arg10) (by decide))).trans rfl

/-! ## What the host operations write -/

/-- A converted weight matrix holds the argument's extended reals. -/
theorem v0_at1 :
    (W1 (F := Ideal) m ρ c (Proc.devRef .tc main_v0) : S2048x2048.Idx → EReal) = (m ((c.tc : Thread nD τ).loc main_arg1)) := by
  show StableHlo.after hostOps0 _ (Proc.devRef .tc main_v0) = _
  after_results
  rfl

theorem v1_at1 :
    (W1 (F := Ideal) m ρ c (Proc.devRef .tc main_v1) : S2048x2048.Idx → EReal) = (m ((c.tc : Thread nD τ).loc main_arg3)) := by
  show StableHlo.after hostOps0 _ (Proc.devRef .tc main_v1) = _
  after_results
  rfl

theorem v2_at1 :
    (W1 (F := Ideal) m ρ c (Proc.devRef .tc main_v2) : S2048x2048.Idx → EReal) = (m ((c.tc : Thread nD τ).loc main_arg5)) := by
  show StableHlo.after hostOps0 _ (Proc.devRef .tc main_v2) = _
  after_results
  rfl

theorem v3_at1 :
    (W1 (F := Ideal) m ρ c (Proc.devRef .tc main_v3) : S2048x2048.Idx → EReal) = (m ((c.tc : Thread nD τ).loc main_arg7)) := by
  show StableHlo.after hostOps0 _ (Proc.devRef .tc main_v3) = _
  after_results
  rfl

theorem v4_at1 :
    (W1 (F := Ideal) m ρ c (Proc.devRef .tc main_v4) : S2048x2048.Idx → EReal) = (m ((c.tc : Thread nD τ).loc main_arg9)) := by
  show StableHlo.after hostOps0 _ (Proc.devRef .tc main_v4) = _
  after_results
  rfl

/-- A reshaped bias is the argument vector laid out as one row. -/
theorem v5_at1 :
    (W1 (F := Ideal) m ρ c (Proc.devRef .tc main_v5) : S1x2048.Idx → EReal) = rsh (m ((c.tc : Thread nD τ).loc main_arg2)) := by
  have e : (W1 (F := Ideal) m ρ c (Proc.devRef .tc main_v5) : S1x2048.Idx → EReal) = rsh (W0 (F := Ideal) m ρ c (Proc.devRef .tc main_arg2)) := by
    show StableHlo.after hostOps0 _ (Proc.devRef .tc main_v5) = _
    after_results
    rfl
  rw [e, (arg2_at0 m ρ c)]

theorem v6_at1 :
    (W1 (F := Ideal) m ρ c (Proc.devRef .tc main_v6) : S1x2048.Idx → EReal) = rsh (m ((c.tc : Thread nD τ).loc main_arg4)) := by
  have e : (W1 (F := Ideal) m ρ c (Proc.devRef .tc main_v6) : S1x2048.Idx → EReal) = rsh (W0 (F := Ideal) m ρ c (Proc.devRef .tc main_arg4)) := by
    show StableHlo.after hostOps0 _ (Proc.devRef .tc main_v6) = _
    after_results
    rfl
  rw [e, (arg4_at0 m ρ c)]

theorem v7_at1 :
    (W1 (F := Ideal) m ρ c (Proc.devRef .tc main_v7) : S1x2048.Idx → EReal) = rsh (m ((c.tc : Thread nD τ).loc main_arg6)) := by
  have e : (W1 (F := Ideal) m ρ c (Proc.devRef .tc main_v7) : S1x2048.Idx → EReal) = rsh (W0 (F := Ideal) m ρ c (Proc.devRef .tc main_arg6)) := by
    show StableHlo.after hostOps0 _ (Proc.devRef .tc main_v7) = _
    after_results
    rfl
  rw [e, (arg6_at0 m ρ c)]

theorem v10_at4 :
    (W4 (F := Ideal) m ρ c (Proc.devRef .tc main_v10) : S1x2048.Idx → EReal) = rsh (m ((c.tc : Thread nD τ).loc main_arg8)) := by
  have e : (W4 (F := Ideal) m ρ c (Proc.devRef .tc main_v10) : S1x2048.Idx → EReal) = rsh (W3 (F := Ideal) m ρ c (Proc.devRef .tc main_arg8)) := by
    show StableHlo.after hostOps2 _ (Proc.devRef .tc main_v10) = _
    after_results
    rfl
  rw [e, (arg8_at3 m ρ c)]

theorem v12_at6 :
    (W6 (F := Ideal) m ρ c (Proc.devRef .tc main_v12) : S1x2048.Idx → EReal) = rsh (m ((c.tc : Thread nD τ).loc main_arg10)) := by
  have e : (W6 (F := Ideal) m ρ c (Proc.devRef .tc main_v12) : S1x2048.Idx → EReal) = rsh (W5 (F := Ideal) m ρ c (Proc.devRef .tc main_arg10)) := by
    show StableHlo.after hostOps3 _ (Proc.devRef .tc main_v12) = _
    after_results
    rfl
  rw [e, (arg10_at5 m ρ c)]

theorem v14_at8 :
    (W8 (F := Ideal) m ρ c (Proc.devRef .tc main_v14) : S1x2048.Idx → EReal) = rsh (m ((c.tc : Thread nD τ).loc main_arg2)) := by
  have e : (W8 (F := Ideal) m ρ c (Proc.devRef .tc main_v14) : S1x2048.Idx → EReal) = rsh (W7 (F := Ideal) m ρ c (Proc.devRef .tc main_arg2)) := by
    show StableHlo.after hostOps4 _ (Proc.devRef .tc main_v14) = _
    after_results
    rfl
  rw [e, (arg2_at7 m ρ c)]

theorem v15_at8 :
    (W8 (F := Ideal) m ρ c (Proc.devRef .tc main_v15) : S1x2048.Idx → EReal) = rsh (m ((c.tc : Thread nD τ).loc main_arg4)) := by
  have e : (W8 (F := Ideal) m ρ c (Proc.devRef .tc main_v15) : S1x2048.Idx → EReal) = rsh (W7 (F := Ideal) m ρ c (Proc.devRef .tc main_arg4)) := by
    show StableHlo.after hostOps4 _ (Proc.devRef .tc main_v15) = _
    after_results
    rfl
  rw [e, (arg4_at7 m ρ c)]

theorem v16_at8 :
    (W8 (F := Ideal) m ρ c (Proc.devRef .tc main_v16) : S1x2048.Idx → EReal) = rsh (m ((c.tc : Thread nD τ).loc main_arg6)) := by
  have e : (W8 (F := Ideal) m ρ c (Proc.devRef .tc main_v16) : S1x2048.Idx → EReal) = rsh (W7 (F := Ideal) m ρ c (Proc.devRef .tc main_arg6)) := by
    show StableHlo.after hostOps4 _ (Proc.devRef .tc main_v16) = _
    after_results
    rfl
  rw [e, (arg6_at7 m ρ c)]

theorem v19_at11 :
    (W11 (F := Ideal) m ρ c (Proc.devRef .tc main_v19) : S1x2048.Idx → EReal) = rsh (m ((c.tc : Thread nD τ).loc main_arg8)) := by
  have e : (W11 (F := Ideal) m ρ c (Proc.devRef .tc main_v19) : S1x2048.Idx → EReal) = rsh (W10 (F := Ideal) m ρ c (Proc.devRef .tc main_arg8)) := by
    show StableHlo.after hostOps6 _ (Proc.devRef .tc main_v19) = _
    after_results
    rfl
  rw [e, (arg8_at10 m ρ c)]

theorem v21_at13 :
    (W13 (F := Ideal) m ρ c (Proc.devRef .tc main_v21) : S1x2048.Idx → EReal) = rsh (m ((c.tc : Thread nD τ).loc main_arg10)) := by
  have e : (W13 (F := Ideal) m ρ c (Proc.devRef .tc main_v21) : S1x2048.Idx → EReal) = rsh (W12 (F := Ideal) m ρ c (Proc.devRef .tc main_arg10)) := by
    show StableHlo.after hostOps7 _ (Proc.devRef .tc main_v21) = _
    after_results
    rfl
  rw [e, (arg10_at12 m ρ c)]

/-! ## The regions, assumed to leave what their statements say -/

section Rounds

variable (h0 : Final0) (h1 : Final1) (h2 : Final2) (h3 : Final3) (h4 : Final4) (h5 : Final5) (h6 : Final6) (h7 : Final7)
include h0 h1 h2 h3 h4 h5 h6 h7

/-! ## The first round -/

/-- Round 1: the queries, keys and values. -/
theorem v8_0_at2 :
    (W2 (F := Ideal) m ρ c (Proc.devRef .tc main_v8_0) : S2048x2048.Idx → EReal) = (linArr (m ((c.tc : Thread nD τ).loc main_arg0)) (m ((c.tc : Thread nD τ).loc main_arg1)) (rsh (m ((c.tc : Thread nD τ).loc main_arg2)))) :=
  (W2_arr m ρ c 7).trans (((h0 (V1 m ρ) c).1).trans (by
    show linArr (W1 (F := Ideal) m ρ c (Proc.devRef .tc main_arg0)) (W1 (F := Ideal) m ρ c (Proc.devRef .tc main_v0)) (W1 (F := Ideal) m ρ c (Proc.devRef .tc main_v5)) = _
    rw [(arg0_at1 m ρ c), (v0_at1 m ρ c), (v5_at1 m ρ c)]))

theorem v8_1_at2 :
    (W2 (F := Ideal) m ρ c (Proc.devRef .tc main_v8_1) : S2048x2048.Idx → EReal) = (linArr (m ((c.tc : Thread nD τ).loc main_arg0)) (m ((c.tc : Thread nD τ).loc main_arg3)) (rsh (m ((c.tc : Thread nD τ).loc main_arg4)))) :=
  (W2_arr m ρ c 8).trans (((h0 (V1 m ρ) c).2.1).trans (by
    show linArr (W1 (F := Ideal) m ρ c (Proc.devRef .tc main_arg0)) (W1 (F := Ideal) m ρ c (Proc.devRef .tc main_v1)) (W1 (F := Ideal) m ρ c (Proc.devRef .tc main_v6)) = _
    rw [(arg0_at1 m ρ c), (v1_at1 m ρ c), (v6_at1 m ρ c)]))

theorem v8_2_at2 :
    (W2 (F := Ideal) m ρ c (Proc.devRef .tc main_v8_2) : S2048x2048.Idx → EReal) = (linArr (m ((c.tc : Thread nD τ).loc main_arg0)) (m ((c.tc : Thread nD τ).loc main_arg5)) (rsh (m ((c.tc : Thread nD τ).loc main_arg6)))) :=
  (W2_arr m ρ c 9).trans (((h0 (V1 m ρ) c).2.2).trans (by
    show linArr (W1 (F := Ideal) m ρ c (Proc.devRef .tc main_arg0)) (W1 (F := Ideal) m ρ c (Proc.devRef .tc main_v2)) (W1 (F := Ideal) m ρ c (Proc.devRef .tc main_v7)) = _
    rw [(arg0_at1 m ρ c), (v2_at1 m ρ c), (v7_at1 m ρ c)]))

/-- Round 1: the weighted means. -/
theorem v9_at3 :
    (W3 (F := Ideal) m ρ c (Proc.devRef .tc main_v9) : S2048x2048.Idx → EReal) = (attnArr (linArr (m ((c.tc : Thread nD τ).loc main_arg0)) (m ((c.tc : Thread nD τ).loc main_arg1)) (rsh (m ((c.tc : Thread nD τ).loc main_arg2)))) (linArr (m ((c.tc : Thread nD τ).loc main_arg0)) (m ((c.tc : Thread nD τ).loc main_arg3)) (rsh (m ((c.tc : Thread nD τ).loc main_arg4)))) (linArr (m ((c.tc : Thread nD τ).loc main_arg0)) (m ((c.tc : Thread nD τ).loc main_arg5)) (rsh (m ((c.tc : Thread nD τ).loc main_arg6))))) :=
  (W3_arr m ρ c 3).trans (((h1 (V2 m ρ) c)).trans (by
    show attnArr (W2 (F := Ideal) m ρ c (Proc.devRef .tc main_v8_0)) (W2 (F := Ideal) m ρ c (Proc.devRef .tc main_v8_1)) (W2 (F := Ideal) m ρ c (Proc.devRef .tc main_v8_2)) = _
    rw [(v8_0_at2 m ρ c h0 h1 h2 h3 h4 h5 h6 h7), (v8_1_at2 m ρ c h0 h1 h2 h3 h4 h5 h6 h7), (v8_2_at2 m ρ c h0 h1 h2 h3 h4 h5 h6 h7)]))

theorem v9_at4 :
    (W4 (F := Ideal) m ρ c (Proc.devRef .tc main_v9) : S2048x2048.Idx → EReal) = (attnArr (linArr (m ((c.tc : Thread nD τ).loc main_arg0)) (m ((c.tc : Thread nD τ).loc main_arg1)) (rsh (m ((c.tc : Thread nD τ).loc main_arg2)))) (linArr (m ((c.tc : Thread nD τ).loc main_arg0)) (m ((c.tc : Thread nD τ).loc main_arg3)) (rsh (m ((c.tc : Thread nD τ).loc main_arg4)))) (linArr (m ((c.tc : Thread nD τ).loc main_arg0)) (m ((c.tc : Thread nD τ).loc main_arg5)) (rsh (m ((c.tc : Thread nD τ).loc main_arg6))))) :=
  (keep_h2 m ρ c (r := main_v9) (by decide)).trans (v9_at3 m ρ c h0 h1 h2 h3 h4 h5 h6 h7)

theorem v3_at4 :
    (W4 (F := Ideal) m ρ c (Proc.devRef .tc main_v3) : S2048x2048.Idx → EReal) = (m ((c.tc : Thread nD τ).loc main_arg7)) :=
  (((keep_h2 m ρ c (r := main_v3) (by decide)).trans (W3_of_ne m ρ c main_v3 (by decide))).trans (W2_of_ne m ρ c main_v3 (by decide))).trans (v3_at1 m ρ c)

/-- Round 1: the first affine map and maximum with zero. -/
theorem v11_at5 :
    (W5 (F := Ideal) m ρ c (Proc.devRef .tc main_v11) : S2048x2048.Idx → EReal) = (linReluArr (attnArr (linArr (m ((c.tc : Thread nD τ).loc main_arg0)) (m ((c.tc : Thread nD τ).loc main_arg1)) (rsh (m ((c.tc : Thread nD τ).loc main_arg2)))) (linArr (m ((c.tc : Thread nD τ).loc main_arg0)) (m ((c.tc : Thread nD τ).loc main_arg3)) (rsh (m ((c.tc : Thread nD τ).loc main_arg4)))) (linArr (m ((c.tc : Thread nD τ).loc main_arg0)) (m ((c.tc : Thread nD τ).loc main_arg5)) (rsh (m ((c.tc : Thread nD τ).loc main_arg6))))) (m ((c.tc : Thread nD τ).loc main_arg7)) (rsh (m ((c.tc : Thread nD τ).loc main_arg8)))) :=
  (W5_arr m ρ c 3).trans (((h2 (V4 m ρ) c)).trans (by
    show linReluArr (W4 (F := Ideal) m ρ c (Proc.devRef .tc main_v9)) (W4 (F := Ideal) m ρ c (Proc.devRef .tc main_v3)) (W4 (F := Ideal) m ρ c (Proc.devRef .tc main_v10)) = _
    rw [(v9_at4 m ρ c h0 h1 h2 h3 h4 h5 h6 h7), (v3_at4 m ρ c h0 h1 h2 h3 h4 h5 h6 h7), (v10_at4 m ρ c)]))

theorem v11_at6 :
    (W6 (F := Ideal) m ρ c (Proc.devRef .tc main_v11) : S2048x2048.Idx → EReal) = (linReluArr (attnArr (linArr (m ((c.tc : Thread nD τ).loc main_arg0)) (m ((c.tc : Thread nD τ).loc main_arg1)) (rsh (m ((c.tc : Thread nD τ).loc main_arg2)))) (linArr (m ((c.tc : Thread nD τ).loc main_arg0)) (m ((c.tc : Thread nD τ).loc main_arg3)) (rsh (m ((c.tc : Thread nD τ).loc main_arg4)))) (linArr (m ((c.tc : Thread nD τ).loc main_arg0)) (m ((c.tc : Thread nD τ).loc main_arg5)) (rsh (m ((c.tc : Thread nD τ).loc main_arg6))))) (m ((c.tc : Thread nD τ).loc main_arg7)) (rsh (m ((c.tc : Thread nD τ).loc main_arg8)))) :=
  (keep_h3 m ρ c (r := main_v11) (by decide)).trans (v11_at5 m ρ c h0 h1 h2 h3 h4 h5 h6 h7)

theorem v4_at6 :
    (W6 (F := Ideal) m ρ c (Proc.devRef .tc main_v4) : S2048x2048.Idx → EReal) = (m ((c.tc : Thread nD τ).loc main_arg9)) :=
  (((((keep_h3 m ρ c (r := main_v4) (by decide)).trans (W5_of_ne m ρ c main_v4 (by decide))).trans (keep_h2 m ρ c (r := main_v4) (by decide))).trans (W3_of_ne m ρ c main_v4 (by decide))).trans (W2_of_ne m ρ c main_v4 (by decide))).trans (v4_at1 m ρ c)

/-- Round 1: its result. -/
theorem v13_at7 :
    (W7 (F := Ideal) m ρ c (Proc.devRef .tc main_v13) : S2048x2048.Idx → EReal) = (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (W7_arr m ρ c 4).trans (((h3 (V6 m ρ) c)).trans (by
    show linReluAddArr (W6 (F := Ideal) m ρ c (Proc.devRef .tc main_v11)) (W6 (F := Ideal) m ρ c (Proc.devRef .tc main_v4)) (W6 (F := Ideal) m ρ c (Proc.devRef .tc main_v12)) (W6 (F := Ideal) m ρ c (Proc.devRef .tc main_arg0)) = _
    rw [(v11_at6 m ρ c h0 h1 h2 h3 h4 h5 h6 h7), (v4_at6 m ρ c h0 h1 h2 h3 h4 h5 h6 h7), (v12_at6 m ρ c), (arg0_at6 m ρ c)]
    rfl))

/-! ## The second round -/

theorem v13_at8 :
    (W8 (F := Ideal) m ρ c (Proc.devRef .tc main_v13) : S2048x2048.Idx → EReal) = (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (keep_h4 m ρ c (r := main_v13) (by decide)).trans (v13_at7 m ρ c h0 h1 h2 h3 h4 h5 h6 h7)

theorem v0_at8 :
    (W8 (F := Ideal) m ρ c (Proc.devRef .tc main_v0) : S2048x2048.Idx → EReal) = (m ((c.tc : Thread nD τ).loc main_arg1)) :=
  (((((((keep_h4 m ρ c (r := main_v0) (by decide)).trans (W7_of_ne m ρ c main_v0 (by decide))).trans (keep_h3 m ρ c (r := main_v0) (by decide))).trans (W5_of_ne m ρ c main_v0 (by decide))).trans (keep_h2 m ρ c (r := main_v0) (by decide))).trans (W3_of_ne m ρ c main_v0 (by decide))).trans ((W2_arr m ρ c 1).trans (((dat0 (V1 m ρ) c).arrAt_in 1 rfl _).trans (A_eq0 (V1 m ρ) c 1)))).trans (v0_at1 m ρ c)

theorem v1_at8 :
    (W8 (F := Ideal) m ρ c (Proc.devRef .tc main_v1) : S2048x2048.Idx → EReal) = (m ((c.tc : Thread nD τ).loc main_arg3)) :=
  (((((((keep_h4 m ρ c (r := main_v1) (by decide)).trans (W7_of_ne m ρ c main_v1 (by decide))).trans (keep_h3 m ρ c (r := main_v1) (by decide))).trans (W5_of_ne m ρ c main_v1 (by decide))).trans (keep_h2 m ρ c (r := main_v1) (by decide))).trans (W3_of_ne m ρ c main_v1 (by decide))).trans ((W2_arr m ρ c 3).trans (((dat0 (V1 m ρ) c).arrAt_in 3 rfl _).trans (A_eq0 (V1 m ρ) c 3)))).trans (v1_at1 m ρ c)

theorem v2_at8 :
    (W8 (F := Ideal) m ρ c (Proc.devRef .tc main_v2) : S2048x2048.Idx → EReal) = (m ((c.tc : Thread nD τ).loc main_arg5)) :=
  (((((((keep_h4 m ρ c (r := main_v2) (by decide)).trans (W7_of_ne m ρ c main_v2 (by decide))).trans (keep_h3 m ρ c (r := main_v2) (by decide))).trans (W5_of_ne m ρ c main_v2 (by decide))).trans (keep_h2 m ρ c (r := main_v2) (by decide))).trans (W3_of_ne m ρ c main_v2 (by decide))).trans ((W2_arr m ρ c 5).trans (((dat0 (V1 m ρ) c).arrAt_in 5 rfl _).trans (A_eq0 (V1 m ρ) c 5)))).trans (v2_at1 m ρ c)

/-- Round 2: the queries, keys and values. -/
theorem v17_0_at9 :
    (W9 (F := Ideal) m ρ c (Proc.devRef .tc main_v17_0) : S2048x2048.Idx → EReal) = (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (rsh (m ((c.tc : Thread nD τ).loc main_arg2)))) :=
  (W9_arr m ρ c 7).trans (((h4 (V8 m ρ) c).1).trans (by
    show linArr (W8 (F := Ideal) m ρ c (Proc.devRef .tc main_v13)) (W8 (F := Ideal) m ρ c (Proc.devRef .tc main_v0)) (W8 (F := Ideal) m ρ c (Proc.devRef .tc main_v14)) = _
    rw [(v13_at8 m ρ c h0 h1 h2 h3 h4 h5 h6 h7), (v0_at8 m ρ c h0 h1 h2 h3 h4 h5 h6 h7), (v14_at8 m ρ c)]))

theorem v17_1_at9 :
    (W9 (F := Ideal) m ρ c (Proc.devRef .tc main_v17_1) : S2048x2048.Idx → EReal) = (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg3)) (rsh (m ((c.tc : Thread nD τ).loc main_arg4)))) :=
  (W9_arr m ρ c 8).trans (((h4 (V8 m ρ) c).2.1).trans (by
    show linArr (W8 (F := Ideal) m ρ c (Proc.devRef .tc main_v13)) (W8 (F := Ideal) m ρ c (Proc.devRef .tc main_v1)) (W8 (F := Ideal) m ρ c (Proc.devRef .tc main_v15)) = _
    rw [(v13_at8 m ρ c h0 h1 h2 h3 h4 h5 h6 h7), (v1_at8 m ρ c h0 h1 h2 h3 h4 h5 h6 h7), (v15_at8 m ρ c)]))

theorem v17_2_at9 :
    (W9 (F := Ideal) m ρ c (Proc.devRef .tc main_v17_2) : S2048x2048.Idx → EReal) = (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg5)) (rsh (m ((c.tc : Thread nD τ).loc main_arg6)))) :=
  (W9_arr m ρ c 9).trans (((h4 (V8 m ρ) c).2.2).trans (by
    show linArr (W8 (F := Ideal) m ρ c (Proc.devRef .tc main_v13)) (W8 (F := Ideal) m ρ c (Proc.devRef .tc main_v2)) (W8 (F := Ideal) m ρ c (Proc.devRef .tc main_v16)) = _
    rw [(v13_at8 m ρ c h0 h1 h2 h3 h4 h5 h6 h7), (v2_at8 m ρ c h0 h1 h2 h3 h4 h5 h6 h7), (v16_at8 m ρ c)]))

/-- Round 2: the weighted means. -/
theorem v18_at10 :
    (W10 (F := Ideal) m ρ c (Proc.devRef .tc main_v18) : S2048x2048.Idx → EReal) = (attnArr (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (rsh (m ((c.tc : Thread nD τ).loc main_arg2)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg3)) (rsh (m ((c.tc : Thread nD τ).loc main_arg4)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg5)) (rsh (m ((c.tc : Thread nD τ).loc main_arg6))))) :=
  (W10_arr m ρ c 3).trans (((h5 (V9 m ρ) c)).trans (by
    show attnArr (W9 (F := Ideal) m ρ c (Proc.devRef .tc main_v17_0)) (W9 (F := Ideal) m ρ c (Proc.devRef .tc main_v17_1)) (W9 (F := Ideal) m ρ c (Proc.devRef .tc main_v17_2)) = _
    rw [(v17_0_at9 m ρ c h0 h1 h2 h3 h4 h5 h6 h7), (v17_1_at9 m ρ c h0 h1 h2 h3 h4 h5 h6 h7), (v17_2_at9 m ρ c h0 h1 h2 h3 h4 h5 h6 h7)]))

theorem v18_at11 :
    (W11 (F := Ideal) m ρ c (Proc.devRef .tc main_v18) : S2048x2048.Idx → EReal) = (attnArr (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (rsh (m ((c.tc : Thread nD τ).loc main_arg2)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg3)) (rsh (m ((c.tc : Thread nD τ).loc main_arg4)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg5)) (rsh (m ((c.tc : Thread nD τ).loc main_arg6))))) :=
  (keep_h6 m ρ c (r := main_v18) (by decide)).trans (v18_at10 m ρ c h0 h1 h2 h3 h4 h5 h6 h7)

theorem v3_at11 :
    (W11 (F := Ideal) m ρ c (Proc.devRef .tc main_v3) : S2048x2048.Idx → EReal) = (m ((c.tc : Thread nD τ).loc main_arg7)) :=
  ((((((((((keep_h6 m ρ c (r := main_v3) (by decide)).trans (W10_of_ne m ρ c main_v3 (by decide))).trans (W9_of_ne m ρ c main_v3 (by decide))).trans (keep_h4 m ρ c (r := main_v3) (by decide))).trans (W7_of_ne m ρ c main_v3 (by decide))).trans (keep_h3 m ρ c (r := main_v3) (by decide))).trans ((W5_arr m ρ c 1).trans (((dat2 (V4 m ρ) c).arrAt_in 1 rfl _).trans (A_eq2 (V4 m ρ) c 1)))).trans (keep_h2 m ρ c (r := main_v3) (by decide))).trans (W3_of_ne m ρ c main_v3 (by decide))).trans (W2_of_ne m ρ c main_v3 (by decide))).trans (v3_at1 m ρ c)

/-- Round 2: the first affine map and maximum with zero. -/
theorem v20_at12 :
    (W12 (F := Ideal) m ρ c (Proc.devRef .tc main_v20) : S2048x2048.Idx → EReal) = (linReluArr (attnArr (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (rsh (m ((c.tc : Thread nD τ).loc main_arg2)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg3)) (rsh (m ((c.tc : Thread nD τ).loc main_arg4)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg5)) (rsh (m ((c.tc : Thread nD τ).loc main_arg6))))) (m ((c.tc : Thread nD τ).loc main_arg7)) (rsh (m ((c.tc : Thread nD τ).loc main_arg8)))) :=
  (W12_arr m ρ c 3).trans (((h6 (V11 m ρ) c)).trans (by
    show linReluArr (W11 (F := Ideal) m ρ c (Proc.devRef .tc main_v18)) (W11 (F := Ideal) m ρ c (Proc.devRef .tc main_v3)) (W11 (F := Ideal) m ρ c (Proc.devRef .tc main_v19)) = _
    rw [(v18_at11 m ρ c h0 h1 h2 h3 h4 h5 h6 h7), (v3_at11 m ρ c h0 h1 h2 h3 h4 h5 h6 h7), (v19_at11 m ρ c)]))

theorem v20_at13 :
    (W13 (F := Ideal) m ρ c (Proc.devRef .tc main_v20) : S2048x2048.Idx → EReal) = (linReluArr (attnArr (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (rsh (m ((c.tc : Thread nD τ).loc main_arg2)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg3)) (rsh (m ((c.tc : Thread nD τ).loc main_arg4)))) (linArr (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg5)) (rsh (m ((c.tc : Thread nD τ).loc main_arg6))))) (m ((c.tc : Thread nD τ).loc main_arg7)) (rsh (m ((c.tc : Thread nD τ).loc main_arg8)))) :=
  (keep_h7 m ρ c (r := main_v20) (by decide)).trans (v20_at12 m ρ c h0 h1 h2 h3 h4 h5 h6 h7)

theorem v4_at13 :
    (W13 (F := Ideal) m ρ c (Proc.devRef .tc main_v4) : S2048x2048.Idx → EReal) = (m ((c.tc : Thread nD τ).loc main_arg9)) :=
  ((((((((((((keep_h7 m ρ c (r := main_v4) (by decide)).trans (W12_of_ne m ρ c main_v4 (by decide))).trans (keep_h6 m ρ c (r := main_v4) (by decide))).trans (W10_of_ne m ρ c main_v4 (by decide))).trans (W9_of_ne m ρ c main_v4 (by decide))).trans (keep_h4 m ρ c (r := main_v4) (by decide))).trans ((W7_arr m ρ c 1).trans (((dat3 (V6 m ρ) c).arrAt_in 1 rfl _).trans (A_eq3 (V6 m ρ) c 1)))).trans (keep_h3 m ρ c (r := main_v4) (by decide))).trans (W5_of_ne m ρ c main_v4 (by decide))).trans (keep_h2 m ρ c (r := main_v4) (by decide))).trans (W3_of_ne m ρ c main_v4 (by decide))).trans (W2_of_ne m ρ c main_v4 (by decide))).trans (v4_at1 m ρ c)

theorem v13_at13 :
    (W13 (F := Ideal) m ρ c (Proc.devRef .tc main_v13) : S2048x2048.Idx → EReal) = (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  ((((((keep_h7 m ρ c (r := main_v13) (by decide)).trans (W12_of_ne m ρ c main_v13 (by decide))).trans (keep_h6 m ρ c (r := main_v13) (by decide))).trans (W10_of_ne m ρ c main_v13 (by decide))).trans ((W9_arr m ρ c 0).trans (((dat4 (V8 m ρ) c).arrAt_in 0 rfl _).trans (A_eq4 (V8 m ρ) c 0)))).trans (keep_h4 m ρ c (r := main_v13) (by decide))).trans (v13_at7 m ρ c h0 h1 h2 h3 h4 h5 h6 h7)

/-- Round 2: its result. -/
theorem v22_at14 :
    (W14 (F := Ideal) m ρ c (Proc.devRef .tc main_v22) : S2048x2048.Idx → EReal) = (roundA (roundA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (W14_arr m ρ c 4).trans (((h7 (V13 m ρ) c)).trans (by
    show linReluAddArr (W13 (F := Ideal) m ρ c (Proc.devRef .tc main_v20)) (W13 (F := Ideal) m ρ c (Proc.devRef .tc main_v4)) (W13 (F := Ideal) m ρ c (Proc.devRef .tc main_v21)) (W13 (F := Ideal) m ρ c (Proc.devRef .tc main_v13)) = _
    rw [(v20_at13 m ρ c h0 h1 h2 h3 h4 h5 h6 h7), (v4_at13 m ρ c h0 h1 h2 h3 h4 h5 h6 h7), (v21_at13 m ρ c), (v13_at13 m ρ c h0 h1 h2 h3 h4 h5 h6 h7)]
    rfl))

end Rounds

/-! ## The result -/

/-- The kernel program's result array is two rounds of the specification on the entity array, with the weighted mean
    written as one quotient. -/
theorem result_eq (h0 : Final0) (h1 : Final1) (h2 : Final2) (h3 : Final3) (h4 : Final4) (h5 : Final5) (h6 : Final6)
    (h7 : Final7) (m : (ℓ : Loc nD τ sig) → Buf (Elt Ideal) ℓ) (ρ : Dev nD → PrngReg) (c : Dev nD) :
    Gen.W14 (F := Ideal) m ρ c (Proc.devRef .tc main_v22)
      = Cert.Attn.twoRounds Cert.Attn.attnQuot
          (Cert.Attn.paramsOf (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10)))
          (m ((c.tc : Thread nD τ).loc main_arg0)) := by
  refine (v22_at14 m ρ c h0 h1 h2 h3 h4 h5 h6 h7).trans ?_
  rw [roundA_eq, roundA_eq]
  rfl

end Cert.KernelIdeal.Chain

end
-- ==== Proof.Algebra.lean ====
/-
  With every input a real number, every intermediate quantity of a round is a real number, and the two
  ways of writing the weighted mean agree: the total weight is a sum of exponentials of reals, a positive
  real, so division by it is multiplication by a real constant, which distributes over a finite sum of reals.
-/
import proofs.«155661_j52089363366285_2_alg».proof.Proof.Spec

noncomputable section

namespace Cert.Attn

open Idealize.ShloMosaic

/-- The starting value of a row maximum is minus infinity. -/
theorem negInf_eq : negInf = ⊥ := by
  simp [negInf, Ideal.ofBits, Ideal.ieee]

/-- The score scale is a real number: its exponent field is neither all zeros nor all ones. -/
theorem scale_real : IsReal scale := by
  unfold scale Ideal.ofBits Ideal.ieee
  simp
  exact ⟨_, rfl⟩

/-! ## The real numbers are closed under the operations of a round -/

theorem IsReal.zero : IsReal (0 : EReal) := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases max_choice a b with h | h <;> rw [h] <;> assumption

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) :
    IsReal (∑ i ∈ s, f i) := by
  choose g hg using h
  exact ⟨∑ i ∈ s, g i, by rw [coe_sum]; exact Finset.sum_congr rfl fun i _ => hg i⟩

/-- The maximum, started from minus infinity, of a nonempty finite family of reals is a real. -/
theorem IsReal.fold_max {ι : Type*} (s : Finset ι) (hs : s.Nonempty) (f : ι → EReal)
    (h : ∀ i, IsReal (f i)) : IsReal (s.fold Max.max ⊥ f) := by
  classical
  induction s using Finset.induction_on with
  | empty => exact absurd hs (by simp)
  | insert a s ha ih =>
    rw [Finset.fold_insert ha]
    rcases s.eq_empty_or_nonempty with rfl | hne
    · rw [Finset.fold_empty, max_bot_right]; exact h a
    · exact (h a).max (ih hne)

/-- The exponential of a real is a positive real. -/
theorem IsReal.exp_pos {a : EReal} (ha : IsReal a) : ∃ r : ℝ, 0 < r ∧ Ideal.exp a = (r : EReal) := by
  obtain ⟨r, rfl⟩ := ha; exact ⟨Real.exp r, Real.exp_pos r, rfl⟩

/-! ## The pieces of a round on real inputs -/

theorem lin_real (x W : Mat) (b : Row) (hx : ∀ n k, IsReal (x n k)) (hW : ∀ j k, IsReal (W j k))
    (hb : ∀ j, IsReal (b j)) (n j : Fin 2048) : IsReal (lin x W b n j) :=
  (IsReal.sum _ _ fun k => (hx n k).mul (hW j k)).add (hb j)

theorem score_real (Q K : Mat) (hQ : ∀ n k, IsReal (Q n k)) (hK : ∀ n k, IsReal (K n k))
    (h : Fin 16) (n k : Fin 2048) : IsReal (score Q K h n k) :=
  (IsReal.sum _ _ fun e => (hQ n (col h e)).mul (hK k (col h e))).mul scale_real

theorem rowMax_real (Q K : Mat) (hQ : ∀ n k, IsReal (Q n k)) (hK : ∀ n k, IsReal (K n k))
    (h : Fin 16) (n : Fin 2048) : IsReal (rowMax Q K h n) := by
  unfold rowMax
  rw [negInf_eq]
  exact IsReal.fold_max _ Finset.univ_nonempty _ fun k => score_real Q K hQ hK h n k

/-- Every weight is a positive real. -/
theorem wgt_pos (Q K : Mat) (hQ : ∀ n k, IsReal (Q n k)) (hK : ∀ n k, IsReal (K n k))
    (h : Fin 16) (n k : Fin 2048) : ∃ r : ℝ, 0 < r ∧ wgt Q K h n k = (r : EReal) :=
  ((score_real Q K hQ hK h n k).sub (rowMax_real Q K hQ hK h n)).exp_pos

/-- On real queries, keys and values the two ways of writing the weighted mean agree, and the mean is
    real: the total weight is a positive real, its reciprocal a real factor that distributes over the sum. -/
theorem attn_real (Q K V : Mat) (hQ : ∀ n k, IsReal (Q n k)) (hK : ∀ n k, IsReal (K n k))
    (hV : ∀ n k, IsReal (V n k)) :
    attnQuot Q K V = attnNorm Q K V ∧ ∀ n j, IsReal (attnQuot Q K V n j) := by
  choose w hwpos hw using fun h n k => wgt_pos Q K hQ hK h n k
  choose v hv using hV
  have key : ∀ n j, attnQuot Q K V n j = attnNorm Q K V n j ∧ IsReal (attnQuot Q K V n j) := by
    intro n j
    have ht : (0 : ℝ) < ∑ k, w (headOf j) n k :=
      Finset.sum_pos (fun k _ => hwpos _ _ _) Finset.univ_nonempty
    unfold attnQuot attnNorm
    simp only [hw, hv, ← EReal.coe_mul, ← coe_sum, Ideal.div_coe ht.ne']
    refine ⟨?_, _, rfl⟩
    congr 1
    rw [Finset.sum_mul]
    exact Finset.sum_congr rfl fun k _ => by ring
  exact ⟨funext fun n => funext fun j => (key n j).1, fun n j => (key n j).2⟩

/-- One round on real inputs: both ways of writing it agree, and the output is real. -/
theorem round_real (P : Params) (hP : P.AllReal) (x : Mat) (hx : ∀ n k, IsReal (x n k)) :
    round attnQuot P x = round attnNorm P x ∧ ∀ n j, IsReal (round attnQuot P x n j) := by
  obtain ⟨hEq, hO⟩ := attn_real (lin x P.Wq P.bq) (lin x P.Wk P.bk) (lin x P.Wv P.bv)
    (lin_real x P.Wq P.bq hx hP.Wq hP.bq) (lin_real x P.Wk P.bk hx hP.Wk hP.bk)
    (lin_real x P.Wv P.bv hx hP.Wv hP.bv)
  refine ⟨by unfold round; rw [hEq], fun n j => ?_⟩
  unfold round
  have h1 : ∀ n j, IsReal (Max.max (lin (attnQuot (lin x P.Wq P.bq) (lin x P.Wk P.bk) (lin x P.Wv P.bv))
      P.W0 P.b0 n j) 0) := fun n j => (lin_real _ _ _ hO hP.W0 hP.b0 n j).max IsReal.zero
  exact (hx n j).add ((lin_real _ _ _ h1 hP.W1 hP.b1 n j).max IsReal.zero)

/-- Two rounds on a real entity array: both ways of writing them agree. -/
theorem twoRounds_eq (P : Params) (hP : P.AllReal) (x : SMat.Idx → EReal) (hx : ∀ i, IsReal (x i)) :
    twoRounds attnQuot P x = twoRounds attnNorm P x := by
  have hx' : ∀ n k, IsReal (toMat x n k) := fun n k => hx _
  obtain ⟨h1, hr⟩ := round_real P hP (toMat x) hx'
  unfold twoRounds
  rw [← h1, (round_real P hP _ hr).1]

end Cert.Attn

end
-- ==== Proof.FiniteArgs.lean ====
/-
  Finite arguments are real numbers.

  The precondition of the certificate is a host program over the eleven argument arrays that returns 1
  exactly when every entry of every array is finite: for each array it compares the absolute value of every
  entry with plus infinity, reduces the comparisons by `and`, and joins the eleven results by `and`.

  Over the extended reals the absolute value of `x` is `max x (-x)` and plus infinity is `⊤`. If
  `max x (-x) < ⊤` then `x` is neither `⊤` (where the maximum is `⊤`) nor `⊥` (where `-x = ⊤`), so `x` is the
  image of a real number. Hence: if the program returns 1, every entry of every array is a real number.
-/
import proofs.«155661_j52089363366285_2_alg».proof.Proof.Spec
import proofs.«155661_j52089363366285_2_alg».proof.Pre_finite_inputs
import Idealize.ShloMosaic.Lib.ReduceAll

namespace Cert.FiniteArgs

open Idealize.ShloMosaic
open Cert.Pre_finite_inputs

/-- The shape of a scalar has one index. -/
instance : Subsingleton S_.Idx := ⟨fun _ _ => funext fun d => d.elim0⟩

/-- The single-precision pattern of plus infinity denotes `⊤`. -/
theorem inf_eq_top : Ideal.ofBits .f32 0x7F800000#32 = (⊤ : EReal) := by
  simp [Ideal.ofBits, Ideal.ieee]

/-- An extended real whose absolute value compares below plus infinity is a real number. -/
theorem isReal_of_abs_lt (x : EReal)
    (h : Ideal.cmp .olt (max x (-x)) (Ideal.ofBits .f32 0x7F800000#32) = 1#1) : Cert.Attn.IsReal x := by
  rw [inf_eq_top] at h
  induction x using EReal.rec with
  | bot => simp [Ideal.cmp] at h
  | top => simp [Ideal.cmp] at h
  | coe r => exact ⟨r, rfl⟩

/-- One array: if the reduction by `and` of "the absolute value is below plus infinity" over all of its
    entries is 1, every entry is a real number. Stated for any shape, so that it serves both the matrices
    and the vectors. -/
theorem all_real {s : Shape} {axes : List (Fin s.rank)}
    (bc : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] bc (constant S_ .f32 0x7F800000#32)))
          (constantI S_ 1 1#1) hr hu ValueIdx.ix0 = 1#1) :
    ∀ i, Cert.Attn.IsReal (a i) := fun i =>
  isReal_of_abs_lt (a i) (Host.reduce_andi_all _ _ hr hu _ h i)

/-- The `and` of two arrays of bits, read at an index. -/
theorem andi_at {s : Shape} {w : Nat} (x y : IVec s w) (i : s.Idx) :
    andi x y i = IntOp.andi (x i) (y i) := rfl

/-- If the finiteness program returns 1 on eleven arrays, every entry of each of them is a real number. -/
theorem args_real [Cert.Pre_finite_inputs.Facts]
    (a0 a1 : FVec Ideal S2048x2048 .f32) (a2 : FVec Ideal S2048 .f32)
    (a3 : FVec Ideal S2048x2048 .f32) (a4 : FVec Ideal S2048 .f32)
    (a5 : FVec Ideal S2048x2048 .f32) (a6 : FVec Ideal S2048 .f32)
    (a7 : FVec Ideal S2048x2048 .f32) (a8 : FVec Ideal S2048 .f32)
    (a9 : FVec Ideal S2048x2048 .f32) (a10 : FVec Ideal S2048 .f32)
    (h : Cert.Pre_finite_inputs.fn (F := Ideal) a0 a1 a2 a3 a4 a5 a6 a7 a8 a9 a10 = fun _ => 1#1) :
    (∀ i, Cert.Attn.IsReal (a0 i)) ∧ (∀ i, Cert.Attn.IsReal (a1 i)) ∧ (∀ i, Cert.Attn.IsReal (a2 i))
    ∧ (∀ i, Cert.Attn.IsReal (a3 i)) ∧ (∀ i, Cert.Attn.IsReal (a4 i)) ∧ (∀ i, Cert.Attn.IsReal (a5 i))
    ∧ (∀ i, Cert.Attn.IsReal (a6 i)) ∧ (∀ i, Cert.Attn.IsReal (a7 i)) ∧ (∀ i, Cert.Attn.IsReal (a8 i))
    ∧ (∀ i, Cert.Attn.IsReal (a9 i)) ∧ (∀ i, Cert.Attn.IsReal (a10 i)) := by
  have h0 := congrFun h ValueIdx.ix0
  dsimp only [fn, fn_part1, fn_part2, fn_part3] at h0
  simp only [andi_at, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7,
    all_real _ _ _ a8 e8, all_real _ _ _ a9 e9, all_real _ _ _ a10 e10⟩

end Cert.FiniteArgs
-- ==== Proof.RefIsSpec.lean ====
/-
  The reference program computes the specification.

  One round of the reference is fifty array operations. Read at an index, the three affine maps give the
  queries, keys and values; the reshape to [2048, 16, 128] followed by the exchange of the first two axes
  reads entry (h, n, e) at row n, column 128 · h + e; the batched contraction over the 128 features times the
  scale constant is the score; the row maximum is a fold of max from minus infinity (a further max with minus
  infinity changes nothing, since a fold of max from b is at least b); the exponentials, their row sum
  (from the initial value zero) and the quotient are the normalised weights; the contraction against the
  values is the weighted mean, written as a sum over normalised weights; the merge of heads reads column j at
  head j / 128, feature j % 128; two further affine maps each followed by a maximum with zero, and the sum
  with the round's input, end the round.

  The second round is the same fifty operations applied to the result of the first, so the whole program is
  the one-round function applied twice.
-/
import proofs.«155661_j52089363366285_2_alg».proof.Proof.Spec
import proofs.«155661_j52089363366285_2_alg».proof.Proof.Gen.ReferenceIdeal.Run
import proofs.«155661_j52089363366285_2_alg».proof.Proof.Gen.ReferenceIdeal.Read

noncomputable section

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.Attn (Mat Row col headOf laneOf lin score rowMax wgt attnNorm toMat toRow ofMat paramsOf twoRounds negInf)

/-- The programs' arrays: a [2048, 2048] matrix and a [2048] vector of extended reals. -/
abbrev AM := (⟨S2048x2048, .f32⟩ : BufTy).Contents (Elt Ideal)
abbrev AR := (⟨S2048, .f32⟩ : BufTy).Contents (Elt Ideal)

/-- Two indices of rank one, two or three with the same coordinates are equal. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

/-! ## The affine map -/

/-- The transposed contraction plus the broadcast bias, at (n, j), is `∑ k, x n k * W j k + b j`. -/
theorem lin_at (x W : AM) (b : AR) (n j : Fin 2048) :
    val_main_v4 (F := Ideal) x W b (ix2 n j) = lin (toMat x) (toMat W) (toRow b) n j := by
  have e1 : ∀ k, lidx_main_v1 (ix2 n j) k = ix2 n k := fun k => by idx2
  have e2 : ∀ k, idx_main_v0 (ridx_main_v1 (ix2 n j) k) = ix2 j k := fun k => by idx2
  have e3 : idx_main_v2 (idx_main_v3 (ix2 n j)) = ix1 j := by idx1
  rw [val_main_v4_apply, val_main_v1_apply, val_main_v3_apply, val_main_v2_apply]
  simp only [val_main_v0_apply, e1, e2, e3, Ideal.addf_def]
  rfl

/-- The same, as matrices. -/
theorem lin_eq (x W : AM) (b : AR) :
    toMat (val_main_v4 (F := Ideal) x W b) = lin (toMat x) (toMat W) (toRow b) :=
  funext fun n => funext fun j => lin_at x W b n j

/-- Split into heads: entry (h, n, e) of the reshaped and transposed array is row n, column 128 · h + e. -/
theorem heads_at (x W : AM) (b : AR) (h : Fin 16) (n : Fin 2048) (e : Fin 128) :
    val_main_v6 (F := Ideal) x W b (ix3 h n e) = lin (toMat x) (toMat W) (toRow b) n (col h e) := by
  have e1 : idx_main_v5 (idx_main_v6 (ix3 h n e)) = ix2 n (col h e) := by
    funext a; apply Fin.ext
    match a with
    | ⟨0, _⟩ => show ((n.val * 16 + h.val) * 128 + e.val) / 2048 = n.val; omega
    | ⟨1, _⟩ => show ((n.val * 16 + h.val) * 128 + e.val) % 2048 = 128 * h.val + e.val; omega
  rw [val_main_v6_apply, val_main_v5_apply, e1, lin_at]

/-! ## Attention within a round -/

section Attention

variable (x a1 : AM) (a2 : AR) (a3 : AM) (a4 : AR) (a5 : AM) (a6 : AR)

/-- The scaled batched contraction over the 128 features of a head is the score. -/
theorem score_at (h : Fin 16) (n k : Fin 2048) :
    val_main_v23 (F := Ideal) x a1 a2 a3 a4 (ix3 h n k) = score (lin (toMat x) (toMat a1) (toRow a2)) (lin (toMat x) (toMat a3) (toRow a4)) h n k := by
  have e1 : ∀ e, lidx_main_v21 (ix3 h n k) e = ix3 h n e := fun e => by idx3
  have e2 : ∀ e, ridx_main_v21 (ix3 h n k) e = ix3 h k e := fun e => by idx3
  have e3 : ∀ (y W : AM) (b : AR), val_main_v13 (F := Ideal) y W b = val_main_v6 (F := Ideal) y W b :=
    fun _ _ _ => rfl
  rw [val_main_v23_apply, val_main_v21_apply, val_main_v22_apply, val_main_cst_apply]
  simp only [e1, e2, e3, heads_at, Ideal.mulf_def, Ideal.ofBits_def]
  rfl

/-- The reduced index (h, n) with key k put back on the last axis is (h, n, k). -/
theorem lift_at (hr : S16x2048x2048.Reduces [2] S16x2048) (h : Fin 16) (n : Fin 2048)
    (k : Fin (S16x2048x2048.size 2)) :
    hr.lift (ix2 h n) k = ix3 h n (⟨k.val, k.isLt⟩ : Fin 2048) := by
  funext c; apply Fin.ext
  fin_cases c <;> rfl

/-- A fold of max from b is at least b, so a further max with b changes nothing. -/
theorem max_fold_self (b : EReal) (f : Fin 2048 → EReal) :
    max b ((Finset.univ : Finset (Fin 2048)).fold max b f) = (Finset.univ : Finset (Fin 2048)).fold max b f :=
  max_eq_right ((Finset.le_fold_max _).2 (Or.inl le_rfl))

/-- The max-reduce over the keys, and the max with minus infinity after it, is the row maximum. -/
theorem rowMax_at (h : Fin 16) (n : Fin 2048) :
    val_main_v26 (F := Ideal) x a1 a2 a3 a4 (ix2 h n) = rowMax (lin (toMat x) (toMat a1) (toRow a2)) (lin (toMat x) (toMat a3) (toRow a4)) h n := by
  have hr : S16x2048x2048.Reduces [2] S16x2048 := by decide
  have hf : (val_main_v23 (F := Ideal) x a1 a2 a3 a4 ∘ hr.lift (ix2 h n))
      = fun k : Fin 2048 => score (lin (toMat x) (toMat a1) (toRow a2)) (lin (toMat x) (toMat a3) (toRow a4)) h n k :=
    funext fun k => by
      show val_main_v23 (F := Ideal) x a1 a2 a3 a4 (hr.lift (ix2 h n) k) = _
      rw [lift_at, score_at]
      rfl
  have h24 : val_main_v24 (F := Ideal) x a1 a2 a3 a4 (ix2 h n)
      = (Finset.univ : Finset (Fin 2048)).fold max negInf (fun k => score (lin (toMat x) (toMat a1) (toRow a2)) (lin (toMat x) (toMat a3) (toRow a4)) h n k) := by
    unfold val_main_v24
    rw [Host.reduce_eq_fold_single FloatOps.maximumf _ _ reducesTo_S16x2048x2048_S16x2048_d2 hr h_S_]
    exact congrArg (fun f => Finset.fold max negInf f (Finset.univ : Finset (Fin 2048))) hf
  have h25 : val_main_v25 (F := Ideal) (ix2 h n) = negInf := by
    rw [val_main_v25_apply, val_main_cst_1_apply]; rfl
  rw [val_main_v26_apply, h24, h25, Ideal.maximumf_def, max_fold_self]
  rfl

/-- The exponential of the score less the row maximum is the weight. -/
theorem wgt_at (h : Fin 16) (n k : Fin 2048) :
    val_main_v30 (F := Ideal) x a1 a2 a3 a4 (ix3 h n k) = wgt (lin (toMat x) (toMat a1) (toRow a2)) (lin (toMat x) (toMat a3) (toRow a4)) h n k := by
  have e1 : idx_main_v27 (idx_main_v28 (ix3 h n k)) = ix2 h n := by idx2
  rw [val_main_v30_apply, val_main_v29_apply, val_main_v28_apply, val_main_v27_apply, e1, score_at, rowMax_at,
    Ideal.subf_def, Ideal.hostUnary_exp_def]
  rfl

/-- The sum-reduce over the keys from the initial value zero is the total weight. -/
theorem total_at (h : Fin 16) (n : Fin 2048) :
    val_main_v31 (F := Ideal) x a1 a2 a3 a4 (ix2 h n) = ∑ k, wgt (lin (toMat x) (toMat a1) (toRow a2)) (lin (toMat x) (toMat a3) (toRow a4)) h n k := by
  have e1 : ∀ k, idx_main_v31 (ix2 h n) k = ix3 h n k := fun k => by idx3
  rw [val_main_v31_apply, val_main_cst_2_apply, Ideal.ofBits_def, Ideal.ofBits_zero_f32, zero_add]
  simp only [e1, wgt_at]

/-- The quotient of a weight by the total weight of its row. -/
theorem norm_at (h : Fin 16) (n k : Fin 2048) :
    val_main_v34 (F := Ideal) x a1 a2 a3 a4 (ix3 h n k)
      = Ideal.div (wgt (lin (toMat x) (toMat a1) (toRow a2)) (lin (toMat x) (toMat a3) (toRow a4)) h n k) (∑ k', wgt (lin (toMat x) (toMat a1) (toRow a2)) (lin (toMat x) (toMat a3) (toRow a4)) h n k') := by
  have e1 : idx_main_v32 (idx_main_v33 (ix3 h n k)) = ix2 h n := by idx2
  rw [val_main_v34_apply, val_main_v33_apply, val_main_v32_apply, e1, wgt_at, total_at, Ideal.hostDivf_def]

/-- The contraction of the normalised weights against the values of a head is the weighted mean. -/
theorem attn_at (h : Fin 16) (n : Fin 2048) (e : Fin 128) :
    val_main_v35 (F := Ideal) x a1 a2 a3 a4 a5 a6 (ix3 h n e) = attnNorm (lin (toMat x) (toMat a1) (toRow a2)) (lin (toMat x) (toMat a3) (toRow a4)) (lin (toMat x) (toMat a5) (toRow a6)) n (col h e) := by
  have e1 : ∀ k, lidx_main_v35 (ix3 h n e) k = ix3 h n k := fun k => by idx3
  have e2 : ∀ k, ridx_main_v35 (ix3 h n e) k = ix3 h k e := fun k => by idx3
  have e3 : ∀ (y W : AM) (b : AR), val_main_v20 (F := Ideal) y W b = val_main_v6 (F := Ideal) y W b :=
    fun _ _ _ => rfl
  rw [val_main_v35_apply]
  simp only [e1, e2, e3, heads_at, norm_at]
  unfold attnNorm
  rw [Cert.Attn.headOf_col]

/-- Merge of heads: column j of the merged array is head j / 128, feature j % 128. -/
theorem merged_at (n j : Fin 2048) :
    val_main_v37 (F := Ideal) x a1 a2 a3 a4 a5 a6 (ix2 n j) = attnNorm (lin (toMat x) (toMat a1) (toRow a2)) (lin (toMat x) (toMat a3) (toRow a4)) (lin (toMat x) (toMat a5) (toRow a6)) n j := by
  have e1 : idx_main_v36 (idx_main_v37 (ix2 n j)) = ix3 (headOf j) n (laneOf j) := by
    funext a; apply Fin.ext
    match a with
    | ⟨0, _⟩ => show (n.val * 2048 + j.val) / 128 % 16 = j.val / 128; omega
    | ⟨1, _⟩ => show (n.val * 2048 + j.val) / 2048 = n.val; omega
    | ⟨2, _⟩ => show (n.val * 2048 + j.val) % 128 = j.val % 128; omega
  rw [val_main_v37_apply, val_main_v36_apply, e1, attn_at, Cert.Attn.col_head_lane]

theorem merged_eq :
    toMat (val_main_v37 (F := Ideal) x a1 a2 a3 a4 a5 a6) = attnNorm (lin (toMat x) (toMat a1) (toRow a2)) (lin (toMat x) (toMat a3) (toRow a4)) (lin (toMat x) (toMat a5) (toRow a6)) :=
  funext fun n => funext fun j => merged_at x a1 a2 a3 a4 a5 a6 n j

end Attention

/-! ## One round, and the two rounds -/

/-- The broadcast zero constant of a maximum-with-zero. -/
theorem relu_zero (i : S2048x2048.Idx) : val_main_call0_v0 (F := Ideal) i = 0 := by
  rw [val_main_call0_v0_apply, val_main_call0_cst_apply, Ideal.ofBits_def, Ideal.ofBits_zero_f32]

/-- The first fifty operations, applied to any array x, are one round of the specification. -/
theorem round_eq (x a1 : AM) (a2 : AR) (a3 : AM) (a4 : AR) (a5 : AM) (a6 : AR) (a7 : AM) (a8 : AR) (a9 : AM)
    (a10 : AR) :
    val_main_v50 (F := Ideal) x a1 a2 a3 a4 a5 a6 a7 a8 a9 a10
      = ofMat (Cert.Attn.round attnNorm (paramsOf a1 a2 a3 a4 a5 a6 a7 a8 a9 a10) (toMat x)) := by
  funext i
  obtain ⟨n, j, rfl⟩ : ∃ (n : Fin 2048) (j : Fin 2048), i = ix2 n j := ⟨i 0, i 1, eq_ix2 i⟩
  have h42 : val_main_v42 (F := Ideal) x a1 a2 a3 a4 a5 a6 a7 a8
      = val_main_v4 (F := Ideal) (val_main_v37 (F := Ideal) x a1 a2 a3 a4 a5 a6) a7 a8 := rfl
  have h43 : toMat (val_main_v43 (F := Ideal) x a1 a2 a3 a4 a5 a6 a7 a8)
      = fun n j => max (lin (attnNorm (lin (toMat x) (toMat a1) (toRow a2)) (lin (toMat x) (toMat a3) (toRow a4)) (lin (toMat x) (toMat a5) (toRow a6))) (toMat a7) (toRow a8) n j) 0 := by
    funext n j
    show val_main_v43 (F := Ideal) x a1 a2 a3 a4 a5 a6 a7 a8 (ix2 n j) = _
    rw [val_main_v43_apply, relu_zero, h42, lin_at, merged_eq, Ideal.maximumf_def]
  have h48 : val_main_v48 (F := Ideal) x a1 a2 a3 a4 a5 a6 a7 a8 a9 a10
      = val_main_v4 (F := Ideal) (val_main_v43 (F := Ideal) x a1 a2 a3 a4 a5 a6 a7 a8) a9 a10 := rfl
  have h49z : val_main_call1_v0 (F := Ideal) (ix2 n j) = 0 := relu_zero (ix2 n j)
  rw [val_main_v50_apply, val_main_v49_apply, h49z, h48, lin_at, h43, Ideal.maximumf_def, Ideal.addf_def]
  rfl

/-- The reference's result array is two rounds of the specification on the entity array. -/
theorem result_eq (a0 a1 : AM) (a2 : AR) (a3 : AM) (a4 : AR) (a5 : AM) (a6 : AR) (a7 : AM) (a8 : AR) (a9 : AM)
    (a10 : AR) :
    val_main_v101 (F := Ideal) a0 a1 a2 a3 a4 a5 a6 a7 a8 a9 a10
      = twoRounds attnNorm (paramsOf a1 a2 a3 a4 a5 a6 a7 a8 a9 a10) a0 := by
  have h : val_main_v101 (F := Ideal) a0 a1 a2 a3 a4 a5 a6 a7 a8 a9 a10
      = val_main_v50 (F := Ideal) (val_main_v50 (F := Ideal) a0 a1 a2 a3 a4 a5 a6 a7 a8 a9 a10)
          a1 a2 a3 a4 a5 a6 a7 a8 a9 a10 := rfl
  rw [h, round_eq, round_eq]
  rfl

/-- The same for the term the run of the reference names as its result: with the argument buffers' launch
    contents for the eleven arrays. -/
theorem res_eq (m : (ℓ : Loc nD τ sig) → Buf (Elt Ideal) ℓ) (c : Dev nD) :
    Cert.ReferenceIdeal.Value.res_main_v101 (F := Ideal) m c
      = twoRounds attnNorm
          (paramsOf (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10)))
          (m ((c.tc : Thread nD τ).loc main_arg0)) :=
  (val_main_v101_eq (F := Ideal) m c).trans (result_eq _ _ _ _ _ _ _ _ _ _ _)

end Cert.ReferenceIdeal.RefSpec

end
-- ==== Proof.lean ====
/-
  Two rounds of multi-head self-attention: the tiled kernel program and the plain reference compute the same matrix.

  One round maps an entity matrix x (2048 entities by 2048 features) to x + relu (relu (A(x) · W₀ᵀ + b₀) · W₁ᵀ + b₁), where
  A(x) gathers, for each of 16 heads of 128 features, the weighted mean of the values x · W_vᵀ + b_v under the weights
  exp (score − row maximum), the scores being the scaled inner products of queries x · W_qᵀ + b_q and keys x · W_kᵀ + b_k.
  The reference normalises the weights first and then averages; the kernel averages first and divides the 128-wide result
  by the total weight. Read on the extended reals, every affine map and every reduction is the same finite sum on both
  sides whatever the tiling, and the two ways of writing the weighted mean agree because the total weight is a positive
  real number: a positive real factor distributes over a sum of extended reals. That the total weight is a positive real
  needs every score to be a real number, hence every input: this is where the precondition (all inputs finite) is used,
  and it is carried from the first round's output into the second round.

  The pieces: the specification (Spec), the agreement of the two forms on real inputs and the realness of a round's
  output (Algebra), finite inputs are real numbers (FiniteArgs), the reference's result is the specification with
  normalised weights (RefIsSpec), the kernel program's run with its result array named (KernelRun), each of its eight
  regions' output arrays as a function of the arrays it reads (FinalQkv, FinalAttn, FinalLinear over the tile functions of
  PayLinear and PayAttn), and the result array read back through the program's segments to the specification with the
  quotient form (Chain). The two word-level and idealized frames are the generated ones; the reference's frame is its
  generated run with the result forgotten; the idealization rewrote nothing, so its soundness statement is `True`.
-/
import proofs.«155661_j52089363366285_2_alg».proof.Defs
import proofs.«155661_j52089363366285_2_alg».proof.Proof.Gen.Kernel
import proofs.«155661_j52089363366285_2_alg».proof.Proof.Gen.Kernel.Skeleton
import proofs.«155661_j52089363366285_2_alg».proof.Proof.Gen.Kernel.Launch
import proofs.«155661_j52089363366285_2_alg».proof.Proof.Gen.Kernel.Points
import proofs.«155661_j52089363366285_2_alg».proof.Proof.Gen.Kernel.Frame
import proofs.«155661_j52089363366285_2_alg».proof.Proof.Gen.KernelIdeal
import proofs.«155661_j52089363366285_2_alg».proof.Proof.Gen.KernelIdeal.Skeleton
import proofs.«155661_j52089363366285_2_alg».proof.Proof.Gen.KernelIdeal.Launch
import proofs.«155661_j52089363366285_2_alg».proof.Proof.Gen.KernelIdeal.Points
import proofs.«155661_j52089363366285_2_alg».proof.Proof.Gen.KernelIdeal.Frame
import proofs.«155661_j52089363366285_2_alg».proof.Proof.Gen.ReferenceIdeal
import proofs.«155661_j52089363366285_2_alg».proof.Proof.Gen.ReferenceIdeal.Run
import proofs.«155661_j52089363366285_2_alg».proof.Proof.Gen.ReferenceIdeal.Read
import proofs.«155661_j52089363366285_2_alg».proof.Proof.Gen.Pre_finite_inputs
import proofs.«155661_j52089363366285_2_alg».proof.Proof.KernelRun
import proofs.«155661_j52089363366285_2_alg».proof.Proof.RegionSpec
import proofs.«155661_j52089363366285_2_alg».proof.Proof.FinalQkv
import proofs.«155661_j52089363366285_2_alg».proof.Proof.FinalAttn
import proofs.«155661_j52089363366285_2_alg».proof.Proof.FinalLinear
import proofs.«155661_j52089363366285_2_alg».proof.Proof.Chain
import proofs.«155661_j52089363366285_2_alg».proof.Proof.Algebra
import proofs.«155661_j52089363366285_2_alg».proof.Proof.FiniteArgs
import proofs.«155661_j52089363366285_2_alg».proof.Proof.RefIsSpec
import Idealize.ShloMosaic.Adequacy
import Idealize.ShloMosaic.Init

noncomputable section

namespace Cert.Proof

open Idealize.ShloMosaic Idealize.ShloMosaic.TcCoe Idealize.SL.Sem Cert.Attn

/-- The result array of the kernel program, at the last segment boundary, is two rounds of the specification with the
    weighted mean written as a quotient: each region's output array from the arrays it reads, chained through the
    program's segments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W14 (F := Ideal) m ρ c (Proc.devRef .tc Cert.KernelIdeal.main_v22)
      = twoRounds attnQuot (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg0)) :=
  Cert.KernelIdeal.Chain.result_eq Cert.KernelIdeal.Region.final0 Cert.KernelIdeal.Region.final1 Cert.KernelIdeal.Region.final2
    Cert.KernelIdeal.Region.final3 Cert.KernelIdeal.Region.final4 Cert.KernelIdeal.Region.final5 Cert.KernelIdeal.Region.final6
    Cert.KernelIdeal.Region.final7 m ρ c

/-- Both idealized programs, from memories that agree on the arguments, end with the same result array: the kernel's is
    the quotient form of two rounds, the reference's the normalised form, and on finite inputs the two forms agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => twoRounds attnQuot (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg0)), ?_, ?_⟩
  · exact (θ_run Cert.KernelIdeal.defs _ _).mono (fun r h c => ⟨(h c).1.trans (kernel_result m ρ c), (h c).2⟩)
      (Cert.KernelIdeal.Result.run (F := Ideal) m ρ)
  · refine (θ_run Cert.ReferenceIdeal.defs _ _).mono (fun r h c => ⟨?_, (h c).2⟩)
      (Cert.ReferenceIdeal.Value.run (F := Ideal) m' ρ')
    obtain ⟨g0, g1, g2, g3, g4, g5, g6, g7, g8, g9, g10⟩ := hagree c
    obtain ⟨r0, r1, r2, r3, r4, r5, r6, r7, r8, r9, r10⟩ := Cert.FiniteArgs.args_real _ _ _ _ _ _ _ _ _ _ _ (hpre c)
    rw [(h c).1, Cert.ReferenceIdeal.RefSpec.res_eq, g0, g1, g2, g3, g4, g5, g6, g7, g8, g9, g10]
    refine (twoRounds_eq _ ?_ _ r0).symm
    exact ⟨fun i j => r1 _, fun j => r2 _, fun i j => r3 _, fun j => r4 _, fun i j => r5 _, fun j => r6 _,
      fun i j => r7 _, fun j => r8 _, fun i j => r9 _, fun j => r10 _⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
